-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v223)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S10x512 : Shape := ⟨2, ![10, 512]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S10x512 : S_.BroadcastsInDim S10x512 (![] : Fin 0 → Fin S10x512.rank)
  reducesTo_S10x512_S_d0_1 : S10x512.ReducesTo [0, 1] S_

variable [Facts]

def fn {F : FTy → Type} [FloatOps F] (main_arg0 : FVec F S32768x1024 .f32) (main_arg1 : FVec F S10x512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S10x512 .f32 := Host.absf main_arg1
  let main_cst_0 : FVec F S_ .f32 := constant S_ .f32 0x7F800000#32
  let main_v5 : FVec F S10x512 .f32 := broadcastInDim S10x512 ![] bcast_S_S10x512 main_cst_0
  let main_v6 : IVec S10x512 1 := cmpf .olt main_v4 main_v5
  let main_c_1 : IVec S_ 1 := constantI S_ 1 1#1
  let main_v7 : IVec S_ 1 := (fun x v => Host.reduce IntOp.andi x v reducesTo_S10x512_S_d0_1 h_S_) main_v6 main_c_1
  let main_v8 : IVec S_ 1 := andi main_v3 main_v7
  main_v8
-- ==== Kernel.lean ====
abbrev S32768x1024 : Shape := ⟨2, ![32768, 1024]⟩
abbrev S10x512 : Shape := ⟨2, ![10, 512]⟩
abbrev S1x512 : Shape := ⟨2, ![1, 512]⟩
abbrev S512 : Shape := ⟨1, ![512]⟩
abbrev S512x1 : Shape := ⟨2, ![512, 1]⟩
abbrev S_ : Shape := ⟨0, ![]⟩
abbrev S512x1x1 : Shape := ⟨3, ![512, 1, 1]⟩
abbrev S512x2x1 : Shape := ⟨3, ![512, 2, 1]⟩
abbrev S1024 : Shape := ⟨1, ![1024]⟩
abbrev S256x2 : Shape := ⟨2, ![256, 2]⟩
abbrev S256x1x2 : Shape := ⟨3, ![256, 1, 2]⟩
abbrev S256x2x2 : Shape := ⟨3, ![256, 2, 2]⟩
abbrev S128x4 : Shape := ⟨2, ![128, 4]⟩
abbrev S128x1x4 : Shape := ⟨3, ![128, 1, 4]⟩
abbrev S128x2x4 : Shape := ⟨3, ![128, 2, 4]⟩
abbrev S64x8 : Shape := ⟨2, ![64, 8]⟩
abbrev S64x1x8 : Shape := ⟨3, ![64, 1, 8]⟩
abbrev S64x2x8 : Shape := ⟨3, ![64, 2, 8]⟩
abbrev S32x16 : Shape := ⟨2, ![32, 16]⟩
abbrev S32x1x16 : Shape := ⟨3, ![32, 1, 16]⟩
abbrev S32x2x16 : Shape := ⟨3, ![32, 2, 16]⟩
abbrev S16x32 : Shape := ⟨2, ![16, 32]⟩
abbrev S16x1x32 : Shape := ⟨3, ![16, 1, 32]⟩
abbrev S16x2x32 : Shape := ⟨3, ![16, 2, 32]⟩
abbrev S8x64 : Shape := ⟨2, ![8, 64]⟩
abbrev S8x1x64 : Shape := ⟨3, ![8, 1, 64]⟩
abbrev S8x2x64 : Shape := ⟨3, ![8, 2, 64]⟩
abbrev S4x128 : Shape := ⟨2, ![4, 128]⟩
abbrev S4x1x128 : Shape := ⟨3, ![4, 1, 128]⟩
abbrev S4x2x128 : Shape := ⟨3, ![4, 2, 128]⟩
abbrev S2x256 : Shape := ⟨2, ![2, 256]⟩
abbrev S2x1x256 : Shape := ⟨3, ![2, 1, 256]⟩
abbrev S2x2x256 : Shape := ⟨3, ![2, 2, 256]⟩
abbrev S1x1x512 : Shape := ⟨3, ![1, 1, 512]⟩
abbrev S1x2x512 : Shape := ⟨3, ![1, 2, 512]⟩
abbrev S1x1024 : Shape := ⟨2, ![1, 1024]⟩
abbrev S10x1024 : Shape := ⟨2, ![10, 1024]⟩
abbrev S512x1024 : Shape := ⟨2, ![512, 1024]⟩

abbrev nBuf : Space → Nat
  | .hbm => 246
  | .vmem => 7
  | .smem => 0
  | _ => 0

abbrev hbmTy0_0 (i : Nat) : BufTy := match i % 128 with
  | 0 => ⟨S32768x1024, .f32⟩
  | 1 => ⟨S10x512, .f32⟩
  | 2 => ⟨S1x512, .f32⟩
  | 3 => ⟨S512, .f32⟩
  | 4 => ⟨S512x1, .f32⟩
  | 5 => ⟨S512x1, .f32⟩
  | 6 => ⟨S512x1, .f32⟩
  | 7 => ⟨S_, .f32⟩
  | 8 => ⟨S512x1, .f32⟩
  | 9 => ⟨S_, .f32⟩
  | 10 => ⟨S512x1, .f32⟩
  | 11 => ⟨S512x1x1, .f32⟩
  | 12 => ⟨S512x1x1, .f32⟩
  | 13 => ⟨S512x2x1, .f32⟩
  | 14 => ⟨S1024, .f32⟩
  | 15 => ⟨S512x1x1, .f32⟩
  | 16 => ⟨S512x1x1, .f32⟩
  | 17 => ⟨S512x2x1, .f32⟩
  | 18 => ⟨S1024, .f32⟩
  | 19 => ⟨S512x1x1, .f32⟩
  | 20 => ⟨S512x1x1, .f32⟩
  | 21 => ⟨S512x2x1, .f32⟩
  | 22 => ⟨S1024, .f32⟩
  | 23 => ⟨S1x512, .f32⟩
  | 24 => ⟨S512, .f32⟩
  | 25 => ⟨S256x2, .f32⟩
  | 26 => ⟨S256x2, .f32⟩
  | 27 => ⟨S256x2, .f32⟩
  | 28 => ⟨S_, .f32⟩
  | 29 => ⟨S256x2, .f32⟩
  | 30 => ⟨S_, .f32⟩
  | 31 => ⟨S256x2, .f32⟩
  | 32 => ⟨S256x1x2, .f32⟩
  | 33 => ⟨S256x1x2, .f32⟩
  | 34 => ⟨S256x2x2, .f32⟩
  | 35 => ⟨S1024, .f32⟩
  | 36 => ⟨S256x1x2, .f32⟩
  | 37 => ⟨S256x1x2, .f32⟩
  | 38 => ⟨S256x2x2, .f32⟩
  | 39 => ⟨S1024, .f32⟩
  | 40 => ⟨S256x1x2, .f32⟩
  | 41 => ⟨S256x1x2, .f32⟩
  | 42 => ⟨S256x2x2, .f32⟩
  | 43 => ⟨S1024, .f32⟩
  | 44 => ⟨S1x512, .f32⟩
  | 45 => ⟨S512, .f32⟩
  | 46 => ⟨S128x4, .f32⟩
  | 47 => ⟨S128x4, .f32⟩
  | 48 => ⟨S128x4, .f32⟩
  | 49 => ⟨S_, .f32⟩
  | 50 => ⟨S128x4, .f32⟩
  | 51 => ⟨S_, .f32⟩
  | 52 => ⟨S128x4, .f32⟩
  | 53 => ⟨S128x1x4, .f32⟩
  | 54 => ⟨S128x1x4, .f32⟩
  | 55 => ⟨S128x2x4, .f32⟩
  | 56 => ⟨S1024, .f32⟩
  | 57 => ⟨S128x1x4, .f32⟩
  | 58 => ⟨S128x1x4, .f32⟩
  | 59 => ⟨S128x2x4, .f32⟩
  | 60 => ⟨S1024, .f32⟩
  | 61 => ⟨S128x1x4, .f32⟩
  | 62 => ⟨S128x1x4, .f32⟩
  | 63 => ⟨S128x2x4, .f32⟩
  | 64 => ⟨S1024, .f32⟩
  | 65 => ⟨S1x512, .f32⟩
  | 66 => ⟨S512, .f32⟩
  | 67 => ⟨S64x8, .f32⟩
  | 68 => ⟨S64x8, .f32⟩
  | 69 => ⟨S64x8, .f32⟩
  | 70 => ⟨S_, .f32⟩
  | 71 => ⟨S64x8, .f32⟩
  | 72 => ⟨S_, .f32⟩
  | 73 => ⟨S64x8, .f32⟩
  | 74 => ⟨S64x1x8, .f32⟩
  | 75 => ⟨S64x1x8, .f32⟩
  | 76 => ⟨S64x2x8, .f32⟩
  | 77 => ⟨S1024, .f32⟩
  | 78 => ⟨S64x1x8, .f32⟩
  | 79 => ⟨S64x1x8, .f32⟩
  | 80 => ⟨S64x2x8, .f32⟩
  | 81 => ⟨S1024, .f32⟩
  | 82 => ⟨S64x1x8, .f32⟩
  | 83 => ⟨S64x1x8, .f32⟩
  | 84 => ⟨S64x2x8, .f32⟩
  | 85 => ⟨S1024, .f32⟩
  | 86 => ⟨S1x512, .f32⟩
  | 87 => ⟨S512, .f32⟩
  | 88 => ⟨S32x16, .f32⟩
  | 89 => ⟨S32x16, .f32⟩
  | 90 => ⟨S32x16, .f32⟩
  | 91 => ⟨S_, .f32⟩
  | 92 => ⟨S32x16, .f32⟩
  | 93 => ⟨S_, .f32⟩
  | 94 => ⟨S32x16, .f32⟩
  | 95 => ⟨S32x1x16, .f32⟩
  | 96 => ⟨S32x1x16, .f32⟩
  | 97 => ⟨S32x2x16, .f32⟩
  | 98 => ⟨S1024, .f32⟩
  | 99 => ⟨S32x1x16, .f32⟩
  | 100 => ⟨S32x1x16, .f32⟩
  | 101 => ⟨S32x2x16, .f32⟩
  | 102 => ⟨S1024, .f32⟩
  | 103 => ⟨S32x1x16, .f32⟩
  | 104 => ⟨S32x1x16, .f32⟩
  | 105 => ⟨S32x2x16, .f32⟩
  | 106 => ⟨S1024, .f32⟩
  | 107 => ⟨S1x512, .f32⟩
  | 108 => ⟨S512, .f32⟩
  | 109 => ⟨S16x32, .f32⟩
  | 110 => ⟨S16x32, .f32⟩
  | 111 => ⟨S16x32, .f32⟩
  | 112 => ⟨S_, .f32⟩
  | 113 => ⟨S16x32, .f32⟩
  | 114 => ⟨S_, .f32⟩
  | 115 => ⟨S16x32, .f32⟩
  | 116 => ⟨S16x1x32, .f32⟩
  | 117 => ⟨S16x1x32, .f32⟩
  | 118 => ⟨S16x2x32, .f32⟩
  | 119 => ⟨S1024, .f32⟩
  | 120 => ⟨S16x1x32, .f32⟩
  | 121 => ⟨S16x1x32, .f32⟩
  | 122 => ⟨S16x2x32, .f32⟩
  | 123 => ⟨S1024, .f32⟩
  | 124 => ⟨S16x1x32, .f32⟩
  | 125 => ⟨S16x1x32, .f32⟩
  | 126 => ⟨S16x2x32, .f32⟩
  | 127 => ⟨S1024, .f32⟩
  | _ => ⟨S32768x1024, .f32⟩

abbrev hbmTy0_1 (i : Nat) : BufTy := match i % 128 with
  | 0 => ⟨S1x512, .f32⟩
  | 1 => ⟨S512, .f32⟩
  | 2 => ⟨S8x64, .f32⟩
  | 3 => ⟨S8x64, .f32⟩
  | 4 => ⟨S8x64, .f32⟩
  | 5 => ⟨S_, .f32⟩
  | 6 => ⟨S8x64, .f32⟩
  | 7 => ⟨S_, .f32⟩
  | 8 => ⟨S8x64, .f32⟩
  | 9 => ⟨S8x1x64, .f32⟩
  | 10 => ⟨S8x1x64, .f32⟩
  | 11 => ⟨S8x2x64, .f32⟩
  | 12 => ⟨S1024, .f32⟩
  | 13 => ⟨S8x1x64, .f32⟩
  | 14 => ⟨S8x1x64, .f32⟩
  | 15 => ⟨S8x2x64, .f32⟩
  | 16 => ⟨S1024, .f32⟩
  | 17 => ⟨S8x1x64, .f32⟩
  | 18 => ⟨S8x1x64, .f32⟩
  | 19 => ⟨S8x2x64, .f32⟩
  | 20 => ⟨S1024, .f32⟩
  | 21 => ⟨S1x512, .f32⟩
  | 22 => ⟨S512, .f32⟩
  | 23 => ⟨S4x128, .f32⟩
  | 24 => ⟨S4x128, .f32⟩
  | 25 => ⟨S4x128, .f32⟩
  | 26 => ⟨S_, .f32⟩
  | 27 => ⟨S4x128, .f32⟩
  | 28 => ⟨S_, .f32⟩
  | 29 => ⟨S4x128, .f32⟩
  | 30 => ⟨S4x1x128, .f32⟩
  | 31 => ⟨S4x1x128, .f32⟩
  | 32 => ⟨S4x2x128, .f32⟩
  | 33 => ⟨S1024, .f32⟩
  | 34 => ⟨S4x1x128, .f32⟩
  | 35 => ⟨S4x1x128, .f32⟩
  | 36 => ⟨S4x2x128, .f32⟩
  | 37 => ⟨S1024, .f32⟩
  | 38 => ⟨S4x1x128, .f32⟩
  | 39 => ⟨S4x1x128, .f32⟩
  | 40 => ⟨S4x2x128, .f32⟩
  | 41 => ⟨S1024, .f32⟩
  | 42 => ⟨S1x512, .f32⟩
  | 43 => ⟨S512, .f32⟩
  | 44 => ⟨S2x256, .f32⟩
  | 45 => ⟨S2x256, .f32⟩
  | 46 => ⟨S2x256, .f32⟩
  | 47 => ⟨S_, .f32⟩
  | 48 => ⟨S2x256, .f32⟩
  | 49 => ⟨S_, .f32⟩
  | 50 => ⟨S2x256, .f32⟩
  | 51 => ⟨S2x1x256, .f32⟩
  | 52 => ⟨S2x1x256, .f32⟩
  | 53 => ⟨S2x2x256, .f32⟩
  | 54 => ⟨S1024, .f32⟩
  | 55 => ⟨S2x1x256, .f32⟩
  | 56 => ⟨S2x1x256, .f32⟩
  | 57 => ⟨S2x2x256, .f32⟩
  | 58 => ⟨S1024, .f32⟩
  | 59 => ⟨S2x1x256, .f32⟩
  | 60 => ⟨S2x1x256, .f32⟩
  | 61 => ⟨S2x2x256, .f32⟩
  | 62 => ⟨S1024, .f32⟩
  | 63 => ⟨S1x512, .f32⟩
  | 64 => ⟨S512, .f32⟩
  | 65 => ⟨S1x512, .f32⟩
  | 66 => ⟨S1x512, .f32⟩
  | 67 => ⟨S1x512, .f32⟩
  | 68 => ⟨S_, .f32⟩
  | 69 => ⟨S1x512, .f32⟩
  | 70 => ⟨S_, .f32⟩
  | 71 => ⟨S1x512, .f32⟩
  | 72 => ⟨S1x1x512, .f32⟩
  | 73 => ⟨S1x1x512, .f32⟩
  | 74 => ⟨S1x2x512, .f32⟩
  | 75 => ⟨S1024, .f32⟩
  | 76 => ⟨S1x1x512, .f32⟩
  | 77 => ⟨S1x1x512, .f32⟩
  | 78 => ⟨S1x2x512, .f32⟩
  | 79 => ⟨S1024, .f32⟩
  | 80 => ⟨S1x1x512, .f32⟩
  | 81 => ⟨S1x1x512, .f32⟩
  | 82 => ⟨S1x2x512, .f32⟩
  | 83 => ⟨S1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S1x1024, .f32⟩
  | 94 => ⟨S10x1024, .f32⟩
  | 95 => ⟨S1x1024, .f32⟩
  | 96 => ⟨S1x1024, .f32⟩
  | 97 => ⟨S1x1024, .f32⟩
  | 98 => ⟨S1x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S10x1024, .f32⟩
  | 106 => ⟨S1x1024, .f32⟩
  | 107 => ⟨S1x1024, .f32⟩
  | 108 => ⟨S1x1024, .f32⟩
  | 109 => ⟨S1x1024, .f32⟩
  | 110 => ⟨S1x1024, .f32⟩
  | 111 => ⟨S1x1024, .f32⟩
  | 112 => ⟨S1x1024, .f32⟩
  | 113 => ⟨S1x1024, .f32⟩
  | 114 => ⟨S1x1024, .f32⟩
  | 115 => ⟨S1x1024, .f32⟩
  | 116 => ⟨S10x1024, .f32⟩
  | 117 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S10x1024, .f32⟩
  | .local _ .vmem, ⟨3, _⟩ => ⟨S10x1024, .f32⟩
  | .local _ .vmem, ⟨4, _⟩ => ⟨S10x1024, .f32⟩
  | .local _ .vmem, ⟨5, _⟩ => ⟨S512x1024, .f32⟩
  | .local _ .vmem, ⟨6, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_v43 : Ref sig .tc := ⟨.hbm, 50, rfl⟩
abbrev main_cst_4 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_5 : Ref sig .tc := ⟨.hbm, 70, rfl⟩
abbrev main_v62 : Ref sig .tc := ⟨.hbm, 71, rfl⟩
abbrev main_cst_6 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_cst_7 : Ref sig .tc := ⟨.hbm, 91, rfl⟩
abbrev main_v81 : Ref sig .tc := ⟨.hbm, 92, rfl⟩
abbrev main_cst_8 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_cst_9 : Ref sig .tc := ⟨.hbm, 112, rfl⟩
abbrev main_v100 : Ref sig .tc := ⟨.hbm, 113, rfl⟩
abbrev main_cst_10 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_cst_11 : Ref sig .tc := ⟨.hbm, 133, rfl⟩
abbrev main_v119 : Ref sig .tc := ⟨.hbm, 134, rfl⟩
abbrev main_cst_12 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_cst_13 : Ref sig .tc := ⟨.hbm, 154, rfl⟩
abbrev main_v138 : Ref sig .tc := ⟨.hbm, 155, rfl⟩
abbrev main_cst_14 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_cst_15 : Ref sig .tc := ⟨.hbm, 175, rfl⟩
abbrev main_v157 : Ref sig .tc := ⟨.hbm, 176, rfl⟩
abbrev main_cst_16 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_cst_17 : Ref sig .tc := ⟨.hbm, 196, rfl⟩
abbrev main_v176 : Ref sig .tc := ⟨.hbm, 197, rfl⟩
abbrev main_cst_18 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S10x512_S1x512_0_0 : S10x512.Slices ![0, 0] S1x512
  shapeCasts_S1x512_S512 : S1x512.ShapeCasts S512
  shapeCasts_S512_S512x1 : S512.ShapeCasts S512x1
  bcast_S_S512x1 : S_.BroadcastsInDim S512x1 (![] : Fin 0 → Fin S512x1.rank)
  bcast_S512x1_S512x1x1_0_2 : S512x1.BroadcastsInDim S512x1x1 (![0, 2] : Fin 2 → Fin S512x1x1.rank)
  concatenates_S512x1x1_S512x1x1_S512x2x1_d1 : Shape.Concatenates [S512x1x1, S512x1x1] S512x2x1 1
  shapeCasts_S512x2x1_S1024 : S512x2x1.ShapeCasts S1024
  slices_S10x512_S1x512_1_0 : S10x512.Slices ![1, 0] S1x512
  shapeCasts_S512_S256x2 : S512.ShapeCasts S256x2
  bcast_S_S256x2 : S_.BroadcastsInDim S256x2 (![] : Fin 0 → Fin S256x2.rank)
  bcast_S256x2_S256x1x2_0_2 : S256x2.BroadcastsInDim S256x1x2 (![0, 2] : Fin 2 → Fin S256x1x2.rank)
  concatenates_S256x1x2_S256x1x2_S256x2x2_d1 : Shape.Concatenates [S256x1x2, S256x1x2] S256x2x2 1
  shapeCasts_S256x2x2_S1024 : S256x2x2.ShapeCasts S1024
  slices_S10x512_S1x512_2_0 : S10x512.Slices ![2, 0] S1x512
  shapeCasts_S512_S128x4 : S512.ShapeCasts S128x4
  bcast_S_S128x4 : S_.BroadcastsInDim S128x4 (![] : Fin 0 → Fin S128x4.rank)
  bcast_S128x4_S128x1x4_0_2 : S128x4.BroadcastsInDim S128x1x4 (![0, 2] : Fin 2 → Fin S128x1x4.rank)
  concatenates_S128x1x4_S128x1x4_S128x2x4_d1 : Shape.Concatenates [S128x1x4, S128x1x4] S128x2x4 1
  shapeCasts_S128x2x4_S1024 : S128x2x4.ShapeCasts S1024
  slices_S10x512_S1x512_3_0 : S10x512.Slices ![3, 0] S1x512
  shapeCasts_S512_S64x8 : S512.ShapeCasts S64x8
  bcast_S_S64x8 : S_.BroadcastsInDim S64x8 (![] : Fin 0 → Fin S64x8.rank)
  bcast_S64x8_S64x1x8_0_2 : S64x8.BroadcastsInDim S64x1x8 (![0, 2] : Fin 2 → Fin S64x1x8.rank)
  concatenates_S64x1x8_S64x1x8_S64x2x8_d1 : Shape.Concatenates [S64x1x8, S64x1x8] S64x2x8 1
  shapeCasts_S64x2x8_S1024 : S64x2x8.ShapeCasts S1024
  slices_S10x512_S1x512_4_0 : S10x512.Slices ![4, 0] S1x512
  shapeCasts_S512_S32x16 : S512.ShapeCasts S32x16
  bcast_S_S32x16 : S_.BroadcastsInDim S32x16 (![] : Fin 0 → Fin S32x16.rank)
  bcast_S32x16_S32x1x16_0_2 : S32x16.BroadcastsInDim S32x1x16 (![0, 2] : Fin 2 → Fin S32x1x16.rank)
  concatenates_S32x1x16_S32x1x16_S32x2x16_d1 : Shape.Concatenates [S32x1x16, S32x1x16] S32x2x16 1
  shapeCasts_S32x2x16_S1024 : S32x2x16.ShapeCasts S1024
  slices_S10x512_S1x512_5_0 : S10x512.Slices ![5, 0] S1x512
  shapeCasts_S512_S16x32 : S512.ShapeCasts S16x32
  bcast_S_S16x32 : S_.BroadcastsInDim S16x32 (![] : Fin 0 → Fin S16x32.rank)
  bcast_S16x32_S16x1x32_0_2 : S16x32.BroadcastsInDim S16x1x32 (![0, 2] : Fin 2 → Fin S16x1x32.rank)
  concatenates_S16x1x32_S16x1x32_S16x2x32_d1 : Shape.Concatenates [S16x1x32, S16x1x32] S16x2x32 1
  shapeCasts_S16x2x32_S1024 : S16x2x32.ShapeCasts S1024
  slices_S10x512_S1x512_6_0 : S10x512.Slices ![6, 0] S1x512
  shapeCasts_S512_S8x64 : S512.ShapeCasts S8x64
  bcast_S_S8x64 : S_.BroadcastsInDim S8x64 (![] : Fin 0 → Fin S8x64.rank)
  bcast_S8x64_S8x1x64_0_2 : S8x64.BroadcastsInDim S8x1x64 (![0, 2] : Fin 2 → Fin S8x1x64.rank)
  concatenates_S8x1x64_S8x1x64_S8x2x64_d1 : Shape.Concatenates [S8x1x64, S8x1x64] S8x2x64 1
  shapeCasts_S8x2x64_S1024 : S8x2x64.ShapeCasts S1024
  slices_S10x512_S1x512_7_0 : S10x512.Slices ![7, 0] S1x512
  shapeCasts_S512_S4x128 : S512.ShapeCasts S4x128
  bcast_S_S4x128 : S_.BroadcastsInDim S4x128 (![] : Fin 0 → Fin S4x128.rank)
  bcast_S4x128_S4x1x128_0_2 : S4x128.BroadcastsInDim S4x1x128 (![0, 2] : Fin 2 → Fin S4x1x128.rank)
  concatenates_S4x1x128_S4x1x128_S4x2x128_d1 : Shape.Concatenates [S4x1x128, S4x1x128] S4x2x128 1
  shapeCasts_S4x2x128_S1024 : S4x2x128.ShapeCasts S1024
  slices_S10x512_S1x512_8_0 : S10x512.Slices ![8, 0] S1x512
  shapeCasts_S512_S2x256 : S512.ShapeCasts S2x256
  bcast_S_S2x256 : S_.BroadcastsInDim S2x256 (![] : Fin 0 → Fin S2x256.rank)
  bcast_S2x256_S2x1x256_0_2 : S2x256.BroadcastsInDim S2x1x256 (![0, 2] : Fin 2 → Fin S2x1x256.rank)
  concatenates_S2x1x256_S2x1x256_S2x2x256_d1 : Shape.Concatenates [S2x1x256, S2x1x256] S2x2x256 1
  shapeCasts_S2x2x256_S1024 : S2x2x256.ShapeCasts S1024
  slices_S10x512_S1x512_9_0 : S10x512.Slices ![9, 0] S1x512
  shapeCasts_S512_S1x512 : S512.ShapeCasts S1x512
  bcast_S_S1x512 : S_.BroadcastsInDim S1x512 (![] : Fin 0 → Fin S1x512.rank)
  bcast_S1x512_S1x1x512_0_2 : S1x512.BroadcastsInDim S1x1x512 (![0, 2] : Fin 2 → Fin S1x1x512.rank)
  concatenates_S1x1x512_S1x1x512_S1x2x512_d1 : Shape.Concatenates [S1x1x512, S1x1x512] S1x2x512 1
  shapeCasts_S1x2x512_S1024 : S1x2x512.ShapeCasts S1024
  bcast_S1024_S1x1024_1 : S1024.BroadcastsInDim S1x1024 (![1] : Fin 1 → Fin S1x1024.rank)
  concatenates_S1x1024_S1x1024_S1x1024_S1x1024_S1x1024_S1x1024_S1x1024_S1x1024_S1x1024_S1x1024_S10x1024_d0 : Shape.Concatenates [S1x1024, S1x1024, S1x1024, S1x1024, S1x1024, S1x1024, S1x1024, S1x1024, S1x1024, S1x1024] S10x1024 0
  inb_S512x1024_S512x1024_0_0 : ∀ a, (![0, 0] : Fin 2 → Nat) a + S512x1024.size a ≤ S512x1024.size a
  h_S512x1024 : 0 < S512x1024.numel
  inb_S10x1024_S1x1024_0_0 : ∀ a, (![0, 0] : Fin 2 → Nat) a + S1x1024.size a ≤ S10x1024.size a
  h_S1x1024 : 0 < S1x1024.numel
  shapeCasts_S1x1024_S1x1024 : S1x1024.ShapeCasts S1x1024
  rotates_S512x1024_d1 : S512x1024.Rotates 1 none
  broadcasts_S1x1024_S512x1024 : S1x1024.Broadcasts S512x1024
  inb_S10x1024_S1x1024_1_0 : ∀ a, (![1, 0] : Fin 2 → Nat) a + S1x1024.size a ≤ S10x1024.size a
  inb_S10x1024_S1x1024_2_0 : ∀ a, (![2, 0] : Fin 2 → Nat) a + S1x1024.size a ≤ S10x1024.size a
  inb_S10x1024_S1x1024_3_0 : ∀ a, (![3, 0] : Fin 2 → Nat) a + S1x1024.size a ≤ S10x1024.size a
  inb_S10x1024_S1x1024_4_0 : ∀ a, (![4, 0] : Fin 2 → Nat) a + S1x1024.size a ≤ S10x1024.size a
  inb_S10x1024_S1x1024_5_0 : ∀ a, (![5, 0] : Fin 2 → Nat) a + S1x1024.size a ≤ S10x1024.size a
  inb_S10x1024_S1x1024_6_0 : ∀ a, (![6, 0] : Fin 2 → Nat) a + S1x1024.size a ≤ S10x1024.size a
  inb_S10x1024_S1x1024_7_0 : ∀ a, (![7, 0] : Fin 2 → Nat) a + S1x1024.size a ≤ S10x1024.size a
  inb_S10x1024_S1x1024_8_0 : ∀ a, (![8, 0] : Fin 2 → Nat) a + S1x1024.size a ≤ S10x1024.size a
  inb_S10x1024_S1x1024_9_0 : ∀ a, (![9, 0] : Fin 2 → Nat) a + S1x1024.size a ≤ S10x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1024.size a ≤ S10x1024.size a
  hwx0_1 : ∀ i : grid0.Coords, EltTy.bits .f32 = 32 ∨ (Rect.block (s := S10x1024) S10x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1024.size a ≤ S10x1024.size a
  hwx0_2 : ∀ i : grid0.Coords, EltTy.bits .f32 = 32 ∨ (Rect.block (s := S10x1024) S10x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x1024.size a ≤ S10x1024.size a
  hwx0_3 : ∀ i : grid0.Coords, EltTy.bits .f32 = 32 ∨ (Rect.block (s := S10x1024) S10x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v200) S10x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v211) S10x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v222) S10x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v223) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S10x512 : Shape := ⟨2, ![10, 512]⟩
abbrev S32768x512x2x1 : Shape := ⟨4, ![32768, 512, 2, 1]⟩
abbrev S1x512 : Shape := ⟨2, ![1, 512]⟩
abbrev S512 : Shape := ⟨1, ![512]⟩
abbrev S512x1 : Shape := ⟨2, ![512, 1]⟩
abbrev S32768x512x1x1 : Shape := ⟨4, ![32768, 512, 1, 1]⟩
abbrev S32768x512x1 : Shape := ⟨3, ![32768, 512, 1]⟩
abbrev S1x512x1 : Shape := ⟨3, ![1, 512, 1]⟩
abbrev S32768x256x2x2 : Shape := ⟨4, ![32768, 256, 2, 2]⟩
abbrev S256x2 : Shape := ⟨2, ![256, 2]⟩
abbrev S32768x256x1x2 : Shape := ⟨4, ![32768, 256, 1, 2]⟩
abbrev S32768x256x2 : Shape := ⟨3, ![32768, 256, 2]⟩
abbrev S1x256x2 : Shape := ⟨3, ![1, 256, 2]⟩
abbrev S32768x128x2x4 : Shape := ⟨4, ![32768, 128, 2, 4]⟩
abbrev S128x4 : Shape := ⟨2, ![128, 4]⟩
abbrev S32768x128x1x4 : Shape := ⟨4, ![32768, 128, 1, 4]⟩
abbrev S32768x128x4 : Shape := ⟨3, ![32768, 128, 4]⟩
abbrev S1x128x4 : Shape := ⟨3, ![1, 128, 4]⟩
abbrev S32768x64x2x8 : Shape := ⟨4, ![32768, 64, 2, 8]⟩
abbrev S64x8 : Shape := ⟨2, ![64, 8]⟩
abbrev S32768x64x1x8 : Shape := ⟨4, ![32768, 64, 1, 8]⟩
abbrev S32768x64x8 : Shape := ⟨3, ![32768, 64, 8]⟩
abbrev S1x64x8 : Shape := ⟨3, ![1, 64, 8]⟩
abbrev S32768x32x2x16 : Shape := ⟨4, ![32768, 32, 2, 16]⟩
abbrev S32x16 : Shape := ⟨2, ![32, 16]⟩
abbrev S32768x32x1x16 : Shape := ⟨4, ![32768, 32, 1, 16]⟩
abbrev S32768x32x16 : Shape := ⟨3, ![32768, 32, 16]⟩
abbrev S1x32x16 : Shape := ⟨3, ![1, 32, 16]⟩
abbrev S32768x16x2x32 : Shape := ⟨4, ![32768, 16, 2, 32]⟩
abbrev S16x32 : Shape := ⟨2, ![16, 32]⟩
abbrev S32768x16x1x32 : Shape := ⟨4, ![32768, 16, 1, 32]⟩
abbrev S32768x16x32 : Shape := ⟨3, ![32768, 16, 32]⟩
abbrev S1x16x32 : Shape := ⟨3, ![1, 16, 32]⟩
abbrev S32768x8x2x64 : Shape := ⟨4, ![32768, 8, 2, 64]⟩
abbrev S8x64 : Shape := ⟨2, ![8, 64]⟩
abbrev S32768x8x1x64 : Shape := ⟨4, ![32768, 8, 1, 64]⟩
abbrev S32768x8x64 : Shape := ⟨3, ![32768, 8, 64]⟩
abbrev S1x8x64 : Shape := ⟨3, ![1, 8, 64]⟩
abbrev S32768x4x2x128 : Shape := ⟨4, ![32768, 4, 2, 128]⟩
abbrev S4x128 : Shape := ⟨2, ![4, 128]⟩
abbrev S32768x4x1x128 : Shape := ⟨4, ![32768, 4, 1, 128]⟩
abbrev S32768x4x128 : Shape := ⟨3, ![32768, 4, 128]⟩
abbrev S1x4x128 : Shape := ⟨3, ![1, 4, 128]⟩
abbrev S32768x2x2x256 : Shape := ⟨4, ![32768, 2, 2, 256]⟩
abbrev S2x256 : Shape := ⟨2, ![2, 256]⟩
abbrev S32768x2x1x256 : Shape := ⟨4, ![32768, 2, 1, 256]⟩
abbrev S32768x2x256 : Shape := ⟨3, ![32768, 2, 256]⟩
abbrev S1x2x256 : Shape := ⟨3, ![1, 2, 256]⟩
abbrev S32768x1x2x512 : Shape := ⟨4, ![32768, 1, 2, 512]⟩
abbrev S32768x1x1x512 : Shape := ⟨4, ![32768, 1, 1, 512]⟩
abbrev S32768x1x512 : Shape := ⟨3, ![32768, 1, 512]⟩
abbrev S1x1x512 : Shape := ⟨3, ![1, 1, 512]⟩

abbrev nBuf : Space → Nat
  | .hbm => 282
  | .vmem => 0
  | .smem => 0
  | _ => 0

abbrev hbmTy0_0 (i : Nat) : BufTy := match i % 128 with
  | 0 => ⟨S32768x1024, .f32⟩
  | 1 => ⟨S10x512, .f32⟩
  | 2 => ⟨S32768x512x2x1, .f32⟩
  | 3 => ⟨S1x512, .f32⟩
  | 4 => ⟨S512, .f32⟩
  | 5 => ⟨S512x1, .f32⟩
  | 6 => ⟨S512x1, .f32⟩
  | 7 => ⟨S512x1, .f32⟩
  | 8 => ⟨S32768x512x1x1, .f32⟩
  | 9 => ⟨S32768x512x1, .f32⟩
  | 10 => ⟨S32768x512x1x1, .f32⟩
  | 11 => ⟨S32768x512x1, .f32⟩
  | 12 => ⟨S1x512x1, .f32⟩
  | 13 => ⟨S32768x512x1, .f32⟩
  | 14 => ⟨S32768x512x1, .f32⟩
  | 15 => ⟨S1x512x1, .f32⟩
  | 16 => ⟨S32768x512x1, .f32⟩
  | 17 => ⟨S32768x512x1, .f32⟩
  | 18 => ⟨S32768x512x1, .f32⟩
  | 19 => ⟨S1x512x1, .f32⟩
  | 20 => ⟨S32768x512x1, .f32⟩
  | 21 => ⟨S32768x512x1, .f32⟩
  | 22 => ⟨S1x512x1, .f32⟩
  | 23 => ⟨S32768x512x1, .f32⟩
  | 24 => ⟨S32768x512x1, .f32⟩
  | 25 => ⟨S32768x512x1, .f32⟩
  | 26 => ⟨S32768x512x1x1, .f32⟩
  | 27 => ⟨S32768x512x1x1, .f32⟩
  | 28 => ⟨S32768x512x2x1, .f32⟩
  | 29 => ⟨S32768x1024, .f32⟩
  | 30 => ⟨S32768x256x2x2, .f32⟩
  | 31 => ⟨S1x512, .f32⟩
  | 32 => ⟨S512, .f32⟩
  | 33 => ⟨S256x2, .f32⟩
  | 34 => ⟨S256x2, .f32⟩
  | 35 => ⟨S256x2, .f32⟩
  | 36 => ⟨S32768x256x1x2, .f32⟩
  | 37 => ⟨S32768x256x2, .f32⟩
  | 38 => ⟨S32768x256x1x2, .f32⟩
  | 39 => ⟨S32768x256x2, .f32⟩
  | 40 => ⟨S1x256x2, .f32⟩
  | 41 => ⟨S32768x256x2, .f32⟩
  | 42 => ⟨S32768x256x2, .f32⟩
  | 43 => ⟨S1x256x2, .f32⟩
  | 44 => ⟨S32768x256x2, .f32⟩
  | 45 => ⟨S32768x256x2, .f32⟩
  | 46 => ⟨S32768x256x2, .f32⟩
  | 47 => ⟨S1x256x2, .f32⟩
  | 48 => ⟨S32768x256x2, .f32⟩
  | 49 => ⟨S32768x256x2, .f32⟩
  | 50 => ⟨S1x256x2, .f32⟩
  | 51 => ⟨S32768x256x2, .f32⟩
  | 52 => ⟨S32768x256x2, .f32⟩
  | 53 => ⟨S32768x256x2, .f32⟩
  | 54 => ⟨S32768x256x1x2, .f32⟩
  | 55 => ⟨S32768x256x1x2, .f32⟩
  | 56 => ⟨S32768x256x2x2, .f32⟩
  | 57 => ⟨S32768x1024, .f32⟩
  | 58 => ⟨S32768x128x2x4, .f32⟩
  | 59 => ⟨S1x512, .f32⟩
  | 60 => ⟨S512, .f32⟩
  | 61 => ⟨S128x4, .f32⟩
  | 62 => ⟨S128x4, .f32⟩
  | 63 => ⟨S128x4, .f32⟩
  | 64 => ⟨S32768x128x1x4, .f32⟩
  | 65 => ⟨S32768x128x4, .f32⟩
  | 66 => ⟨S32768x128x1x4, .f32⟩
  | 67 => ⟨S32768x128x4, .f32⟩
  | 68 => ⟨S1x128x4, .f32⟩
  | 69 => ⟨S32768x128x4, .f32⟩
  | 70 => ⟨S32768x128x4, .f32⟩
  | 71 => ⟨S1x128x4, .f32⟩
  | 72 => ⟨S32768x128x4, .f32⟩
  | 73 => ⟨S32768x128x4, .f32⟩
  | 74 => ⟨S32768x128x4, .f32⟩
  | 75 => ⟨S1x128x4, .f32⟩
  | 76 => ⟨S32768x128x4, .f32⟩
  | 77 => ⟨S32768x128x4, .f32⟩
  | 78 => ⟨S1x128x4, .f32⟩
  | 79 => ⟨S32768x128x4, .f32⟩
  | 80 => ⟨S32768x128x4, .f32⟩
  | 81 => ⟨S32768x128x4, .f32⟩
  | 82 => ⟨S32768x128x1x4, .f32⟩
  | 83 => ⟨S32768x128x1x4, .f32⟩
  | 84 => ⟨S32768x128x2x4, .f32⟩
  | 85 => ⟨S32768x1024, .f32⟩
  | 86 => ⟨S32768x64x2x8, .f32⟩
  | 87 => ⟨S1x512, .f32⟩
  | 88 => ⟨S512, .f32⟩
  | 89 => ⟨S64x8, .f32⟩
  | 90 => ⟨S64x8, .f32⟩
  | 91 => ⟨S64x8, .f32⟩
  | 92 => ⟨S32768x64x1x8, .f32⟩
  | 93 => ⟨S32768x64x8, .f32⟩
  | 94 => ⟨S32768x64x1x8, .f32⟩
  | 95 => ⟨S32768x64x8, .f32⟩
  | 96 => ⟨S1x64x8, .f32⟩
  | 97 => ⟨S32768x64x8, .f32⟩
  | 98 => ⟨S32768x64x8, .f32⟩
  | 99 => ⟨S1x64x8, .f32⟩
  | 100 => ⟨S32768x64x8, .f32⟩
  | 101 => ⟨S32768x64x8, .f32⟩
  | 102 => ⟨S32768x64x8, .f32⟩
  | 103 => ⟨S1x64x8, .f32⟩
  | 104 => ⟨S32768x64x8, .f32⟩
  | 105 => ⟨S32768x64x8, .f32⟩
  | 106 => ⟨S1x64x8, .f32⟩
  | 107 => ⟨S32768x64x8, .f32⟩
  | 108 => ⟨S32768x64x8, .f32⟩
  | 109 => ⟨S32768x64x8, .f32⟩
  | 110 => ⟨S32768x64x1x8, .f32⟩
  | 111 => ⟨S32768x64x1x8, .f32⟩
  | 112 => ⟨S32768x64x2x8, .f32⟩
  | 113 => ⟨S32768x1024, .f32⟩
  | 114 => ⟨S32768x32x2x16, .f32⟩
  | 115 => ⟨S1x512, .f32⟩
  | 116 => ⟨S512, .f32⟩
  | 117 => ⟨S32x16, .f32⟩
  | 118 => ⟨S32x16, .f32⟩
  | 119 => ⟨S32x16, .f32⟩
  | 120 => ⟨S32768x32x1x16, .f32⟩
  | 121 => ⟨S32768x32x16, .f32⟩
  | 122 => ⟨S32768x32x1x16, .f32⟩
  | 123 => ⟨S32768x32x16, .f32⟩
  | 124 => ⟨S1x32x16, .f32⟩
  | 125 => ⟨S32768x32x16, .f32⟩
  | 126 => ⟨S32768x32x16, .f32⟩
  | 127 => ⟨S1x32x16, .f32⟩
  | _ => ⟨S32768x1024, .f32⟩

abbrev hbmTy0_1 (i : Nat) : BufTy := match i % 128 with
  | 0 => ⟨S32768x32x16, .f32⟩
  | 1 => ⟨S32768x32x16, .f32⟩
  | 2 => ⟨S32768x32x16, .f32⟩
  | 3 => ⟨S1x32x16, .f32⟩
  | 4 => ⟨S32768x32x16, .f32⟩
  | 5 => ⟨S32768x32x16, .f32⟩
  | 6 => ⟨S1x32x16, .f32⟩
  | 7 => ⟨S32768x32x16, .f32⟩
  | 8 => ⟨S32768x32x16, .f32⟩
  | 9 => ⟨S32768x32x16, .f32⟩
  | 10 => ⟨S32768x32x1x16, .f32⟩
  | 11 => ⟨S32768x32x1x16, .f32⟩
  | 12 => ⟨S32768x32x2x16, .f32⟩
  | 13 => ⟨S32768x1024, .f32⟩
  | 14 => ⟨S32768x16x2x32, .f32⟩
  | 15 => ⟨S1x512, .f32⟩
  | 16 => ⟨S512, .f32⟩
  | 17 => ⟨S16x32, .f32⟩
  | 18 => ⟨S16x32, .f32⟩
  | 19 => ⟨S16x32, .f32⟩
  | 20 => ⟨S32768x16x1x32, .f32⟩
  | 21 => ⟨S32768x16x32, .f32⟩
  | 22 => ⟨S32768x16x1x32, .f32⟩
  | 23 => ⟨S32768x16x32, .f32⟩
  | 24 => ⟨S1x16x32, .f32⟩
  | 25 => ⟨S32768x16x32, .f32⟩
  | 26 => ⟨S32768x16x32, .f32⟩
  | 27 => ⟨S1x16x32, .f32⟩
  | 28 => ⟨S32768x16x32, .f32⟩
  | 29 => ⟨S32768x16x32, .f32⟩
  | 30 => ⟨S32768x16x32, .f32⟩
  | 31 => ⟨S1x16x32, .f32⟩
  | 32 => ⟨S32768x16x32, .f32⟩
  | 33 => ⟨S32768x16x32, .f32⟩
  | 34 => ⟨S1x16x32, .f32⟩
  | 35 => ⟨S32768x16x32, .f32⟩
  | 36 => ⟨S32768x16x32, .f32⟩
  | 37 => ⟨S32768x16x32, .f32⟩
  | 38 => ⟨S32768x16x1x32, .f32⟩
  | 39 => ⟨S32768x16x1x32, .f32⟩
  | 40 => ⟨S32768x16x2x32, .f32⟩
  | 41 => ⟨S32768x1024, .f32⟩
  | 42 => ⟨S32768x8x2x64, .f32⟩
  | 43 => ⟨S1x512, .f32⟩
  | 44 => ⟨S512, .f32⟩
  | 45 => ⟨S8x64, .f32⟩
  | 46 => ⟨S8x64, .f32⟩
  | 47 => ⟨S8x64, .f32⟩
  | 48 => ⟨S32768x8x1x64, .f32⟩
  | 49 => ⟨S32768x8x64, .f32⟩
  | 50 => ⟨S32768x8x1x64, .f32⟩
  | 51 => ⟨S32768x8x64, .f32⟩
  | 52 => ⟨S1x8x64, .f32⟩
  | 53 => ⟨S32768x8x64, .f32⟩
  | 54 => ⟨S32768x8x64, .f32⟩
  | 55 => ⟨S1x8x64, .f32⟩
  | 56 => ⟨S32768x8x64, .f32⟩
  | 57 => ⟨S32768x8x64, .f32⟩
  | 58 => ⟨S32768x8x64, .f32⟩
  | 59 => ⟨S1x8x64, .f32⟩
  | 60 => ⟨S32768x8x64, .f32⟩
  | 61 => ⟨S32768x8x64, .f32⟩
  | 62 => ⟨S1x8x64, .f32⟩
  | 63 => ⟨S32768x8x64, .f32⟩
  | 64 => ⟨S32768x8x64, .f32⟩
  | 65 => ⟨S32768x8x64, .f32⟩
  | 66 => ⟨S32768x8x1x64, .f32⟩
  | 67 => ⟨S32768x8x1x64, .f32⟩
  | 68 => ⟨S32768x8x2x64, .f32⟩
  | 69 => ⟨S32768x1024, .f32⟩
  | 70 => ⟨S32768x4x2x128, .f32⟩
  | 71 => ⟨S1x512, .f32⟩
  | 72 => ⟨S512, .f32⟩
  | 73 => ⟨S4x128, .f32⟩
  | 74 => ⟨S4x128, .f32⟩
  | 75 => ⟨S4x128, .f32⟩
  | 76 => ⟨S32768x4x1x128, .f32⟩
  | 77 => ⟨S32768x4x128, .f32⟩
  | 78 => ⟨S32768x4x1x128, .f32⟩
  | 79 => ⟨S32768x4x128, .f32⟩
  | 80 => ⟨S1x4x128, .f32⟩
  | 81 => ⟨S32768x4x128, .f32⟩
  | 82 => ⟨S32768x4x128, .f32⟩
  | 83 => ⟨S1x4x128, .f32⟩
  | 84 => ⟨S32768x4x128, .f32⟩
  | 85 => ⟨S32768x4x128, .f32⟩
  | 86 => ⟨S32768x4x128, .f32⟩
  | 87 => ⟨S1x4x128, .f32⟩
  | 88 => ⟨S32768x4x128, .f32⟩
  | 89 => ⟨S32768x4x128, .f32⟩
  | 90 => ⟨S1x4x128, .f32⟩
  | 91 => ⟨S32768x4x128, .f32⟩
  | 92 => ⟨S32768x4x128, .f32⟩
  | 93 => ⟨S32768x4x128, .f32⟩
  | 94 => ⟨S32768x4x1x128, .f32⟩
  | 95 => ⟨S32768x4x1x128, .f32⟩
  | 96 => ⟨S32768x4x2x128, .f32⟩
  | 97 => ⟨S32768x1024, .f32⟩
  | 98 => ⟨S32768x2x2x256, .f32⟩
  | 99 => ⟨S1x512, .f32⟩
  | 100 => ⟨S512, .f32⟩
  | 101 => ⟨S2x256, .f32⟩
  | 102 => ⟨S2x256, .f32⟩
  | 103 => ⟨S2x256, .f32⟩
  | 104 => ⟨S32768x2x1x256, .f32⟩
  | 105 => ⟨S32768x2x256, .f32⟩
  | 106 => ⟨S32768x2x1x256, .f32⟩
  | 107 => ⟨S32768x2x256, .f32⟩
  | 108 => ⟨S1x2x256, .f32⟩
  | 109 => ⟨S32768x2x256, .f32⟩
  | 110 => ⟨S32768x2x256, .f32⟩
  | 111 => ⟨S1x2x256, .f32⟩
  | 112 => ⟨S32768x2x256, .f32⟩
  | 113 => ⟨S32768x2x256, .f32⟩
  | 114 => ⟨S32768x2x256, .f32⟩
  | 115 => ⟨S1x2x256, .f32⟩
  | 116 => ⟨S32768x2x256, .f32⟩
  | 117 => ⟨S32768x2x256, .f32⟩
  | 118 => ⟨S1x2x256, .f32⟩
  | 119 => ⟨S32768x2x256, .f32⟩
  | 120 => ⟨S32768x2x256, .f32⟩
  | 121 => ⟨S32768x2x256, .f32⟩
  | 122 => ⟨S32768x2x1x256, .f32⟩
  | 123 => ⟨S32768x2x1x256, .f32⟩
  | 124 => ⟨S32768x2x2x256, .f32⟩
  | 125 => ⟨S32768x1024, .f32⟩
  | 126 => ⟨S32768x1x2x512, .f32⟩
  | 127 => ⟨S1x512, .f32⟩
  | _ => ⟨S32768x1024, .f32⟩

abbrev hbmTy0_2 (i : Nat) : BufTy := match i % 128 with
  | 0 => ⟨S512, .f32⟩
  | 1 => ⟨S1x512, .f32⟩
  | 2 => ⟨S1x512, .f32⟩
  | 3 => ⟨S1x512, .f32⟩
  | 4 => ⟨S32768x1x1x512, .f32⟩
  | 5 => ⟨S32768x1x512, .f32⟩
  | 6 => ⟨S32768x1x1x512, .f32⟩
  | 7 => ⟨S32768x1x512, .f32⟩
  | 8 => ⟨S1x1x512, .f32⟩
  | 9 => ⟨S32768x1x512, .f32⟩
  | 10 => ⟨S32768x1x512, .f32⟩
  | 11 => ⟨S1x1x512, .f32⟩
  | 12 => ⟨S32768x1x512, .f32⟩
  | 13 => ⟨S32768x1x512, .f32⟩
  | 14 => ⟨S32768x1x512, .f32⟩
  | 15 => ⟨S1x1x512, .f32⟩
  | 16 => ⟨S32768x1x512, .f32⟩
  | 17 => ⟨S32768x1x512, .f32⟩
  | 18 => ⟨S1x1x512, .f32⟩
  | 19 => ⟨S32768x1x512, .f32⟩
  | 20 => ⟨S32768x1x512, .f32⟩
  | 21 => ⟨S32768x1x512, .f32⟩
  | 22 => ⟨S32768x1x1x512, .f32⟩
  | 23 => ⟨S32768x1x1x512, .f32⟩
  | 24 => ⟨S32768x1x2x512, .f32⟩
  | 25 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩
abbrev main_v96 : Ref sig .tc := ⟨.hbm, 98, rfl⟩
abbrev main_v97 : Ref sig .tc := ⟨.hbm, 99, rfl⟩
abbrev main_v98 : Ref sig .tc := ⟨.hbm, 100, rfl⟩
abbrev main_v99 : Ref sig .tc := ⟨.hbm, 101, rfl⟩
abbrev main_v100 : Ref sig .tc := ⟨.hbm, 102, rfl⟩
abbrev main_v101 : Ref sig .tc := ⟨.hbm, 103, rfl⟩
abbrev main_v102 : Ref sig .tc := ⟨.hbm, 104, rfl⟩
abbrev main_v103 : Ref sig .tc := ⟨.hbm, 105, rfl⟩
abbrev main_v104 : Ref sig .tc := ⟨.hbm, 106, rfl⟩
abbrev main_v105 : Ref sig .tc := ⟨.hbm, 107, rfl⟩
abbrev main_v106 : Ref sig .tc := ⟨.hbm, 108, rfl⟩
abbrev main_v107 : Ref sig .tc := ⟨.hbm, 109, rfl⟩
abbrev main_v108 : Ref sig .tc := ⟨.hbm, 110, rfl⟩
abbrev main_v109 : Ref sig .tc := ⟨.hbm, 111, rfl⟩
abbrev main_v110 : Ref sig .tc := ⟨.hbm, 112, rfl⟩
abbrev main_v111 : Ref sig .tc := ⟨.hbm, 113, rfl⟩
abbrev main_v112 : Ref sig .tc := ⟨.hbm, 114, rfl⟩
abbrev main_v113 : Ref sig .tc := ⟨.hbm, 115, rfl⟩
abbrev main_v114 : Ref sig .tc := ⟨.hbm, 116, rfl⟩
abbrev main_v115 : Ref sig .tc := ⟨.hbm, 117, rfl⟩
abbrev main_v116 : Ref sig .tc := ⟨.hbm, 118, rfl⟩
abbrev main_v117 : Ref sig .tc := ⟨.hbm, 119, rfl⟩
abbrev main_v118 : Ref sig .tc := ⟨.hbm, 120, rfl⟩
abbrev main_v119 : Ref sig .tc := ⟨.hbm, 121, rfl⟩
abbrev main_v120 : Ref sig .tc := ⟨.hbm, 122, rfl⟩
abbrev main_v121 : Ref sig .tc := ⟨.hbm, 123, rfl⟩
abbrev main_v122 : Ref sig .tc := ⟨.hbm, 124, rfl⟩
abbrev main_v123 : Ref sig .tc := ⟨.hbm, 125, rfl⟩
abbrev main_v124 : Ref sig .tc := ⟨.hbm, 126, rfl⟩
abbrev main_v125 : Ref sig .tc := ⟨.hbm, 127, rfl⟩
abbrev main_v126 : Ref sig .tc := ⟨.hbm, 128, rfl⟩
abbrev main_v127 : Ref sig .tc := ⟨.hbm, 129, rfl⟩
abbrev main_v128 : Ref sig .tc := ⟨.hbm, 130, rfl⟩
abbrev main_v129 : Ref sig .tc := ⟨.hbm, 131, rfl⟩
abbrev main_v130 : Ref sig .tc := ⟨.hbm, 132, rfl⟩
abbrev main_v131 : Ref sig .tc := ⟨.hbm, 133, rfl⟩
abbrev main_v132 : Ref sig .tc := ⟨.hbm, 134, rfl⟩
abbrev main_v133 : Ref sig .tc := ⟨.hbm, 135, rfl⟩
abbrev main_v134 : Ref sig .tc := ⟨.hbm, 136, rfl⟩
abbrev main_v135 : Ref sig .tc := ⟨.hbm, 137, rfl⟩
abbrev main_v136 : Ref sig .tc := ⟨.hbm, 138, rfl⟩
abbrev main_v137 : Ref sig .tc := ⟨.hbm, 139, rfl⟩
abbrev main_v138 : Ref sig .tc := ⟨.hbm, 140, rfl⟩
abbrev main_v139 : Ref sig .tc := ⟨.hbm, 141, rfl⟩
abbrev main_v140 : Ref sig .tc := ⟨.hbm, 142, rfl⟩
abbrev main_v141 : Ref sig .tc := ⟨.hbm, 143, rfl⟩
abbrev main_v142 : Ref sig .tc := ⟨.hbm, 144, rfl⟩
abbrev main_v143 : Ref sig .tc := ⟨.hbm, 145, rfl⟩
abbrev main_v144 : Ref sig .tc := ⟨.hbm, 146, rfl⟩
abbrev main_v145 : Ref sig .tc := ⟨.hbm, 147, rfl⟩
abbrev main_v146 : Ref sig .tc := ⟨.hbm, 148, rfl⟩
abbrev main_v147 : Ref sig .tc := ⟨.hbm, 149, rfl⟩
abbrev main_v148 : Ref sig .tc := ⟨.hbm, 150, rfl⟩
abbrev main_v149 : Ref sig .tc := ⟨.hbm, 151, rfl⟩
abbrev main_v150 : Ref sig .tc := ⟨.hbm, 152, rfl⟩
abbrev main_v151 : Ref sig .tc := ⟨.hbm, 153, rfl⟩
abbrev main_v152 : Ref sig .tc := ⟨.hbm, 154, rfl⟩
abbrev main_v153 : Ref sig .tc := ⟨.hbm, 155, rfl⟩
abbrev main_v154 : Ref sig .tc := ⟨.hbm, 156, rfl⟩
abbrev main_v155 : Ref sig .tc := ⟨.hbm, 157, rfl⟩
abbrev main_v156 : Ref sig .tc := ⟨.hbm, 158, rfl⟩
abbrev main_v157 : Ref sig .tc := ⟨.hbm, 159, rfl⟩
abbrev main_v158 : Ref sig .tc := ⟨.hbm, 160, rfl⟩
abbrev main_v159 : Ref sig .tc := ⟨.hbm, 161, rfl⟩
abbrev main_v160 : Ref sig .tc := ⟨.hbm, 162, rfl⟩
abbrev main_v161 : Ref sig .tc := ⟨.hbm, 163, rfl⟩
abbrev main_v162 : Ref sig .tc := ⟨.hbm, 164, rfl⟩
abbrev main_v163 : Ref sig .tc := ⟨.hbm, 165, rfl⟩
abbrev main_v164 : Ref sig .tc := ⟨.hbm, 166, rfl⟩
abbrev main_v165 : Ref sig .tc := ⟨.hbm, 167, rfl⟩
abbrev main_v166 : Ref sig .tc := ⟨.hbm, 168, rfl⟩
abbrev main_v167 : Ref sig .tc := ⟨.hbm, 169, rfl⟩
abbrev main_v168 : Ref sig .tc := ⟨.hbm, 170, rfl⟩
abbrev main_v169 : Ref sig .tc := ⟨.hbm, 171, rfl⟩
abbrev main_v170 : Ref sig .tc := ⟨.hbm, 172, rfl⟩
abbrev main_v171 : Ref sig .tc := ⟨.hbm, 173, rfl⟩
abbrev main_v172 : Ref sig .tc := ⟨.hbm, 174, rfl⟩
abbrev main_v173 : Ref sig .tc := ⟨.hbm, 175, rfl⟩
abbrev main_v174 : Ref sig .tc := ⟨.hbm, 176, rfl⟩
abbrev main_v175 : Ref sig .tc := ⟨.hbm, 177, rfl⟩
abbrev main_v176 : Ref sig .tc := ⟨.hbm, 178, rfl⟩
abbrev main_v177 : Ref sig .tc := ⟨.hbm, 179, rfl⟩
abbrev main_v178 : Ref sig .tc := ⟨.hbm, 180, rfl⟩
abbrev main_v179 : Ref sig .tc := ⟨.hbm, 181, rfl⟩
abbrev main_v180 : Ref sig .tc := ⟨.hbm, 182, rfl⟩
abbrev main_v181 : Ref sig .tc := ⟨.hbm, 183, rfl⟩
abbrev main_v182 : Ref sig .tc := ⟨.hbm, 184, rfl⟩
abbrev main_v183 : Ref sig .tc := ⟨.hbm, 185, rfl⟩
abbrev main_v184 : Ref sig .tc := ⟨.hbm, 186, rfl⟩
abbrev main_v185 : Ref sig .tc := ⟨.hbm, 187, rfl⟩
abbrev main_v186 : Ref sig .tc := ⟨.hbm, 188, rfl⟩
abbrev main_v187 : Ref sig .tc := ⟨.hbm, 189, rfl⟩
abbrev main_v188 : Ref sig .tc := ⟨.hbm, 190, rfl⟩
abbrev main_v189 : Ref sig .tc := ⟨.hbm, 191, rfl⟩
abbrev main_v190 : Ref sig .tc := ⟨.hbm, 192, rfl⟩
abbrev main_v191 : Ref sig .tc := ⟨.hbm, 193, rfl⟩
abbrev main_v192 : Ref sig .tc := ⟨.hbm, 194, rfl⟩
abbrev main_v193 : Ref sig .tc := ⟨.hbm, 195, rfl⟩
abbrev main_v194 : Ref sig .tc := ⟨.hbm, 196, rfl⟩
abbrev main_v195 : Ref sig .tc := ⟨.hbm, 197, rfl⟩
abbrev main_v196 : Ref sig .tc := ⟨.hbm, 198, rfl⟩
abbrev main_v197 : Ref sig .tc := ⟨.hbm, 199, rfl⟩
abbrev main_v198 : Ref sig .tc := ⟨.hbm, 200, rfl⟩
abbrev main_v199 : Ref sig .tc := ⟨.hbm, 201, rfl⟩
abbrev main_v200 : Ref sig .tc := ⟨.hbm, 202, rfl⟩
abbrev main_v201 : Ref sig .tc := ⟨.hbm, 203, rfl⟩
abbrev main_v202 : Ref sig .tc := ⟨.hbm, 204, rfl⟩
abbrev main_v203 : Ref sig .tc := ⟨.hbm, 205, rfl⟩
abbrev main_v204 : Ref sig .tc := ⟨.hbm, 206, rfl⟩
abbrev main_v205 : Ref sig .tc := ⟨.hbm, 207, rfl⟩
abbrev main_v206 : Ref sig .tc := ⟨.hbm, 208, rfl⟩
abbrev main_v207 : Ref sig .tc := ⟨.hbm, 209, rfl⟩
abbrev main_v208 : Ref sig .tc := ⟨.hbm, 210, rfl⟩
abbrev main_v209 : Ref sig .tc := ⟨.hbm, 211, rfl⟩
abbrev main_v210 : Ref sig .tc := ⟨.hbm, 212, rfl⟩
abbrev main_v211 : Ref sig .tc := ⟨.hbm, 213, rfl⟩
abbrev main_v212 : Ref sig .tc := ⟨.hbm, 214, rfl⟩
abbrev main_v213 : Ref sig .tc := ⟨.hbm, 215, rfl⟩
abbrev main_v214 : Ref sig .tc := ⟨.hbm, 216, rfl⟩
abbrev main_v215 : Ref sig .tc := ⟨.hbm, 217, rfl⟩
abbrev main_v216 : Ref sig .tc := ⟨.hbm, 218, rfl⟩
abbrev main_v217 : Ref sig .tc := ⟨.hbm, 219, rfl⟩
abbrev main_v218 : Ref sig .tc := ⟨.hbm, 220, rfl⟩
abbrev main_v219 : Ref sig .tc := ⟨.hbm, 221, rfl⟩
abbrev main_v220 : Ref sig .tc := ⟨.hbm, 222, rfl⟩
abbrev main_v221 : Ref sig .tc := ⟨.hbm, 223, rfl⟩
abbrev main_v222 : Ref sig .tc := ⟨.hbm, 224, rfl⟩
abbrev main_v223 : Ref sig .tc := ⟨.hbm, 225, rfl⟩
abbrev main_v224 : Ref sig .tc := ⟨.hbm, 226, rfl⟩
abbrev main_v225 : Ref sig .tc := ⟨.hbm, 227, rfl⟩
abbrev main_v226 : Ref sig .tc := ⟨.hbm, 228, rfl⟩
abbrev main_v227 : Ref sig .tc := ⟨.hbm, 229, rfl⟩
abbrev main_v228 : Ref sig .tc := ⟨.hbm, 230, rfl⟩
abbrev main_v229 : Ref sig .tc := ⟨.hbm, 231, rfl⟩
abbrev main_v230 : Ref sig .tc := ⟨.hbm, 232, rfl⟩
abbrev main_v231 : Ref sig .tc := ⟨.hbm, 233, rfl⟩
abbrev main_v232 : Ref sig .tc := ⟨.hbm, 234, rfl⟩
abbrev main_v233 : Ref sig .tc := ⟨.hbm, 235, rfl⟩
abbrev main_v234 : Ref sig .tc := ⟨.hbm, 236, rfl⟩
abbrev main_v235 : Ref sig .tc := ⟨.hbm, 237, rfl⟩
abbrev main_v236 : Ref sig .tc := ⟨.hbm, 238, rfl⟩
abbrev main_v237 : Ref sig .tc := ⟨.hbm, 239, rfl⟩
abbrev main_v238 : Ref sig .tc := ⟨.hbm, 240, rfl⟩
abbrev main_v239 : Ref sig .tc := ⟨.hbm, 241, rfl⟩
abbrev main_v240 : Ref sig .tc := ⟨.hbm, 242, rfl⟩
abbrev main_v241 : Ref sig .tc := ⟨.hbm, 243, rfl⟩
abbrev main_v242 : Ref sig .tc := ⟨.hbm, 244, rfl⟩
abbrev main_v243 : Ref sig .tc := ⟨.hbm, 245, rfl⟩
abbrev main_v244 : Ref sig .tc := ⟨.hbm, 246, rfl⟩
abbrev main_v245 : Ref sig .tc := ⟨.hbm, 247, rfl⟩
abbrev main_v246 : Ref sig .tc := ⟨.hbm, 248, rfl⟩
abbrev main_v247 : Ref sig .tc := ⟨.hbm, 249, rfl⟩
abbrev main_v248 : Ref sig .tc := ⟨.hbm, 250, rfl⟩
abbrev main_v249 : Ref sig .tc := ⟨.hbm, 251, rfl⟩
abbrev main_v250 : Ref sig .tc := ⟨.hbm, 252, rfl⟩
abbrev main_v251 : Ref sig .tc := ⟨.hbm, 253, rfl⟩
abbrev main_v252 : Ref sig .tc := ⟨.hbm, 254, rfl⟩
abbrev main_v253 : Ref sig .tc := ⟨.hbm, 255, rfl⟩
abbrev main_v254 : Ref sig .tc := ⟨.hbm, 256, rfl⟩
abbrev main_v255 : Ref sig .tc := ⟨.hbm, 257, rfl⟩
abbrev main_v256 : Ref sig .tc := ⟨.hbm, 258, rfl⟩
abbrev main_v257 : Ref sig .tc := ⟨.hbm, 259, rfl⟩
abbrev main_v258 : Ref sig .tc := ⟨.hbm, 260, rfl⟩
abbrev main_v259 : Ref sig .tc := ⟨.hbm, 261, rfl⟩
abbrev main_v260 : Ref sig .tc := ⟨.hbm, 262, rfl⟩
abbrev main_v261 : Ref sig .tc := ⟨.hbm, 263, rfl⟩
abbrev main_v262 : Ref sig .tc := ⟨.hbm, 264, rfl⟩
abbrev main_v263 : Ref sig .tc := ⟨.hbm, 265, rfl⟩
abbrev main_v264 : Ref sig .tc := ⟨.hbm, 266, rfl⟩
abbrev main_v265 : Ref sig .tc := ⟨.hbm, 267, rfl⟩
abbrev main_v266 : Ref sig .tc := ⟨.hbm, 268, rfl⟩
abbrev main_v267 : Ref sig .tc := ⟨.hbm, 269, rfl⟩
abbrev main_v268 : Ref sig .tc := ⟨.hbm, 270, rfl⟩
abbrev main_v269 : Ref sig .tc := ⟨.hbm, 271, rfl⟩
abbrev main_v270 : Ref sig .tc := ⟨.hbm, 272, rfl⟩
abbrev main_v271 : Ref sig .tc := ⟨.hbm, 273, rfl⟩
abbrev main_v272 : Ref sig .tc := ⟨.hbm, 274, rfl⟩
abbrev main_v273 : Ref sig .tc := ⟨.hbm, 275, rfl⟩
abbrev main_v274 : Ref sig .tc := ⟨.hbm, 276, rfl⟩
abbrev main_v275 : Ref sig .tc := ⟨.hbm, 277, rfl⟩
abbrev main_v276 : Ref sig .tc := ⟨.hbm, 278, rfl⟩
abbrev main_v277 : Ref sig .tc := ⟨.hbm, 279, rfl⟩
abbrev main_v278 : Ref sig .tc := ⟨.hbm, 280, rfl⟩
abbrev main_v279 : Ref sig .tc := ⟨.hbm, 281, rfl⟩

abbrev nD : Nat := 1
abbrev τ : Topo := Topo.v7x

variable {F : FTy → Type} [FloatOps F]

class Facts₀ : Prop where
  shapeCasts_S32768x1024_S32768x512x2x1 : S32768x1024.ShapeCasts S32768x512x2x1
  slices_S10x512_S1x512_0_0 : S10x512.Slices ![0, 0] S1x512
  shapeCasts_S1x512_S512 : S1x512.ShapeCasts S512
  shapeCasts_S512_S512x1 : S512.ShapeCasts S512x1
  slices_S32768x512x2x1_S32768x512x1x1_0_0_0_0 : S32768x512x2x1.Slices ![0, 0, 0, 0] S32768x512x1x1
  shapeCasts_S32768x512x1x1_S32768x512x1 : S32768x512x1x1.ShapeCasts S32768x512x1
  slices_S32768x512x2x1_S32768x512x1x1_0_0_1_0 : S32768x512x2x1.Slices ![0, 0, 1, 0] S32768x512x1x1
  bcast_S512x1_S1x512x1_1_2 : S512x1.BroadcastsInDim S1x512x1 (![1, 2] : Fin 2 → Fin S1x512x1.rank)
  bcast_S1x512x1_S32768x512x1_0_1_2 : S1x512x1.BroadcastsInDim S32768x512x1 (![0, 1, 2] : Fin 3 → Fin S32768x512x1.rank)
  bcast_S32768x512x1_S32768x512x1x1_0_1_3 : S32768x512x1.BroadcastsInDim S32768x512x1x1 (![0, 1, 3] : Fin 3 → Fin S32768x512x1x1.rank)
  concatenates_S32768x512x1x1_S32768x512x1x1_S32768x512x2x1_d2 : Shape.Concatenates [S32768x512x1x1, S32768x512x1x1] S32768x512x2x1 2
  shapeCasts_S32768x512x2x1_S32768x1024 : S32768x512x2x1.ShapeCasts S32768x1024
  shapeCasts_S32768x1024_S32768x256x2x2 : S32768x1024.ShapeCasts S32768x256x2x2
  slices_S10x512_S1x512_1_0 : S10x512.Slices ![1, 0] S1x512
  shapeCasts_S512_S256x2 : S512.ShapeCasts S256x2
  slices_S32768x256x2x2_S32768x256x1x2_0_0_0_0 : S32768x256x2x2.Slices ![0, 0, 0, 0] S32768x256x1x2
  shapeCasts_S32768x256x1x2_S32768x256x2 : S32768x256x1x2.ShapeCasts S32768x256x2
  slices_S32768x256x2x2_S32768x256x1x2_0_0_1_0 : S32768x256x2x2.Slices ![0, 0, 1, 0] S32768x256x1x2
  bcast_S256x2_S1x256x2_1_2 : S256x2.BroadcastsInDim S1x256x2 (![1, 2] : Fin 2 → Fin S1x256x2.rank)
  bcast_S1x256x2_S32768x256x2_0_1_2 : S1x256x2.BroadcastsInDim S32768x256x2 (![0, 1, 2] : Fin 3 → Fin S32768x256x2.rank)
  bcast_S32768x256x2_S32768x256x1x2_0_1_3 : S32768x256x2.BroadcastsInDim S32768x256x1x2 (![0, 1, 3] : Fin 3 → Fin S32768x256x1x2.rank)
  concatenates_S32768x256x1x2_S32768x256x1x2_S32768x256x2x2_d2 : Shape.Concatenates [S32768x256x1x2, S32768x256x1x2] S32768x256x2x2 2
  shapeCasts_S32768x256x2x2_S32768x1024 : S32768x256x2x2.ShapeCasts S32768x1024
  shapeCasts_S32768x1024_S32768x128x2x4 : S32768x1024.ShapeCasts S32768x128x2x4
  slices_S10x512_S1x512_2_0 : S10x512.Slices ![2, 0] S1x512
  shapeCasts_S512_S128x4 : S512.ShapeCasts S128x4
  slices_S32768x128x2x4_S32768x128x1x4_0_0_0_0 : S32768x128x2x4.Slices ![0, 0, 0, 0] S32768x128x1x4
  shapeCasts_S32768x128x1x4_S32768x128x4 : S32768x128x1x4.ShapeCasts S32768x128x4
  slices_S32768x128x2x4_S32768x128x1x4_0_0_1_0 : S32768x128x2x4.Slices ![0, 0, 1, 0] S32768x128x1x4
  bcast_S128x4_S1x128x4_1_2 : S128x4.BroadcastsInDim S1x128x4 (![1, 2] : Fin 2 → Fin S1x128x4.rank)
  bcast_S1x128x4_S32768x128x4_0_1_2 : S1x128x4.BroadcastsInDim S32768x128x4 (![0, 1, 2] : Fin 3 → Fin S32768x128x4.rank)
  bcast_S32768x128x4_S32768x128x1x4_0_1_3 : S32768x128x4.BroadcastsInDim S32768x128x1x4 (![0, 1, 3] : Fin 3 → Fin S32768x128x1x4.rank)
  concatenates_S32768x128x1x4_S32768x128x1x4_S32768x128x2x4_d2 : Shape.Concatenates [S32768x128x1x4, S32768x128x1x4] S32768x128x2x4 2
  shapeCasts_S32768x128x2x4_S32768x1024 : S32768x128x2x4.ShapeCasts S32768x1024
  shapeCasts_S32768x1024_S32768x64x2x8 : S32768x1024.ShapeCasts S32768x64x2x8
  slices_S10x512_S1x512_3_0 : S10x512.Slices ![3, 0] S1x512
  shapeCasts_S512_S64x8 : S512.ShapeCasts S64x8
  slices_S32768x64x2x8_S32768x64x1x8_0_0_0_0 : S32768x64x2x8.Slices ![0, 0, 0, 0] S32768x64x1x8
  shapeCasts_S32768x64x1x8_S32768x64x8 : S32768x64x1x8.ShapeCasts S32768x64x8
  slices_S32768x64x2x8_S32768x64x1x8_0_0_1_0 : S32768x64x2x8.Slices ![0, 0, 1, 0] S32768x64x1x8
  bcast_S64x8_S1x64x8_1_2 : S64x8.BroadcastsInDim S1x64x8 (![1, 2] : Fin 2 → Fin S1x64x8.rank)
  bcast_S1x64x8_S32768x64x8_0_1_2 : S1x64x8.BroadcastsInDim S32768x64x8 (![0, 1, 2] : Fin 3 → Fin S32768x64x8.rank)
  bcast_S32768x64x8_S32768x64x1x8_0_1_3 : S32768x64x8.BroadcastsInDim S32768x64x1x8 (![0, 1, 3] : Fin 3 → Fin S32768x64x1x8.rank)
  concatenates_S32768x64x1x8_S32768x64x1x8_S32768x64x2x8_d2 : Shape.Concatenates [S32768x64x1x8, S32768x64x1x8] S32768x64x2x8 2
  shapeCasts_S32768x64x2x8_S32768x1024 : S32768x64x2x8.ShapeCasts S32768x1024
  shapeCasts_S32768x1024_S32768x32x2x16 : S32768x1024.ShapeCasts S32768x32x2x16
  slices_S10x512_S1x512_4_0 : S10x512.Slices ![4, 0] S1x512
  shapeCasts_S512_S32x16 : S512.ShapeCasts S32x16
  slices_S32768x32x2x16_S32768x32x1x16_0_0_0_0 : S32768x32x2x16.Slices ![0, 0, 0, 0] S32768x32x1x16
  shapeCasts_S32768x32x1x16_S32768x32x16 : S32768x32x1x16.ShapeCasts S32768x32x16
  slices_S32768x32x2x16_S32768x32x1x16_0_0_1_0 : S32768x32x2x16.Slices ![0, 0, 1, 0] S32768x32x1x16
  bcast_S32x16_S1x32x16_1_2 : S32x16.BroadcastsInDim S1x32x16 (![1, 2] : Fin 2 → Fin S1x32x16.rank)
  bcast_S1x32x16_S32768x32x16_0_1_2 : S1x32x16.BroadcastsInDim S32768x32x16 (![0, 1, 2] : Fin 3 → Fin S32768x32x16.rank)
  bcast_S32768x32x16_S32768x32x1x16_0_1_3 : S32768x32x16.BroadcastsInDim S32768x32x1x16 (![0, 1, 3] : Fin 3 → Fin S32768x32x1x16.rank)
  concatenates_S32768x32x1x16_S32768x32x1x16_S32768x32x2x16_d2 : Shape.Concatenates [S32768x32x1x16, S32768x32x1x16] S32768x32x2x16 2
  shapeCasts_S32768x32x2x16_S32768x1024 : S32768x32x2x16.ShapeCasts S32768x1024
  shapeCasts_S32768x1024_S32768x16x2x32 : S32768x1024.ShapeCasts S32768x16x2x32
  slices_S10x512_S1x512_5_0 : S10x512.Slices ![5, 0] S1x512
  shapeCasts_S512_S16x32 : S512.ShapeCasts S16x32
  slices_S32768x16x2x32_S32768x16x1x32_0_0_0_0 : S32768x16x2x32.Slices ![0, 0, 0, 0] S32768x16x1x32
  shapeCasts_S32768x16x1x32_S32768x16x32 : S32768x16x1x32.ShapeCasts S32768x16x32
  slices_S32768x16x2x32_S32768x16x1x32_0_0_1_0 : S32768x16x2x32.Slices ![0, 0, 1, 0] S32768x16x1x32
  bcast_S16x32_S1x16x32_1_2 : S16x32.BroadcastsInDim S1x16x32 (![1, 2] : Fin 2 → Fin S1x16x32.rank)
  bcast_S1x16x32_S32768x16x32_0_1_2 : S1x16x32.BroadcastsInDim S32768x16x32 (![0, 1, 2] : Fin 3 → Fin S32768x16x32.rank)
  bcast_S32768x16x32_S32768x16x1x32_0_1_3 : S32768x16x32.BroadcastsInDim S32768x16x1x32 (![0, 1, 3] : Fin 3 → Fin S32768x16x1x32.rank)
  concatenates_S32768x16x1x32_S32768x16x1x32_S32768x16x2x32_d2 : Shape.Concatenates [S32768x16x1x32, S32768x16x1x32] S32768x16x2x32 2
  shapeCasts_S32768x16x2x32_S32768x1024 : S32768x16x2x32.ShapeCasts S32768x1024
  shapeCasts_S32768x1024_S32768x8x2x64 : S32768x1024.ShapeCasts S32768x8x2x64
  slices_S10x512_S1x512_6_0 : S10x512.Slices ![6, 0] S1x512
  shapeCasts_S512_S8x64 : S512.ShapeCasts S8x64
  slices_S32768x8x2x64_S32768x8x1x64_0_0_0_0 : S32768x8x2x64.Slices ![0, 0, 0, 0] S32768x8x1x64
  shapeCasts_S32768x8x1x64_S32768x8x64 : S32768x8x1x64.ShapeCasts S32768x8x64
  slices_S32768x8x2x64_S32768x8x1x64_0_0_1_0 : S32768x8x2x64.Slices ![0, 0, 1, 0] S32768x8x1x64
  bcast_S8x64_S1x8x64_1_2 : S8x64.BroadcastsInDim S1x8x64 (![1, 2] : Fin 2 → Fin S1x8x64.rank)
  bcast_S1x8x64_S32768x8x64_0_1_2 : S1x8x64.BroadcastsInDim S32768x8x64 (![0, 1, 2] : Fin 3 → Fin S32768x8x64.rank)
  bcast_S32768x8x64_S32768x8x1x64_0_1_3 : S32768x8x64.BroadcastsInDim S32768x8x1x64 (![0, 1, 3] : Fin 3 → Fin S32768x8x1x64.rank)
  concatenates_S32768x8x1x64_S32768x8x1x64_S32768x8x2x64_d2 : Shape.Concatenates [S32768x8x1x64, S32768x8x1x64] S32768x8x2x64 2
  shapeCasts_S32768x8x2x64_S32768x1024 : S32768x8x2x64.ShapeCasts S32768x1024
  shapeCasts_S32768x1024_S32768x4x2x128 : S32768x1024.ShapeCasts S32768x4x2x128
  slices_S10x512_S1x512_7_0 : S10x512.Slices ![7, 0] S1x512
  shapeCasts_S512_S4x128 : S512.ShapeCasts S4x128
  slices_S32768x4x2x128_S32768x4x1x128_0_0_0_0 : S32768x4x2x128.Slices ![0, 0, 0, 0] S32768x4x1x128
  shapeCasts_S32768x4x1x128_S32768x4x128 : S32768x4x1x128.ShapeCasts S32768x4x128
  slices_S32768x4x2x128_S32768x4x1x128_0_0_1_0 : S32768x4x2x128.Slices ![0, 0, 1, 0] S32768x4x1x128
  bcast_S4x128_S1x4x128_1_2 : S4x128.BroadcastsInDim S1x4x128 (![1, 2] : Fin 2 → Fin S1x4x128.rank)
  bcast_S1x4x128_S32768x4x128_0_1_2 : S1x4x128.BroadcastsInDim S32768x4x128 (![0, 1, 2] : Fin 3 → Fin S32768x4x128.rank)
  bcast_S32768x4x128_S32768x4x1x128_0_1_3 : S32768x4x128.BroadcastsInDim S32768x4x1x128 (![0, 1, 3] : Fin 3 → Fin S32768x4x1x128.rank)
  concatenates_S32768x4x1x128_S32768x4x1x128_S32768x4x2x128_d2 : Shape.Concatenates [S32768x4x1x128, S32768x4x1x128] S32768x4x2x128 2
  shapeCasts_S32768x4x2x128_S32768x1024 : S32768x4x2x128.ShapeCasts S32768x1024
  shapeCasts_S32768x1024_S32768x2x2x256 : S32768x1024.ShapeCasts S32768x2x2x256
  slices_S10x512_S1x512_8_0 : S10x512.Slices ![8, 0] S1x512
  shapeCasts_S512_S2x256 : S512.ShapeCasts S2x256
  slices_S32768x2x2x256_S32768x2x1x256_0_0_0_0 : S32768x2x2x256.Slices ![0, 0, 0, 0] S32768x2x1x256
  shapeCasts_S32768x2x1x256_S32768x2x256 : S32768x2x1x256.ShapeCasts S32768x2x256
  slices_S32768x2x2x256_S32768x2x1x256_0_0_1_0 : S32768x2x2x256.Slices ![0, 0, 1, 0] S32768x2x1x256
  bcast_S2x256_S1x2x256_1_2 : S2x256.BroadcastsInDim S1x2x256 (![1, 2] : Fin 2 → Fin S1x2x256.rank)
  bcast_S1x2x256_S32768x2x256_0_1_2 : S1x2x256.BroadcastsInDim S32768x2x256 (![0, 1, 2] : Fin 3 → Fin S32768x2x256.rank)
  bcast_S32768x2x256_S32768x2x1x256_0_1_3 : S32768x2x256.BroadcastsInDim S32768x2x1x256 (![0, 1, 3] : Fin 3 → Fin S32768x2x1x256.rank)
  concatenates_S32768x2x1x256_S32768x2x1x256_S32768x2x2x256_d2 : Shape.Concatenates [S32768x2x1x256, S32768x2x1x256] S32768x2x2x256 2
  shapeCasts_S32768x2x2x256_S32768x1024 : S32768x2x2x256.ShapeCasts S32768x1024
  shapeCasts_S32768x1024_S32768x1x2x512 : S32768x1024.ShapeCasts S32768x1x2x512
  slices_S10x512_S1x512_9_0 : S10x512.Slices ![9, 0] S1x512
  shapeCasts_S512_S1x512 : S512.ShapeCasts S1x512
  slices_S32768x1x2x512_S32768x1x1x512_0_0_0_0 : S32768x1x2x512.Slices ![0, 0, 0, 0] S32768x1x1x512
  shapeCasts_S32768x1x1x512_S32768x1x512 : S32768x1x1x512.ShapeCasts S32768x1x512
  slices_S32768x1x2x512_S32768x1x1x512_0_0_1_0 : S32768x1x2x512.Slices ![0, 0, 1, 0] S32768x1x1x512
  bcast_S1x512_S1x1x512_1_2 : S1x512.BroadcastsInDim S1x1x512 (![1, 2] : Fin 2 → Fin S1x1x512.rank)
  bcast_S1x1x512_S32768x1x512_0_1_2 : S1x1x512.BroadcastsInDim S32768x1x512 (![0, 1, 2] : Fin 3 → Fin S32768x1x512.rank)
  bcast_S32768x1x512_S32768x1x1x512_0_1_3 : S32768x1x512.BroadcastsInDim S32768x1x1x512 (![0, 1, 3] : Fin 3 → Fin S32768x1x1x512.rank)
  concatenates_S32768x1x1x512_S32768x1x1x512_S32768x1x2x512_d2 : Shape.Concatenates [S32768x1x1x512, S32768x1x1x512] S32768x1x2x512 2
  shapeCasts_S32768x1x2x512_S32768x1024 : S32768x1x2x512.ShapeCasts S32768x1024

variable [Facts₀]

class Facts : Prop extends Facts₀ where

variable [Facts]
-- ==== Proof.KDefsBits.lean ====
import proofs.«100991_j68994354643574_2_alg».proof.Proof.Gen.Kernel.Launch
import proofs.«100991_j68994354643574_2_alg».proof.Proof.Gen.Kernel.Skeleton
import proofs.«100991_j68994354643574_2_alg».proof.Proof.Gen.Kernel.Points
import Idealize.ShloMosaic.Lib.Pipeline.FrameBody
import Idealize.ShloMosaic.Lib.Ring
import Idealize.ShloMosaic.Lib.Tactic

/-!
# The butterfly kernel's frame data

Definitions only. The kernel body reads its four input buffers (the block of rows `x0` and the three
ten-row tables `x1`, `x2`, `x3`) through fixed rectangles, computes ten butterfly stages and stores ONE
value over its whole output buffer. `body` is that value as a pure term of the four buffers; `out0_4` is
the output buffer's contents after the store; `dats` is the pipeline's proof data built from them.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ)

/-! ## The arrays when the region is entered -/

/-- Core `c`'s TensorCore buffers when the one region is entered: the launch memory after the host
    operations `hostOps0` (which compute the three tables from the second argument). -/
abbrev V (c : Dev nD) (b : Ref sig .tc) : Buf (Elt F) ((c : Thread nD τ).loc b) :=
  StableHlo.after hostOps0 (fun b => m (c, b)) b

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body loads and stores through -/

/-- The whole 512×1024 buffer: the load of the input block and the one store. -/
abbrev rX : Rect S512x1024 := Rect.unit (s := S512x1024) ![0, 0] S512x1024.size inb_S512x1024_S512x1024_0_0

/-- Row `k` of a ten-row table, as a 1×1024 rectangle. -/
abbrev rRow0 : Rect S10x1024 := Rect.unit (s := S10x1024) ![0, 0] S1x1024.size inb_S10x1024_S1x1024_0_0
abbrev rRow1 : Rect S10x1024 := Rect.unit (s := S10x1024) ![1, 0] S1x1024.size inb_S10x1024_S1x1024_1_0
abbrev rRow2 : Rect S10x1024 := Rect.unit (s := S10x1024) ![2, 0] S1x1024.size inb_S10x1024_S1x1024_2_0
abbrev rRow3 : Rect S10x1024 := Rect.unit (s := S10x1024) ![3, 0] S1x1024.size inb_S10x1024_S1x1024_3_0
abbrev rRow4 : Rect S10x1024 := Rect.unit (s := S10x1024) ![4, 0] S1x1024.size inb_S10x1024_S1x1024_4_0
abbrev rRow5 : Rect S10x1024 := Rect.unit (s := S10x1024) ![5, 0] S1x1024.size inb_S10x1024_S1x1024_5_0
abbrev rRow6 : Rect S10x1024 := Rect.unit (s := S10x1024) ![6, 0] S1x1024.size inb_S10x1024_S1x1024_6_0
abbrev rRow7 : Rect S10x1024 := Rect.unit (s := S10x1024) ![7, 0] S1x1024.size inb_S10x1024_S1x1024_7_0
abbrev rRow8 : Rect S10x1024 := Rect.unit (s := S10x1024) ![8, 0] S1x1024.size inb_S10x1024_S1x1024_8_0
abbrev rRow9 : Rect S10x1024 := Rect.unit (s := S10x1024) ![9, 0] S1x1024.size inb_S10x1024_S1x1024_9_0

/-! ## The stored value -/

/-- The one value the body stores, as a function of its four input buffers: stage `k` (`k = 0 … 9`) reads row `k`
    of each table and combines the running block with its rotations by `2^k` lanes either way. The `let`s follow the
    body's five parts and its tail in order; each named value is the payload the part hands to the next. -/
def body (x0 : Vec F S512x1024 .f32) (x1 x2 x3 : Vec F S10x1024 .f32) : FVec F S512x1024 .f32 :=
  -- part 1: the block, rows 0 and 1
  let v0 : Vec F S512x1024 .f32 := View.ld x0 rX
  let v1 : Vec F S1x1024 .f32 := View.ld x1 rRow0
  let v3 : Vec F S1x1024 .f32 := View.ld x2 rRow0
  let v5 : Vec F S1x1024 .f32 := View.ld x3 rRow0
  let v26 : Vec F S1x1024 .f32 := View.ld x1 rRow1
  let v28 : Vec F S1x1024 .f32 := View.ld x2 rRow1
  let v30 : Vec F S1x1024 .f32 := View.ld x3 rRow1
  let v25 := k0_pay2 v0 v1 v3 v5
  let v27 := k0_pay3 v26
  let v31 := k0_pay5 v30
  let v33 := k0_pay6 v0 v1 v3 v5
  let v38 := k0_pay7 v0 v1 v3 v5 v26 v28
  let v39 := k0_pay8 v28
  -- part 2: rows 2 and 3
  let v51 : Vec F S1x1024 .f32 := View.ld x1 rRow2
  let v53 : Vec F S1x1024 .f32 := View.ld x2 rRow2
  let v55 : Vec F S1x1024 .f32 := View.ld x3 rRow2
  let v76 : Vec F S1x1024 .f32 := View.ld x1 rRow3
  let v78 : Vec F S1x1024 .f32 := View.ld x2 rRow3
  let v80 : Vec F S1x1024 .f32 := View.ld x3 rRow3
  let v75 := k0_pay9 v25 v27 v31 v33 v38 v39 v51 v53 v55
  let v77 := k0_pay10 v76
  let v79 := k0_pay11 v78
  let v81 := k0_pay12 v80
  let v82 := k0_pay13 v25 v27 v31 v33 v38 v39 v51 v53 v55
  -- part 3: row 4, and row 5 of the first table
  let v101 : Vec F S1x1024 .f32 := View.ld x1 rRow4
  let v103 : Vec F S1x1024 .f32 := View.ld x2 rRow4
  let v105 : Vec F S1x1024 .f32 := View.ld x3 rRow4
  let v126 : Vec F S1x1024 .f32 := View.ld x1 rRow5
  let v125 := k0_pay14 v75 v77 v79 v81 v82 v101 v103 v105
  let v127 := k0_pay15 v126
  -- part 4: the rest of row 5, row 6
  let v128 : Vec F S1x1024 .f32 := View.ld x2 rRow5
  let v130 : Vec F S1x1024 .f32 := View.ld x3 rRow5
  let v151 : Vec F S1x1024 .f32 := View.ld x1 rRow6
  let v153 : Vec F S1x1024 .f32 := View.ld x2 rRow6
  let v155 : Vec F S1x1024 .f32 := View.ld x3 rRow6
  let v168 := k0_pay20 v125 v127 v128 v130 v151 v153
  let v170 := k0_pay21 v125 v127 v128 v130 v151 v153 v155
  let v173 := k0_pay22 v155
  -- part 5: rows 7 and 8
  let v176 : Vec F S1x1024 .f32 := View.ld x1 rRow7
  let v178 : Vec F S1x1024 .f32 := View.ld x2 rRow7
  let v180 : Vec F S1x1024 .f32 := View.ld x3 rRow7
  let v201 : Vec F S1x1024 .f32 := View.ld x1 rRow8
  let v203 : Vec F S1x1024 .f32 := View.ld x2 rRow8
  let v205 : Vec F S1x1024 .f32 := View.ld x3 rRow8
  let v200 := k0_pay23 v168 v170 v173 v176 v178 v180
  let v206 := k0_pay26 v205
  let v213 := k0_pay27 v168 v170 v173 v176 v178 v180 v201 v203
  let v215 := k0_pay28 v168 v170 v173 v176 v178 v180 v203
  let v216 := k0_pay29 v201
  -- the tail: row 9, and the stored value
  let v226 : Vec F S1x1024 .f32 := View.ld x1 rRow9
  let v228 : Vec F S1x1024 .f32 := View.ld x2 rRow9
  let v230 : Vec F S1x1024 .f32 := View.ld x3 rRow9
  k0_pay1 v200 v206 v213 v215 v216 v226 v228 v230

/-! ## What the body leaves in the output window's buffer -/

/-- The output window's staging buffer after the body: its one store, over the whole buffer. -/
def out0_4 (x0 : Vec F S512x1024 .f32) (x1 x2 x3 : Vec F S10x1024 .f32) : Vec F S512x1024 .f32 :=
  View.canon [⟨rX, body x0 x1 x2 x3⟩]

/-- The one store's rectangle is the whole buffer, so it covers it. -/
theorem cover0_4 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The pipeline's proof data -/

/-- The proof data of the one pipeline on core `c`: the arrays as the region finds them; after the body at point
    `t` each input's buffer at its block and the output's at `out0_4` of the four input blocks; the invariant holds
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

end Cert.Kernel.Frm

end
-- ==== Proof.KFrameBits.lean ====
import proofs.«100991_j68994354643574_2_alg».proof.Proof.KDefsBits

/-!
# The butterfly kernel's frame certificate

`@main` is 243 host operations (they compute the three ten-row tables from the second argument) followed by one
pipelined region over 64 grid points. This file runs `@main` to the library's frame post: the host stretch up to the
region, the body's triple (what one grid point leaves in the output buffer is `out0_4` of the four input blocks), the
body obligation at a generic point, the run, and from it that both argument arrays end unchanged.
-/

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates. -/
theorem hostOps0_fresh : (hostOps0 : List (HloOp τ sig (Elt F))).Forall fun op => op.fresh = ∅ := by
  simp only [List.Forall]; repeat' constructor

/-- `@main` up to the region: the one stretch of host operations, then the region, which finds the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- No host operation writes the second argument (they only read it). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## What the body finds in each input window's buffer -/

/-- The first input's current staging buffer holds its block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Each table's staging buffer holds the whole table at every point: it is fetched at the first point only, its
    block index never moves, and the body leaves it in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body's triple -/

set_option maxHeartbeats 4000000 in
/-- The kernel body on whole staging memrefs — the four inputs' at read contents `x0 … x3`, the output's at anything
    (the body loads it once, and uses nothing of what it read, before overwriting it) — runs to the continuation
    holding the inputs' as they were and the output's at `out0_4 x0 x1 x2 x3`. -/
theorem sound_kernel (c : Dev nD) (E : Set ℕ) (i : grid0.Coords)
    (arg1 : Memref sig .tc .vmem S512x1024 .f32) (harg1 : arg1.IsWhole)
    (arg2 : Memref sig .tc .vmem S10x1024 .f32) (harg2 : arg2.IsWhole)
    (arg3 : Memref sig .tc .vmem S10x1024 .f32) (harg3 : arg3.IsWhole)
    (arg4 : Memref sig .tc .vmem S10x1024 .f32) (harg4 : arg4.IsWhole)
    (arg5 : Memref sig .tc .vmem S512x1024 .f32) (harg5 : arg5.IsWhole)
    (x0 : Vec F S512x1024 .f32) (x1 x2 x3 : Vec F S10x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__butterfly_kernel i arg1 harg1 arg2 harg2 arg3 harg3 arg4 harg4 arg5 harg5) K := by
  simp only [cc0__butterfly_kernel_eq_skeleton]; unfold cc0__butterfly_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`: the invariant, what the core owes, and each window's current staging
    buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the four inputs' buffers hold their blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of `@main` on the TensorCores terminates, and in
    every final state each array of the pipeline holds what the library computes from the proof data and every other
    unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the frame post says of the arguments and of the result -/

/-- The first argument is the first window's array, an input: it ends as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The second argument is no window's array (the host operations read it, the region does not): it ends as the
    region found it, which is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The result array ends at what the library computes from the proof data after the last point. -/
theorem post4 (r : PUnit × MemSt nD τ sig (Elt F)) (h : Pipeline.FramePost cfgs (dats m) 0 (V m) r) (c : Dev nD) :
    r.2.mem ((c : Thread nD τ).loc main_v223) = (dats m 0 c).arrAt 4 cfg0.N :=
  (h c).1 4

/-! ## The frame -/

/-- A run to the frame post is a run to the frame claim's post: both arguments unchanged. -/
theorem frame_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_main_arg0 m r h c, kept_main_arg1 m r h c⟩) h

/-- The frame: `@main` runs, and both argument arrays end unchanged — at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (run_main m ρ)

end Cert.Kernel.Frm

end
-- ==== Proof.KDefs.lean ====
import proofs.«100991_j68994354643574_2_alg».proof.Proof.Gen.KernelIdeal.Launch
import proofs.«100991_j68994354643574_2_alg».proof.Proof.Gen.KernelIdeal.Skeleton
import proofs.«100991_j68994354643574_2_alg».proof.Proof.Gen.KernelIdeal.Points
import Idealize.ShloMosaic.Lib.Pipeline.FrameBody
import Idealize.ShloMosaic.Lib.Ring
import Idealize.ShloMosaic.Lib.Tactic

/-!
# The butterfly kernel's frame data

Definitions only. The kernel body reads its four input buffers (the block of rows `x0` and the three
ten-row tables `x1`, `x2`, `x3`) through fixed rectangles, computes ten butterfly stages and stores ONE
value over its whole output buffer. `body` is that value as a pure term of the four buffers; `out0_4` is
the output buffer's contents after the store; `dats` is the pipeline's proof data built from them.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-! ## The arrays when the region is entered -/

/-- Core `c`'s TensorCore buffers when the one region is entered: the launch memory after the host
    operations `hostOps0` (which compute the three tables from the second argument). -/
abbrev V (c : Dev nD) (b : Ref sig .tc) : Buf (Elt F) ((c : Thread nD τ).loc b) :=
  StableHlo.after hostOps0 (fun b => m (c, b)) b

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The rectangles the body loads and stores through -/

/-- The whole 512×1024 buffer: the load of the input block and the one store. -/
abbrev rX : Rect S512x1024 := Rect.unit (s := S512x1024) ![0, 0] S512x1024.size inb_S512x1024_S512x1024_0_0

/-- Row `k` of a ten-row table, as a 1×1024 rectangle. -/
abbrev rRow0 : Rect S10x1024 := Rect.unit (s := S10x1024) ![0, 0] S1x1024.size inb_S10x1024_S1x1024_0_0
abbrev rRow1 : Rect S10x1024 := Rect.unit (s := S10x1024) ![1, 0] S1x1024.size inb_S10x1024_S1x1024_1_0
abbrev rRow2 : Rect S10x1024 := Rect.unit (s := S10x1024) ![2, 0] S1x1024.size inb_S10x1024_S1x1024_2_0
abbrev rRow3 : Rect S10x1024 := Rect.unit (s := S10x1024) ![3, 0] S1x1024.size inb_S10x1024_S1x1024_3_0
abbrev rRow4 : Rect S10x1024 := Rect.unit (s := S10x1024) ![4, 0] S1x1024.size inb_S10x1024_S1x1024_4_0
abbrev rRow5 : Rect S10x1024 := Rect.unit (s := S10x1024) ![5, 0] S1x1024.size inb_S10x1024_S1x1024_5_0
abbrev rRow6 : Rect S10x1024 := Rect.unit (s := S10x1024) ![6, 0] S1x1024.size inb_S10x1024_S1x1024_6_0
abbrev rRow7 : Rect S10x1024 := Rect.unit (s := S10x1024) ![7, 0] S1x1024.size inb_S10x1024_S1x1024_7_0
abbrev rRow8 : Rect S10x1024 := Rect.unit (s := S10x1024) ![8, 0] S1x1024.size inb_S10x1024_S1x1024_8_0
abbrev rRow9 : Rect S10x1024 := Rect.unit (s := S10x1024) ![9, 0] S1x1024.size inb_S10x1024_S1x1024_9_0

/-! ## The stored value -/

/-- The one value the body stores, as a function of its four input buffers: stage `k` (`k = 0 … 9`) reads row `k`
    of each table and combines the running block with its rotations by `2^k` lanes either way. The `let`s follow the
    body's five parts and its tail in order; each named value is the payload the part hands to the next. -/
def body (x0 : Vec F S512x1024 .f32) (x1 x2 x3 : Vec F S10x1024 .f32) : FVec F S512x1024 .f32 :=
  -- part 1: the block, rows 0 and 1
  let v0 : Vec F S512x1024 .f32 := View.ld x0 rX
  let v1 : Vec F S1x1024 .f32 := View.ld x1 rRow0
  let v3 : Vec F S1x1024 .f32 := View.ld x2 rRow0
  let v5 : Vec F S1x1024 .f32 := View.ld x3 rRow0
  let v26 : Vec F S1x1024 .f32 := View.ld x1 rRow1
  let v28 : Vec F S1x1024 .f32 := View.ld x2 rRow1
  let v30 : Vec F S1x1024 .f32 := View.ld x3 rRow1
  let v25 := k0_pay2 v0 v1 v3 v5
  let v27 := k0_pay3 v26
  let v31 := k0_pay5 v30
  let v33 := k0_pay6 v0 v1 v3 v5
  let v38 := k0_pay7 v0 v1 v3 v5 v26 v28
  let v39 := k0_pay8 v28
  -- part 2: rows 2 and 3
  let v51 : Vec F S1x1024 .f32 := View.ld x1 rRow2
  let v53 : Vec F S1x1024 .f32 := View.ld x2 rRow2
  let v55 : Vec F S1x1024 .f32 := View.ld x3 rRow2
  let v76 : Vec F S1x1024 .f32 := View.ld x1 rRow3
  let v78 : Vec F S1x1024 .f32 := View.ld x2 rRow3
  let v80 : Vec F S1x1024 .f32 := View.ld x3 rRow3
  let v75 := k0_pay9 v25 v27 v31 v33 v38 v39 v51 v53 v55
  let v77 := k0_pay10 v76
  let v79 := k0_pay11 v78
  let v81 := k0_pay12 v80
  let v82 := k0_pay13 v25 v27 v31 v33 v38 v39 v51 v53 v55
  -- part 3: row 4, and row 5 of the first table
  let v101 : Vec F S1x1024 .f32 := View.ld x1 rRow4
  let v103 : Vec F S1x1024 .f32 := View.ld x2 rRow4
  let v105 : Vec F S1x1024 .f32 := View.ld x3 rRow4
  let v126 : Vec F S1x1024 .f32 := View.ld x1 rRow5
  let v125 := k0_pay14 v75 v77 v79 v81 v82 v101 v103 v105
  let v127 := k0_pay15 v126
  -- part 4: the rest of row 5, row 6
  let v128 : Vec F S1x1024 .f32 := View.ld x2 rRow5
  let v130 : Vec F S1x1024 .f32 := View.ld x3 rRow5
  let v151 : Vec F S1x1024 .f32 := View.ld x1 rRow6
  let v153 : Vec F S1x1024 .f32 := View.ld x2 rRow6
  let v155 : Vec F S1x1024 .f32 := View.ld x3 rRow6
  let v168 := k0_pay20 v125 v127 v128 v130 v151 v153
  let v170 := k0_pay21 v125 v127 v128 v130 v151 v153 v155
  let v173 := k0_pay22 v155
  -- part 5: rows 7 and 8
  let v176 : Vec F S1x1024 .f32 := View.ld x1 rRow7
  let v178 : Vec F S1x1024 .f32 := View.ld x2 rRow7
  let v180 : Vec F S1x1024 .f32 := View.ld x3 rRow7
  let v201 : Vec F S1x1024 .f32 := View.ld x1 rRow8
  let v203 : Vec F S1x1024 .f32 := View.ld x2 rRow8
  let v205 : Vec F S1x1024 .f32 := View.ld x3 rRow8
  let v200 := k0_pay23 v168 v170 v173 v176 v178 v180
  let v206 := k0_pay26 v205
  let v213 := k0_pay27 v168 v170 v173 v176 v178 v180 v201 v203
  let v215 := k0_pay28 v168 v170 v173 v176 v178 v180 v203
  let v216 := k0_pay29 v201
  -- the tail: row 9, and the stored value
  let v226 : Vec F S1x1024 .f32 := View.ld x1 rRow9
  let v228 : Vec F S1x1024 .f32 := View.ld x2 rRow9
  let v230 : Vec F S1x1024 .f32 := View.ld x3 rRow9
  k0_pay1 v200 v206 v213 v215 v216 v226 v228 v230

/-! ## What the body leaves in the output window's buffer -/

/-- The output window's staging buffer after the body: its one store, over the whole buffer. -/
def out0_4 (x0 : Vec F S512x1024 .f32) (x1 x2 x3 : Vec F S10x1024 .f32) : Vec F S512x1024 .f32 :=
  View.canon [⟨rX, body x0 x1 x2 x3⟩]

/-- The one store's rectangle is the whole buffer, so it covers it. -/
theorem cover0_4 (p0 : Vec F S512x1024 .f32) (y : S512x1024.Idx) :
    ∃ pc ∈ ([⟨rX, p0⟩] : List (View.Piece (Elt F) S512x1024 .f32)), y ∈ pc.1.set :=
  View.cover_of_tiled [⟨rX, p0⟩] S512x1024.size (by rfl) y

/-! ## The pipeline's proof data -/

/-- The proof data of the one pipeline on core `c`: the arrays as the region finds them; after the body at point
    `t` each input's buffer at its block and the output's at `out0_4` of the four input blocks; the invariant holds
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents (the definition projected; `V` stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

end Cert.KernelIdeal.Frm

end
-- ==== Proof.Spec.lean ====
/-
  The butterfly network as one function of the argument arrays, index by index, on the extended reals.

  A row of 1024 entries goes through ten stages; stage `k` has stride `d = 2^k`.  At stride `d` the positions of a row
  fall into blocks of `2d`; position `f` is in the first half of its block when `f / d` is even and in the second half
  otherwise, and its partner is `f + d` resp. `f - d`.  The pair `(f, f + d)` is rotated by the angle number
  `f / (2d) * d + f % d` of the stage (blocks major, offset inside the half minor):
      new f       = cos θ · v f       − sin θ · v (f + d)      (first half)
      new (f + d) = sin θ · v f       + cos θ · v (f + d)      (second half, written at its own position below).
  The partner positions are written modulo 1024 (adding `1024 - d` for `- d`), which changes nothing where they are read
  and makes the function total on `Fin 1024`.
-/
import Idealize.ShloMosaic.PureOps.Ideal

noncomputable section

namespace Butterfly

open Idealize.ShloMosaic

/-- The number of the angle that rotates position `f`'s pair at stride `d`. -/
def pairIdx (d f : ℕ) : ℕ := f / (2 * d) * d + f % d

/-- The angle's number as an index of a row of 512 angles. -/
def angleIx (d : ℕ) (f : Fin 1024) : Fin 512 := ⟨pairIdx d f.val % 512, Nat.mod_lt _ (by norm_num)⟩

/-- Position `f`'s partner to the right, around the end. -/
def fwd (d : ℕ) (f : Fin 1024) : Fin 1024 := ⟨(f.val + d) % 1024, Nat.mod_lt _ (by norm_num)⟩

/-- Position `f`'s partner to the left, around the end. -/
def bwd (d : ℕ) (f : Fin 1024) : Fin 1024 := ⟨(f.val + (1024 - d)) % 1024, Nat.mod_lt _ (by norm_num)⟩

/-- One stage at stride `d` on one row: `cs`, `sn` are the stage's cosines and sines, one per pair. -/
def step (d : ℕ) (cs sn : Fin 512 → EReal) (v : Fin 1024 → EReal) : Fin 1024 → EReal := fun f =>
  if f.val / d % 2 = 0 then cs (angleIx d f) * v f - sn (angleIx d f) * v (fwd d f)
  else sn (angleIx d f) * v (bwd d f) + cs (angleIx d f) * v f

/-- Stage `k` with its angles taken from row `k` of the angle table. -/
def stage (k : Fin 10) (ang : Fin 10 → Fin 512 → EReal) (v : Fin 1024 → EReal) : Fin 1024 → EReal :=
  step (2 ^ k.val) (fun j => Ideal.cos (ang k j)) (fun j => Ideal.sin (ang k j)) v

/-- The whole network: row `r` of `x` through the ten stages, stride 1 first. -/
def G (x : Fin 32768 → Fin 1024 → EReal) (ang : Fin 10 → Fin 512 → EReal) : Fin 32768 → Fin 1024 → EReal := fun r =>
  stage 9 ang (stage 8 ang (stage 7 ang (stage 6 ang (stage 5 ang (stage 4 ang (stage 3 ang (stage 2 ang
    (stage 1 ang (stage 0 ang (x r))))))))))

end Butterfly

end
-- ==== Proof.KStage.lean ====
/-
  One stage of the kernel body as a function of the stage's three table rows and the running value, and what it holds at
  an index over the extended reals.

  With `c`, `s`, `m` the stage's cosine, sine and mask rows and `v` the running block, the body computes
      m · (c · v − s · v⁺) + (1 − m) · (s · v⁻ + c · v)
  entry by entry, where `v⁺` is `v` with every row rotated left by the stride (position `f` reads `f + d` around the end)
  and `v⁻` the same to the right.  Where the mask is one the second summand is `0 · _ = 0`, where it is zero the first is:
  on the extended reals `0 · x = 0` for every `x`, so the selection is exact with no finiteness assumption.
-/
import proofs.«100991_j68994354643574_2_alg».proof.Proof.Spec
import proofs.«100991_j68994354643574_2_alg».proof.Proof.Gen.KernelIdeal
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.KernelIdeal.KV

open Idealize.ShloMosaic Idealize.ShloMosaic.ValueIdx Cert.KernelIdeal Cert.KernelIdeal.Gen

variable {F : FTy → Type} [FloatOps F]

/-- One stage of the body, operation by operation as printed: `a`, `b` are the two rotation amounts. -/
def kstage (a b : BitVec 32) (c s mk : Vec F S1x1024 .f32) (val : FVec F S512x1024 .f32) : FVec F S512x1024 .f32 :=
  have c2 : FVec F S1x1024 .f32 := shapeCast S1x1024 c shapeCasts_S1x1024_S1x1024
  have s2 : FVec F S1x1024 .f32 := shapeCast S1x1024 s shapeCasts_S1x1024_S1x1024
  have m2 : FVec F S1x1024 .f32 := shapeCast S1x1024 mk shapeCasts_S1x1024_S1x1024
  have fw : FVec F S512x1024 .f32 := dynamicRotate 1 a none val rotates_S512x1024_d1
  have bw : FVec F S512x1024 .f32 := dynamicRotate 1 b none val rotates_S512x1024_d1
  addf (mulf (broadcastTo S512x1024 m2 broadcasts_S1x1024_S512x1024)
          (subf (mulf (broadcastTo S512x1024 c2 broadcasts_S1x1024_S512x1024) val)
                (mulf (broadcastTo S512x1024 s2 broadcasts_S1x1024_S512x1024) fw)))
       (mulf (broadcastTo S512x1024 (subf (broadcast S1x1024 (Scalar.ofBits .f32 0x3F800000#32)) m2) broadcasts_S1x1024_S512x1024)
          (addf (mulf (broadcastTo S512x1024 s2 broadcasts_S1x1024_S512x1024) bw)
                (mulf (broadcastTo S512x1024 c2 broadcasts_S1x1024_S512x1024) val)))

/-- A row broadcast over the block's 512 rows reads, at `(p, q)`, the row's entry `q`. -/
theorem bcast_row {α : Type} (v : S1x1024.Idx → α) (p : Fin 512) (q : Fin 1024) :
    broadcastTo S512x1024 v broadcasts_S1x1024_S512x1024 (ix2 p q) = v (ix2 (0 : Fin 1) q) :=
  broadcastTo_apply v broadcasts_S1x1024_S512x1024 (ix2 p q) (ix2 (0 : Fin 1) q) (fun a => by
    match a with
    | ⟨0, _⟩ => rfl
    | ⟨1, _⟩ => rfl)

/-- The block rotated along its rows by `1024 - d` reads, at `(p, q)`, the block at `(p, q + d)` around the end. -/
theorem rot_fwd {α : Type} (d : ℕ) (hd1 : 1 ≤ d) (hd : d ≤ 512) (a : BitVec 32) (ha : a.toNat = 1024 - d)
    (val : S512x1024.Idx → α) (p : Fin 512) (q : Fin 1024) :
    dynamicRotate 1 a none val rotates_S512x1024_d1 (ix2 p q) = val (ix2 p (Butterfly.fwd d q)) :=
  dynamicRotate_apply (1 : Fin 2) a val rotates_S512x1024_d1 (ix2 p q) (ix2 p (Butterfly.fwd d q)) (fun b => by
    match b with
    | ⟨0, _⟩ => rfl
    | ⟨1, _⟩ =>
      show (q.val + d) % 1024 = (q.val + 1024 - a.toNat % 1024) % 1024
      rw [ha]; have := q.isLt; omega)

/-- The block rotated along its rows by `d` reads, at `(p, q)`, the block at `(p, q - d)` around the end. -/
theorem rot_bwd {α : Type} (d : ℕ) (hd1 : 1 ≤ d) (hd : d ≤ 512) (b : BitVec 32) (hb : b.toNat = d)
    (val : S512x1024.Idx → α) (p : Fin 512) (q : Fin 1024) :
    dynamicRotate 1 b none val rotates_S512x1024_d1 (ix2 p q) = val (ix2 p (Butterfly.bwd d q)) :=
  dynamicRotate_apply (1 : Fin 2) b val rotates_S512x1024_d1 (ix2 p q) (ix2 p (Butterfly.bwd d q)) (fun b' => by
    match b' with
    | ⟨0, _⟩ => rfl
    | ⟨1, _⟩ =>
      show (q.val + (1024 - d)) % 1024 = (q.val + 1024 - b.toNat % 1024) % 1024
      rw [hb]; have := q.isLt; omega)

/-- One stage at an index, over the extended reals. -/
theorem kstage_apply (d : ℕ) (hd1 : 1 ≤ d) (hd : d ≤ 512) (a b : BitVec 32) (ha : a.toNat = 1024 - d) (hb : b.toNat = d)
    (c s mk : Vec Ideal S1x1024 .f32) (val : FVec Ideal S512x1024 .f32) (p : Fin 512) (q : Fin 1024) :
    kstage a b c s mk val (ix2 p q)
      = mk (ix2 (0 : Fin 1) q) * (c (ix2 (0 : Fin 1) q) * val (ix2 p q) - s (ix2 (0 : Fin 1) q) * val (ix2 p (Butterfly.fwd d q)))
        + (1 - mk (ix2 (0 : Fin 1) q)) * (s (ix2 (0 : Fin 1) q) * val (ix2 p (Butterfly.bwd d q)) + c (ix2 (0 : Fin 1) q) * val (ix2 p q)) := by
  unfold kstage
  simp only [addf_apply, mulf_apply, subf_apply, bcast_row, shapeCast_self, rot_fwd d hd1 hd a ha, rot_bwd d hd1 hd b hb,
    broadcast_apply]
  rw [show Scalar.ofBits (F := Ideal) .f32 0x3F800000#32 = 1 from Ideal.ofBits_one_f32]

/-- With the mask row the indicator of the first halves, a stage is the specification's step. -/
theorem kstage_step (d : ℕ) (hd1 : 1 ≤ d) (hd : d ≤ 512) (a b : BitVec 32) (ha : a.toNat = 1024 - d) (hb : b.toNat = d)
    (c s mk : Vec Ideal S1x1024 .f32) (val : FVec Ideal S512x1024 .f32) (cs sn : Fin 512 → EReal)
    (hc : ∀ q : Fin 1024, c (ix2 (0 : Fin 1) q) = cs (Butterfly.angleIx d q))
    (hs : ∀ q : Fin 1024, s (ix2 (0 : Fin 1) q) = sn (Butterfly.angleIx d q))
    (hm : ∀ q : Fin 1024, mk (ix2 (0 : Fin 1) q) = if q.val / d % 2 = 0 then 1 else 0)
    (p : Fin 512) (q : Fin 1024) :
    kstage a b c s mk val (ix2 p q) = Butterfly.step d cs sn (fun f => val (ix2 p f)) q := by
  rw [kstage_apply d hd1 hd a b ha hb, hc, hs, hm]
  unfold Butterfly.step
  by_cases h : q.val / d % 2 = 0
  · have h11 : (1 : EReal) - 1 = 0 := by
      rw [show (1 : EReal) = ((1 : ℝ) : EReal) from rfl, ← EReal.coe_sub, sub_self]; rfl
    rw [if_pos h, if_pos h, one_mul, h11, zero_mul, add_zero]
  · rw [if_neg h, if_neg h, zero_mul, sub_zero, one_mul, zero_add]

end Cert.KernelIdeal.KV

end
-- ==== Proof.KTables.lean ====
/-
  The three tables the kernel reads, as functions of the angle array, index by index.

  Row `k` of each table is built from row `k` of the angles seen as `nb × d` (`d = 2^k`, `nb · d = 512`): every entry is
  written twice along a new middle axis and the `nb × 2 × d` result is flattened to 1024 entries.  So position `q` of
  the flattened row, `q = (b · 2 + h) · d + j`, holds entry `(b, j)` of the first copy when `h = q / d % 2` is `0` and of
  the second when it is `1`; `b = q / (2 d)`, `j = q % d`.  For the cosine and sine tables the two copies are equal, so
  position `q` holds the cosine (sine) of angle number `b · d + j` of row `k`; for the mask the copies are the constants
  one and zero, so it is the indicator of the first halves.
-/
import proofs.«100991_j68994354643574_2_alg».proof.Proof.Spec
import proofs.«100991_j68994354643574_2_alg».proof.Proof.Gen.KernelIdeal
import Idealize.ShloMosaic.Lib.ValueIdx
import Idealize.ShloMosaic.Lib.Pipeline.Value
import Idealize.ShloMosaic.Lib.IdealHost
import Idealize.ShloMosaic.PureOps.Ideal.Laws

noncomputable section

namespace Cert.KernelIdeal.KV

open Idealize.ShloMosaic Idealize.ShloMosaic.ValueIdx Cert.KernelIdeal Cert.KernelIdeal.Gen

/-- The shape `nb × d`. -/
abbrev Sh2 (nb d : ℕ) : Shape := ⟨2, ![nb, d]⟩
/-- The shape `nb × m × d`. -/
abbrev Sh3 (nb m d : ℕ) : Shape := ⟨3, ![nb, m, d]⟩

/-! ## Arithmetic of a flattened position -/

theorem pos_split (q d : ℕ) (hd : 0 < d) : (q / (2 * d) * 2 + q / d % 2) * d + q % d = q := by
  have h1 : q / (2 * d) = q / d / 2 := by rw [Nat.mul_comm 2 d, Nat.div_div_eq_div_mul]
  rw [h1, Nat.div_add_mod' (q / d) 2, Nat.div_add_mod' q d]

theorem blk_lt (q d nb : ℕ) (hd : 0 < d) (hnd : nb * 2 * d = 1024) (hq : q < 1024) : q / (2 * d) < nb := by
  rw [Nat.div_lt_iff_lt_mul (by omega)]
  calc q < 1024 := hq
    _ = nb * (2 * d) := by rw [← hnd, Nat.mul_assoc]

section Layout
variable {α : Type}

/-- Every entry of an `nb × d` array written twice along a new middle axis (first `u`, then `w`), flattened to one row. -/
def dupG (nb d : ℕ) (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024)
    (u w : (Sh2 nb d).Idx → α) : S1x1024.Idx → α :=
  broadcastInDim S1x1024 ![1] bcast_S1024_S1x1024_1
    (shapeCast S1024 (concatenate (Sh3 nb 2 d) 1 [⟨Sh3 nb 1 d, broadcastInDim (Sh3 nb 1 d) ![0, 2] hb u⟩,
      ⟨Sh3 nb 1 d, broadcastInDim (Sh3 nb 1 d) ![0, 2] hb w⟩] hc) hs)

/-- An `nb × d` array read through the new unit middle axis. -/
theorem mid_apply (nb d : ℕ) (hb : (Sh2 nb d).BroadcastsInDim (Sh3 nb 1 d) (![0, 2] : Fin 2 → Fin (Sh3 nb 1 d).rank))
    (u : (Sh2 nb d).Idx → α) (b : Fin nb) (j : Fin d) :
    broadcastInDim (Sh3 nb 1 d) ![0, 2] hb u (ix3 b (0 : Fin 1) j) = u (ix2 b j) :=
  broadcastInDim_apply _ hb u (ix3 b (0 : Fin 1) j) (ix2 b j) (fun a => by
    match a with
    | ⟨0, _⟩ =>
      show b.val = if nb = 1 then 0 else b.val
      have := b.isLt
      split <;> omega
    | ⟨1, _⟩ =>
      show j.val = if d = 1 then 0 else j.val
      have := j.isLt
      split <;> omega)

/-- The flattened doubled row at position `q`. -/
theorem dupG_apply (nb d : ℕ) (hd : 0 < d) (hnd : nb * 2 * d = 1024)
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024)
    (u w : (Sh2 nb d).Idx → α) (q : Fin 1024) :
    dupG nb d hb hc hs u w (ix2 (0 : Fin 1) q)
      = if q.val / d % 2 = 0 then u (ix2 ⟨q.val / (2 * d), blk_lt q.val d nb hd hnd q.isLt⟩ ⟨q.val % d, Nat.mod_lt _ hd⟩)
        else w (ix2 ⟨q.val / (2 * d), blk_lt q.val d nb hd hnd q.isLt⟩ ⟨q.val % d, Nat.mod_lt _ hd⟩) := by
  unfold dupG
  refine (broadcastInDim_apply _ bcast_S1024_S1x1024_1 _ (ix2 (0 : Fin 1) q) (ix1 q) (fun a => by
    match a with
    | ⟨0, _⟩ => rfl)).trans ?_
  refine (shapeCast_apply _ hs (ix1 q)
    (ix3 (⟨q.val / (2 * d), blk_lt q.val d nb hd hnd q.isLt⟩ : Fin nb) (⟨q.val / d % 2, Nat.mod_lt _ (by norm_num)⟩ : Fin 2)
      (⟨q.val % d, Nat.mod_lt _ hd⟩ : Fin d)) (by
    rw [Shape.rowMajor_val_three, Shape.rowMajor_val_one]
    exact pos_split q.val d hd)).trans ?_
  by_cases h : q.val / d % 2 = 0
  · rw [if_pos h]
    refine (concatenate_pair_apply_left 1 _ _ hc _ rfl
      (ix3 (⟨q.val / (2 * d), blk_lt q.val d nb hd hnd q.isLt⟩ : Fin nb) (0 : Fin 1) (⟨q.val % d, Nat.mod_lt _ hd⟩ : Fin d)) (fun b => by
      match b with
      | ⟨0, _⟩ => rfl
      | ⟨1, _⟩ => exact h.symm
      | ⟨2, _⟩ => rfl)).trans ?_
    exact mid_apply nb d hb u _ _
  · rw [if_neg h]
    refine (concatenate_pair_apply_right 1 _ _ hc _ rfl rfl
      (ix3 (⟨q.val / (2 * d), blk_lt q.val d nb hd hnd q.isLt⟩ : Fin nb) (0 : Fin 1) (⟨q.val % d, Nat.mod_lt _ hd⟩ : Fin d)) (fun b hb' => by
      match b with
      | ⟨0, _⟩ => rfl
      | ⟨1, _⟩ => exact absurd rfl hb'
      | ⟨2, _⟩ => rfl) (by
      show 0 + 1 = q.val / d % 2
      omega)).trans ?_
    exact mid_apply nb d hb w _ _

/-- Row `k` of the angle array seen as `nb × d`. -/
def thetaG (k nb d : ℕ) (hsl : S10x512.Slices ![k, 0] S1x512) (hc2 : S512.ShapeCasts (Sh2 nb d)) (A : S10x512.Idx → α) :
    (Sh2 nb d).Idx → α :=
  shapeCast (Sh2 nb d) (shapeCast S512 (extractStridedSlice S1x512 ![k, 0] A hsl) shapeCasts_S1x512_S512) hc2

theorem thetaG_apply (k nb d : ℕ) (hnd : nb * d = 512) (hsl : S10x512.Slices ![k, 0] S1x512) (hc2 : S512.ShapeCasts (Sh2 nb d))
    (A : S10x512.Idx → α) (kf : Fin 10) (hk : kf.val = k) (b : Fin nb) (j : Fin d) (hlt : b.val * d + j.val < 512) :
    thetaG k nb d hsl hc2 A (ix2 b j) = A (ix2 kf (⟨b.val * d + j.val, hlt⟩ : Fin 512)) := by
  unfold thetaG
  refine (shapeCast_apply _ hc2 (ix2 b j) (ix1 (⟨b.val * d + j.val, hlt⟩ : Fin 512)) (by
    rw [Shape.rowMajor_val_two, Shape.rowMajor_val_one]; rfl)).trans ?_
  refine (shapeCast_apply _ shapeCasts_S1x512_S512 (ix1 (⟨b.val * d + j.val, hlt⟩ : Fin 512))
    (ix2 (0 : Fin 1) (⟨b.val * d + j.val, hlt⟩ : Fin 512)) (by
    rw [Shape.rowMajor_val_two, Shape.rowMajor_val_one]
    show 0 * 512 + (b.val * d + j.val) = b.val * d + j.val
    omega)).trans ?_
  exact extractStridedSlice_apply _ A hsl _ (ix2 kf (⟨b.val * d + j.val, hlt⟩ : Fin 512)) (fun a => by
    match a with
    | ⟨0, _⟩ => show kf.val = k + 0; omega
    | ⟨1, _⟩ => show b.val * d + j.val = 0 + (b.val * d + j.val); omega)

end Layout

/-! ## The rows of the three tables -/

section Rows
variable {F : FTy → Type} [FloatOps F]

/-- Row `k` of the cosine table. -/
def crowG (k nb d : ℕ) (hsl : S10x512.Slices ![k, 0] S1x512) (hc2 : S512.ShapeCasts (Sh2 nb d))
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024)
    (A : FVec F S10x512 .f32) : FVec F S1x1024 .f32 :=
  dupG nb d hb hc hs (Host.cos (thetaG k nb d hsl hc2 A)) (Host.cos (thetaG k nb d hsl hc2 A))

/-- Row `k` of the sine table. -/
def srowG (k nb d : ℕ) (hsl : S10x512.Slices ![k, 0] S1x512) (hc2 : S512.ShapeCasts (Sh2 nb d))
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024)
    (A : FVec F S10x512 .f32) : FVec F S1x1024 .f32 :=
  dupG nb d hb hc hs (Host.sin (thetaG k nb d hsl hc2 A)) (Host.sin (thetaG k nb d hsl hc2 A))

/-- Row `k` of the mask table: ones in the first copy, zeros in the second. -/
def mrowG (nb d : ℕ) (hb0 : S_.BroadcastsInDim (Sh2 nb d) (![] : Fin 0 → Fin (Sh2 nb d).rank))
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024) :
    FVec F S1x1024 .f32 :=
  dupG nb d hb hc hs (broadcastInDim (Sh2 nb d) ![] hb0 (constant S_ .f32 0x3F800000#32))
    (broadcastInDim (Sh2 nb d) ![] hb0 (constant S_ .f32 0x00000000#32))

end Rows

/-- The angle number of position `q` at stride `d` is below 512. -/
theorem pair_lt (q d nb : ℕ) (hd : 0 < d) (hnd : nb * 2 * d = 1024) (hq : q < 1024) : q / (2 * d) * d + q % d < 512 := by
  have hb := blk_lt q d nb hd hnd hq
  have hj := Nat.mod_lt q hd
  have h512 : nb * d = 512 := by nlinarith
  have : q / (2 * d) * d + d ≤ nb * d := by nlinarith
  omega

theorem angleIx_eq (q : Fin 1024) (d nb : ℕ) (hd : 0 < d) (hnd : nb * 2 * d = 1024) :
    Butterfly.angleIx d q = (⟨q.val / (2 * d) * d + q.val % d, pair_lt q.val d nb hd hnd q.isLt⟩ : Fin 512) := by
  apply Fin.ext
  show Butterfly.pairIdx d q.val % 512 = _
  unfold Butterfly.pairIdx
  exact Nat.mod_eq_of_lt (pair_lt q.val d nb hd hnd q.isLt)

theorem crowG_apply (k nb d : ℕ) (hd : 0 < d) (hnd : nb * 2 * d = 1024) (hsl : S10x512.Slices ![k, 0] S1x512)
    (hc2 : S512.ShapeCasts (Sh2 nb d))
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024)
    (A : FVec Ideal S10x512 .f32) (kf : Fin 10) (hk : kf.val = k) (q : Fin 1024) :
    crowG k nb d hsl hc2 hb hc hs A (ix2 (0 : Fin 1) q) = Ideal.cos (A (ix2 kf (Butterfly.angleIx d q))) := by
  unfold crowG
  rw [dupG_apply nb d hd hnd, ite_self, angleIx_eq q d nb hd hnd]
  show FloatOps.hostUnary .cos _ = _
  rw [Ideal.hostUnary_cos_def, thetaG_apply k nb d (by nlinarith) hsl hc2 A kf hk _ _ (pair_lt q.val d nb hd hnd q.isLt)]

theorem srowG_apply (k nb d : ℕ) (hd : 0 < d) (hnd : nb * 2 * d = 1024) (hsl : S10x512.Slices ![k, 0] S1x512)
    (hc2 : S512.ShapeCasts (Sh2 nb d))
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024)
    (A : FVec Ideal S10x512 .f32) (kf : Fin 10) (hk : kf.val = k) (q : Fin 1024) :
    srowG k nb d hsl hc2 hb hc hs A (ix2 (0 : Fin 1) q) = Ideal.sin (A (ix2 kf (Butterfly.angleIx d q))) := by
  unfold srowG
  rw [dupG_apply nb d hd hnd, ite_self, angleIx_eq q d nb hd hnd]
  show FloatOps.hostUnary .sin _ = _
  rw [Ideal.hostUnary_sin_def, thetaG_apply k nb d (by nlinarith) hsl hc2 A kf hk _ _ (pair_lt q.val d nb hd hnd q.isLt)]

theorem mrowG_apply (nb d : ℕ) (hd : 0 < d) (hnd : nb * 2 * d = 1024)
    (hb0 : S_.BroadcastsInDim (Sh2 nb d) (![] : Fin 0 → Fin (Sh2 nb d).rank))
    (hb : (Sh2 nb d).BroadcastsInDim (Sh3 nb 1 d) (![0, 2] : Fin 2 → Fin (Sh3 nb 1 d).rank))
    (hc : Shape.Concatenates [Sh3 nb 1 d, Sh3 nb 1 d] (Sh3 nb 2 d) 1) (hs : (Sh3 nb 2 d).ShapeCasts S1024) (q : Fin 1024) :
    mrowG (F := Ideal) nb d hb0 hb hc hs (ix2 (0 : Fin 1) q) = if q.val / d % 2 = 0 then 1 else 0 := by
  unfold mrowG
  rw [dupG_apply nb d hd hnd]
  have e1 : ∀ (bits : BitVec 32) (i : (Sh2 nb d).Idx),
      broadcastInDim (Sh2 nb d) ![] hb0 (constant (F := Ideal) S_ .f32 bits) i = Ideal.ofBits .f32 bits := fun bits i =>
    (broadcastInDim_apply _ hb0 _ i ix0 (fun a => a.elim0)).trans (constant_apply _ _)
  rw [e1, e1, Ideal.ofBits_one_f32, Ideal.ofBits_zero_f32]

end Cert.KernelIdeal.KV

end
-- ==== Proof.KTab.lean ====
/-
  The three tables as whole arrays: ten rows stacked, row `k` built at stride `2^k`; and each table at an index.
-/
import proofs.«100991_j68994354643574_2_alg».proof.Proof.KTables

noncomputable section

namespace Cert.KernelIdeal.KV

open Idealize.ShloMosaic Idealize.ShloMosaic.ValueIdx Cert.KernelIdeal Cert.KernelIdeal.Gen

section Tables
variable {F : FTy → Type} [FloatOps F]

/-- The cosine table. -/
def ctab (A : FVec F S10x512 .f32) : FVec F S10x1024 .f32 :=
  concatenate S10x1024 0 [⟨S1x1024, crowG 0 512 1 slices_S10x512_S1x512_0_0 shapeCasts_S512_S512x1 bcast_S512x1_S512x1x1_0_2 concatenates_S512x1x1_S512x1x1_S512x2x1_d1 shapeCasts_S512x2x1_S1024 A⟩,
    ⟨S1x1024, crowG 1 256 2 slices_S10x512_S1x512_1_0 shapeCasts_S512_S256x2 bcast_S256x2_S256x1x2_0_2 concatenates_S256x1x2_S256x1x2_S256x2x2_d1 shapeCasts_S256x2x2_S1024 A⟩,
    ⟨S1x1024, crowG 2 128 4 slices_S10x512_S1x512_2_0 shapeCasts_S512_S128x4 bcast_S128x4_S128x1x4_0_2 concatenates_S128x1x4_S128x1x4_S128x2x4_d1 shapeCasts_S128x2x4_S1024 A⟩,
    ⟨S1x1024, crowG 3 64 8 slices_S10x512_S1x512_3_0 shapeCasts_S512_S64x8 bcast_S64x8_S64x1x8_0_2 concatenates_S64x1x8_S64x1x8_S64x2x8_d1 shapeCasts_S64x2x8_S1024 A⟩,
    ⟨S1x1024, crowG 4 32 16 slices_S10x512_S1x512_4_0 shapeCasts_S512_S32x16 bcast_S32x16_S32x1x16_0_2 concatenates_S32x1x16_S32x1x16_S32x2x16_d1 shapeCasts_S32x2x16_S1024 A⟩,
    ⟨S1x1024, crowG 5 16 32 slices_S10x512_S1x512_5_0 shapeCasts_S512_S16x32 bcast_S16x32_S16x1x32_0_2 concatenates_S16x1x32_S16x1x32_S16x2x32_d1 shapeCasts_S16x2x32_S1024 A⟩,
    ⟨S1x1024, crowG 6 8 64 slices_S10x512_S1x512_6_0 shapeCasts_S512_S8x64 bcast_S8x64_S8x1x64_0_2 concatenates_S8x1x64_S8x1x64_S8x2x64_d1 shapeCasts_S8x2x64_S1024 A⟩,
    ⟨S1x1024, crowG 7 4 128 slices_S10x512_S1x512_7_0 shapeCasts_S512_S4x128 bcast_S4x128_S4x1x128_0_2 concatenates_S4x1x128_S4x1x128_S4x2x128_d1 shapeCasts_S4x2x128_S1024 A⟩,
    ⟨S1x1024, crowG 8 2 256 slices_S10x512_S1x512_8_0 shapeCasts_S512_S2x256 bcast_S2x256_S2x1x256_0_2 concatenates_S2x1x256_S2x1x256_S2x2x256_d1 shapeCasts_S2x2x256_S1024 A⟩,
    ⟨S1x1024, crowG 9 1 512 slices_S10x512_S1x512_9_0 shapeCasts_S512_S1x512 bcast_S1x512_S1x1x512_0_2 concatenates_S1x1x512_S1x1x512_S1x2x512_d1 shapeCasts_S1x2x512_S1024 A⟩] concatenates_S1x1024_S1x1024_S1x1024_S1x1024_S1x1024_S1x1024_S1x1024_S1x1024_S1x1024_S1x1024_S10x1024_d0

/-- The sine table. -/
def stab (A : FVec F S10x512 .f32) : FVec F S10x1024 .f32 :=
  concatenate S10x1024 0 [⟨S1x1024, srowG 0 512 1 slices_S10x512_S1x512_0_0 shapeCasts_S512_S512x1 bcast_S512x1_S512x1x1_0_2 concatenates_S512x1x1_S512x1x1_S512x2x1_d1 shapeCasts_S512x2x1_S1024 A⟩,
    ⟨S1x1024, srowG 1 256 2 slices_S10x512_S1x512_1_0 shapeCasts_S512_S256x2 bcast_S256x2_S256x1x2_0_2 concatenates_S256x1x2_S256x1x2_S256x2x2_d1 shapeCasts_S256x2x2_S1024 A⟩,
    ⟨S1x1024, srowG 2 128 4 slices_S10x512_S1x512_2_0 shapeCasts_S512_S128x4 bcast_S128x4_S128x1x4_0_2 concatenates_S128x1x4_S128x1x4_S128x2x4_d1 shapeCasts_S128x2x4_S1024 A⟩,
    ⟨S1x1024, srowG 3 64 8 slices_S10x512_S1x512_3_0 shapeCasts_S512_S64x8 bcast_S64x8_S64x1x8_0_2 concatenates_S64x1x8_S64x1x8_S64x2x8_d1 shapeCasts_S64x2x8_S1024 A⟩,
    ⟨S1x1024, srowG 4 32 16 slices_S10x512_S1x512_4_0 shapeCasts_S512_S32x16 bcast_S32x16_S32x1x16_0_2 concatenates_S32x1x16_S32x1x16_S32x2x16_d1 shapeCasts_S32x2x16_S1024 A⟩,
    ⟨S1x1024, srowG 5 16 32 slices_S10x512_S1x512_5_0 shapeCasts_S512_S16x32 bcast_S16x32_S16x1x32_0_2 concatenates_S16x1x32_S16x1x32_S16x2x32_d1 shapeCasts_S16x2x32_S1024 A⟩,
    ⟨S1x1024, srowG 6 8 64 slices_S10x512_S1x512_6_0 shapeCasts_S512_S8x64 bcast_S8x64_S8x1x64_0_2 concatenates_S8x1x64_S8x1x64_S8x2x64_d1 shapeCasts_S8x2x64_S1024 A⟩,
    ⟨S1x1024, srowG 7 4 128 slices_S10x512_S1x512_7_0 shapeCasts_S512_S4x128 bcast_S4x128_S4x1x128_0_2 concatenates_S4x1x128_S4x1x128_S4x2x128_d1 shapeCasts_S4x2x128_S1024 A⟩,
    ⟨S1x1024, srowG 8 2 256 slices_S10x512_S1x512_8_0 shapeCasts_S512_S2x256 bcast_S2x256_S2x1x256_0_2 concatenates_S2x1x256_S2x1x256_S2x2x256_d1 shapeCasts_S2x2x256_S1024 A⟩,
    ⟨S1x1024, srowG 9 1 512 slices_S10x512_S1x512_9_0 shapeCasts_S512_S1x512 bcast_S1x512_S1x1x512_0_2 concatenates_S1x1x512_S1x1x512_S1x2x512_d1 shapeCasts_S1x2x512_S1024 A⟩] concatenates_S1x1024_S1x1024_S1x1024_S1x1024_S1x1024_S1x1024_S1x1024_S1x1024_S1x1024_S1x1024_S10x1024_d0

/-- The mask table. -/
def mtab : FVec F S10x1024 .f32 :=
  concatenate S10x1024 0 [⟨S1x1024, mrowG (F := F) 512 1 bcast_S_S512x1 bcast_S512x1_S512x1x1_0_2 concatenates_S512x1x1_S512x1x1_S512x2x1_d1 shapeCasts_S512x2x1_S1024⟩,
    ⟨S1x1024, mrowG (F := F) 256 2 bcast_S_S256x2 bcast_S256x2_S256x1x2_0_2 concatenates_S256x1x2_S256x1x2_S256x2x2_d1 shapeCasts_S256x2x2_S1024⟩,
    ⟨S1x1024, mrowG (F := F) 128 4 bcast_S_S128x4 bcast_S128x4_S128x1x4_0_2 concatenates_S128x1x4_S128x1x4_S128x2x4_d1 shapeCasts_S128x2x4_S1024⟩,
    ⟨S1x1024, mrowG (F := F) 64 8 bcast_S_S64x8 bcast_S64x8_S64x1x8_0_2 concatenates_S64x1x8_S64x1x8_S64x2x8_d1 shapeCasts_S64x2x8_S1024⟩,
    ⟨S1x1024, mrowG (F := F) 32 16 bcast_S_S32x16 bcast_S32x16_S32x1x16_0_2 concatenates_S32x1x16_S32x1x16_S32x2x16_d1 shapeCasts_S32x2x16_S1024⟩,
    ⟨S1x1024, mrowG (F := F) 16 32 bcast_S_S16x32 bcast_S16x32_S16x1x32_0_2 concatenates_S16x1x32_S16x1x32_S16x2x32_d1 shapeCasts_S16x2x32_S1024⟩,
    ⟨S1x1024, mrowG (F := F) 8 64 bcast_S_S8x64 bcast_S8x64_S8x1x64_0_2 concatenates_S8x1x64_S8x1x64_S8x2x64_d1 shapeCasts_S8x2x64_S1024⟩,
    ⟨S1x1024, mrowG (F := F) 4 128 bcast_S_S4x128 bcast_S4x128_S4x1x128_0_2 concatenates_S4x1x128_S4x1x128_S4x2x128_d1 shapeCasts_S4x2x128_S1024⟩,
    ⟨S1x1024, mrowG (F := F) 2 256 bcast_S_S2x256 bcast_S2x256_S2x1x256_0_2 concatenates_S2x1x256_S2x1x256_S2x2x256_d1 shapeCasts_S2x2x256_S1024⟩,
    ⟨S1x1024, mrowG (F := F) 1 512 bcast_S_S1x512 bcast_S1x512_S1x1x512_0_2 concatenates_S1x1x512_S1x1x512_S1x2x512_d1 shapeCasts_S1x2x512_S1024⟩] concatenates_S1x1024_S1x1024_S1x1024_S1x1024_S1x1024_S1x1024_S1x1024_S1x1024_S1x1024_S1x1024_S10x1024_d0

end Tables

/-- The cosine table at row `k`, position `q`: the cosine of the angle that rotates `q`'s pair at stride `2^k`. -/
theorem ctab_apply (A : FVec Ideal S10x512 .f32) (kf : Fin 10) (q : Fin 1024) :
    ctab A (ix2 kf q) = Ideal.cos (A (ix2 kf (Butterfly.angleIx (2 ^ kf.val) q))) := by
  unfold ctab
  match kf with
  | ⟨0, _⟩ =>
    refine (concatenate_apply_piece 0 _ _ (ix2 (⟨0, by norm_num⟩ : Fin 10) q) 0 (by show 0 < 10; norm_num) S1x1024 _ rfl rfl 0 rfl
      (ix2 (0 : Fin 1) q) (fun b hb => by
        match b with
        | ⟨0, _⟩ => exact absurd rfl hb
        | ⟨1, _⟩ => rfl) rfl).trans ?_
    exact crowG_apply 0 512 1 (by norm_num) (by norm_num) _ _ _ _ _ A (⟨0, by norm_num⟩ : Fin 10) rfl q
  | ⟨1, _⟩ =>
    refine (concatenate_apply_piece 0 _ _ (ix2 (⟨1, by norm_num⟩ : Fin 10) q) 1 (by show 1 < 10; norm_num) S1x1024 _ rfl rfl 1 rfl
      (ix2 (0 : Fin 1) q) (fun b hb => by
        match b with
        | ⟨0, _⟩ => exact absurd rfl hb
        | ⟨1, _⟩ => rfl) rfl).trans ?_
    exact crowG_apply 1 256 2 (by norm_num) (by norm_num) _ _ _ _ _ A (⟨1, by norm_num⟩ : Fin 10) rfl q
  | ⟨2, _⟩ =>
    refine (concatenate_apply_piece 0 _ _ (ix2 (⟨2, by norm_num⟩ : Fin 10) q) 2 (by show 2 < 10; norm_num) S1x1024 _ rfl rfl 2 rfl
      (ix2 (0 : Fin 1) q) (fun b hb => by
        match b with
        | ⟨0, _⟩ => exact absurd rfl hb
        | ⟨1, _⟩ => rfl) rfl).trans ?_
    exact crowG_apply 2 128 4 (by norm_num) (by norm_num) _ _ _ _ _ A (⟨2, by norm_num⟩ : Fin 10) rfl q
  | ⟨3, _⟩ =>
    refine (concatenate_apply_piece 0 _ _ (ix2 (⟨3, by norm_num⟩ : Fin 10) q) 3 (by show 3 < 10; norm_num) S1x1024 _ rfl rfl 3 rfl
      (ix2 (0 : Fin 1) q) (fun b hb => by
        match b with
        | ⟨0, _⟩ => exact absurd rfl hb
        | ⟨1, _⟩ => rfl) rfl).trans ?_
    exact crowG_apply 3 64 8 (by norm_num) (by norm_num) _ _ _ _ _ A (⟨3, by norm_num⟩ : Fin 10) rfl q
  | ⟨4, _⟩ =>
    refine (concatenate_apply_piece 0 _ _ (ix2 (⟨4, by norm_num⟩ : Fin 10) q) 4 (by show 4 < 10; norm_num) S1x1024 _ rfl rfl 4 rfl
      (ix2 (0 : Fin 1) q) (fun b hb => by
        match b with
        | ⟨0, _⟩ => exact absurd rfl hb
        | ⟨1, _⟩ => rfl) rfl).trans ?_
    exact crowG_apply 4 32 16 (by norm_num) (by norm_num) _ _ _ _ _ A (⟨4, by norm_num⟩ : Fin 10) rfl q
  | ⟨5, _⟩ =>
    refine (concatenate_apply_piece 0 _ _ (ix2 (⟨5, by norm_num⟩ : Fin 10) q) 5 (by show 5 < 10; norm_num) S1x1024 _ rfl rfl 5 rfl
      (ix2 (0 : Fin 1) q) (fun b hb => by
        match b with
        | ⟨0, _⟩ => exact absurd rfl hb
        | ⟨1, _⟩ => rfl) rfl).trans ?_
    exact crowG_apply 5 16 32 (by norm_num) (by norm_num) _ _ _ _ _ A (⟨5, by norm_num⟩ : Fin 10) rfl q
  | ⟨6, _⟩ =>
    refine (concatenate_apply_piece 0 _ _ (ix2 (⟨6, by norm_num⟩ : Fin 10) q) 6 (by show 6 < 10; norm_num) S1x1024 _ rfl rfl 6 rfl
      (ix2 (0 : Fin 1) q) (fun b hb => by
        match b with
        | ⟨0, _⟩ => exact absurd rfl hb
        | ⟨1, _⟩ => rfl) rfl).trans ?_
    exact crowG_apply 6 8 64 (by norm_num) (by norm_num) _ _ _ _ _ A (⟨6, by norm_num⟩ : Fin 10) rfl q
  | ⟨7, _⟩ =>
    refine (concatenate_apply_piece 0 _ _ (ix2 (⟨7, by norm_num⟩ : Fin 10) q) 7 (by show 7 < 10; norm_num) S1x1024 _ rfl rfl 7 rfl
      (ix2 (0 : Fin 1) q) (fun b hb => by
        match b with
        | ⟨0, _⟩ => exact absurd rfl hb
        | ⟨1, _⟩ => rfl) rfl).trans ?_
    exact crowG_apply 7 4 128 (by norm_num) (by norm_num) _ _ _ _ _ A (⟨7, by norm_num⟩ : Fin 10) rfl q
  | ⟨8, _⟩ =>
    refine (concatenate_apply_piece 0 _ _ (ix2 (⟨8, by norm_num⟩ : Fin 10) q) 8 (by show 8 < 10; norm_num) S1x1024 _ rfl rfl 8 rfl
      (ix2 (0 : Fin 1) q) (fun b hb => by
        match b with
        | ⟨0, _⟩ => exact absurd rfl hb
        | ⟨1, _⟩ => rfl) rfl).trans ?_
    exact crowG_apply 8 2 256 (by norm_num) (by norm_num) _ _ _ _ _ A (⟨8, by norm_num⟩ : Fin 10) rfl q
  | ⟨9, _⟩ =>
    refine (concatenate_apply_piece 0 _ _ (ix2 (⟨9, by norm_num⟩ : Fin 10) q) 9 (by show 9 < 10; norm_num) S1x1024 _ rfl rfl 9 rfl
      (ix2 (0 : Fin 1) q) (fun b hb => by
        match b with
        | ⟨0, _⟩ => exact absurd rfl hb
        | ⟨1, _⟩ => rfl) rfl).trans ?_
    exact crowG_apply 9 1 512 (by norm_num) (by norm_num) _ _ _ _ _ A (⟨9, by norm_num⟩ : Fin 10) rfl q

/-- The sine table at row `k`, position `q`. -/
theorem stab_apply (A : FVec Ideal S10x512 .f32) (kf : Fin 10) (q : Fin 1024) :
    stab A (ix2 kf q) = Ideal.sin (A (ix2 kf (Butterfly.angleIx (2 ^ kf.val) q))) := by
  unfold stab
  match kf with
  | ⟨0, _⟩ =>
    refine (concatenate_apply_piece 0 _ _ (ix2 (⟨0, by norm_num⟩ : Fin 10) q) 0 (by show 0 < 10; norm_num) S1x1024 _ rfl rfl 0 rfl
      (ix2 (0 : Fin 1) q) (fun b hb => by
        match b with
        | ⟨0, _⟩ => exact absurd rfl hb
        | ⟨1, _⟩ => rfl) rfl).trans ?_
    exact srowG_apply 0 512 1 (by norm_num) (by norm_num) _ _ _ _ _ A (⟨0, by norm_num⟩ : Fin 10) rfl q
  | ⟨1, _⟩ =>
    refine (concatenate_apply_piece 0 _ _ (ix2 (⟨1, by norm_num⟩ : Fin 10) q) 1 (by show 1 < 10; norm_num) S1x1024 _ rfl rfl 1 rfl
      (ix2 (0 : Fin 1) q) (fun b hb => by
        match b with
        | ⟨0, _⟩ => exact absurd rfl hb
        | ⟨1, _⟩ => rfl) rfl).trans ?_
    exact srowG_apply 1 256 2 (by norm_num) (by norm_num) _ _ _ _ _ A (⟨1, by norm_num⟩ : Fin 10) rfl q
  | ⟨2, _⟩ =>
    refine (concatenate_apply_piece 0 _ _ (ix2 (⟨2, by norm_num⟩ : Fin 10) q) 2 (by show 2 < 10; norm_num) S1x1024 _ rfl rfl 2 rfl
      (ix2 (0 : Fin 1) q) (fun b hb => by
        match b with
        | ⟨0, _⟩ => exact absurd rfl hb
        | ⟨1, _⟩ => rfl) rfl).trans ?_
    exact srowG_apply 2 128 4 (by norm_num) (by norm_num) _ _ _ _ _ A (⟨2, by norm_num⟩ : Fin 10) rfl q
  | ⟨3, _⟩ =>
    refine (concatenate_apply_piece 0 _ _ (ix2 (⟨3, by norm_num⟩ : Fin 10) q) 3 (by show 3 < 10; norm_num) S1x1024 _ rfl rfl 3 rfl
      (ix2 (0 : Fin 1) q) (fun b hb => by
        match b with
        | ⟨0, _⟩ => exact absurd rfl hb
        | ⟨1, _⟩ => rfl) rfl).trans ?_
    exact srowG_apply 3 64 8 (by norm_num) (by norm_num) _ _ _ _ _ A (⟨3, by norm_num⟩ : Fin 10) rfl q
  | ⟨4, _⟩ =>
    refine (concatenate_apply_piece 0 _ _ (ix2 (⟨4, by norm_num⟩ : Fin 10) q) 4 (by show 4 < 10; norm_num) S1x1024 _ rfl rfl 4 rfl
      (ix2 (0 : Fin 1) q) (fun b hb => by
        match b with
        | ⟨0, _⟩ => exact absurd rfl hb
        | ⟨1, _⟩ => rfl) rfl).trans ?_
    exact srowG_apply 4 32 16 (by norm_num) (by norm_num) _ _ _ _ _ A (⟨4, by norm_num⟩ : Fin 10) rfl q
  | ⟨5, _⟩ =>
    refine (concatenate_apply_piece 0 _ _ (ix2 (⟨5, by norm_num⟩ : Fin 10) q) 5 (by show 5 < 10; norm_num) S1x1024 _ rfl rfl 5 rfl
      (ix2 (0 : Fin 1) q) (fun b hb => by
        match b with
        | ⟨0, _⟩ => exact absurd rfl hb
        | ⟨1, _⟩ => rfl) rfl).trans ?_
    exact srowG_apply 5 16 32 (by norm_num) (by norm_num) _ _ _ _ _ A (⟨5, by norm_num⟩ : Fin 10) rfl q
  | ⟨6, _⟩ =>
    refine (concatenate_apply_piece 0 _ _ (ix2 (⟨6, by norm_num⟩ : Fin 10) q) 6 (by show 6 < 10; norm_num) S1x1024 _ rfl rfl 6 rfl
      (ix2 (0 : Fin 1) q) (fun b hb => by
        match b with
        | ⟨0, _⟩ => exact absurd rfl hb
        | ⟨1, _⟩ => rfl) rfl).trans ?_
    exact srowG_apply 6 8 64 (by norm_num) (by norm_num) _ _ _ _ _ A (⟨6, by norm_num⟩ : Fin 10) rfl q
  | ⟨7, _⟩ =>
    refine (concatenate_apply_piece 0 _ _ (ix2 (⟨7, by norm_num⟩ : Fin 10) q) 7 (by show 7 < 10; norm_num) S1x1024 _ rfl rfl 7 rfl
      (ix2 (0 : Fin 1) q) (fun b hb => by
        match b with
        | ⟨0, _⟩ => exact absurd rfl hb
        | ⟨1, _⟩ => rfl) rfl).trans ?_
    exact srowG_apply 7 4 128 (by norm_num) (by norm_num) _ _ _ _ _ A (⟨7, by norm_num⟩ : Fin 10) rfl q
  | ⟨8, _⟩ =>
    refine (concatenate_apply_piece 0 _ _ (ix2 (⟨8, by norm_num⟩ : Fin 10) q) 8 (by show 8 < 10; norm_num) S1x1024 _ rfl rfl 8 rfl
      (ix2 (0 : Fin 1) q) (fun b hb => by
        match b with
        | ⟨0, _⟩ => exact absurd rfl hb
        | ⟨1, _⟩ => rfl) rfl).trans ?_
    exact srowG_apply 8 2 256 (by norm_num) (by norm_num) _ _ _ _ _ A (⟨8, by norm_num⟩ : Fin 10) rfl q
  | ⟨9, _⟩ =>
    refine (concatenate_apply_piece 0 _ _ (ix2 (⟨9, by norm_num⟩ : Fin 10) q) 9 (by show 9 < 10; norm_num) S1x1024 _ rfl rfl 9 rfl
      (ix2 (0 : Fin 1) q) (fun b hb => by
        match b with
        | ⟨0, _⟩ => exact absurd rfl hb
        | ⟨1, _⟩ => rfl) rfl).trans ?_
    exact srowG_apply 9 1 512 (by norm_num) (by norm_num) _ _ _ _ _ A (⟨9, by norm_num⟩ : Fin 10) rfl q

/-- The mask table at row `k`, position `q`: one on the first halves at stride `2^k`, zero on the second. -/
theorem mtab_apply (kf : Fin 10) (q : Fin 1024) :
    mtab (F := Ideal) (ix2 kf q) = if q.val / 2 ^ kf.val % 2 = 0 then 1 else 0 := by
  unfold mtab
  match kf with
  | ⟨0, _⟩ =>
    refine (concatenate_apply_piece 0 _ _ (ix2 (⟨0, by norm_num⟩ : Fin 10) q) 0 (by show 0 < 10; norm_num) S1x1024 _ rfl rfl 0 rfl
      (ix2 (0 : Fin 1) q) (fun b hb => by
        match b with
        | ⟨0, _⟩ => exact absurd rfl hb
        | ⟨1, _⟩ => rfl) rfl).trans ?_
    exact mrowG_apply 512 1 (by norm_num) (by norm_num) _ _ _ _ q
  | ⟨1, _⟩ =>
    refine (concatenate_apply_piece 0 _ _ (ix2 (⟨1, by norm_num⟩ : Fin 10) q) 1 (by show 1 < 10; norm_num) S1x1024 _ rfl rfl 1 rfl
      (ix2 (0 : Fin 1) q) (fun b hb => by
        match b with
        | ⟨0, _⟩ => exact absurd rfl hb
        | ⟨1, _⟩ => rfl) rfl).trans ?_
    exact mrowG_apply 256 2 (by norm_num) (by norm_num) _ _ _ _ q
  | ⟨2, _⟩ =>
    refine (concatenate_apply_piece 0 _ _ (ix2 (⟨2, by norm_num⟩ : Fin 10) q) 2 (by show 2 < 10; norm_num) S1x1024 _ rfl rfl 2 rfl
      (ix2 (0 : Fin 1) q) (fun b hb => by
        match b with
        | ⟨0, _⟩ => exact absurd rfl hb
        | ⟨1, _⟩ => rfl) rfl).trans ?_
    exact mrowG_apply 128 4 (by norm_num) (by norm_num) _ _ _ _ q
  | ⟨3, _⟩ =>
    refine (concatenate_apply_piece 0 _ _ (ix2 (⟨3, by norm_num⟩ : Fin 10) q) 3 (by show 3 < 10; norm_num) S1x1024 _ rfl rfl 3 rfl
      (ix2 (0 : Fin 1) q) (fun b hb => by
        match b with
        | ⟨0, _⟩ => exact absurd rfl hb
        | ⟨1, _⟩ => rfl) rfl).trans ?_
    exact mrowG_apply 64 8 (by norm_num) (by norm_num) _ _ _ _ q
  | ⟨4, _⟩ =>
    refine (concatenate_apply_piece 0 _ _ (ix2 (⟨4, by norm_num⟩ : Fin 10) q) 4 (by show 4 < 10; norm_num) S1x1024 _ rfl rfl 4 rfl
      (ix2 (0 : Fin 1) q) (fun b hb => by
        match b with
        | ⟨0, _⟩ => exact absurd rfl hb
        | ⟨1, _⟩ => rfl) rfl).trans ?_
    exact mrowG_apply 32 16 (by norm_num) (by norm_num) _ _ _ _ q
  | ⟨5, _⟩ =>
    refine (concatenate_apply_piece 0 _ _ (ix2 (⟨5, by norm_num⟩ : Fin 10) q) 5 (by show 5 < 10; norm_num) S1x1024 _ rfl rfl 5 rfl
      (ix2 (0 : Fin 1) q) (fun b hb => by
        match b with
        | ⟨0, _⟩ => exact absurd rfl hb
        | ⟨1, _⟩ => rfl) rfl).trans ?_
    exact mrowG_apply 16 32 (by norm_num) (by norm_num) _ _ _ _ q
  | ⟨6, _⟩ =>
    refine (concatenate_apply_piece 0 _ _ (ix2 (⟨6, by norm_num⟩ : Fin 10) q) 6 (by show 6 < 10; norm_num) S1x1024 _ rfl rfl 6 rfl
      (ix2 (0 : Fin 1) q) (fun b hb => by
        match b with
        | ⟨0, _⟩ => exact absurd rfl hb
        | ⟨1, _⟩ => rfl) rfl).trans ?_
    exact mrowG_apply 8 64 (by norm_num) (by norm_num) _ _ _ _ q
  | ⟨7, _⟩ =>
    refine (concatenate_apply_piece 0 _ _ (ix2 (⟨7, by norm_num⟩ : Fin 10) q) 7 (by show 7 < 10; norm_num) S1x1024 _ rfl rfl 7 rfl
      (ix2 (0 : Fin 1) q) (fun b hb => by
        match b with
        | ⟨0, _⟩ => exact absurd rfl hb
        | ⟨1, _⟩ => rfl) rfl).trans ?_
    exact mrowG_apply 4 128 (by norm_num) (by norm_num) _ _ _ _ q
  | ⟨8, _⟩ =>
    refine (concatenate_apply_piece 0 _ _ (ix2 (⟨8, by norm_num⟩ : Fin 10) q) 8 (by show 8 < 10; norm_num) S1x1024 _ rfl rfl 8 rfl
      (ix2 (0 : Fin 1) q) (fun b hb => by
        match b with
        | ⟨0, _⟩ => exact absurd rfl hb
        | ⟨1, _⟩ => rfl) rfl).trans ?_
    exact mrowG_apply 2 256 (by norm_num) (by norm_num) _ _ _ _ q
  | ⟨9, _⟩ =>
    refine (concatenate_apply_piece 0 _ _ (ix2 (⟨9, by norm_num⟩ : Fin 10) q) 9 (by show 9 < 10; norm_num) S1x1024 _ rfl rfl 9 rfl
      (ix2 (0 : Fin 1) q) (fun b hb => by
        match b with
        | ⟨0, _⟩ => exact absurd rfl hb
        | ⟨1, _⟩ => rfl) rfl).trans ?_
    exact mrowG_apply 1 512 (by norm_num) (by norm_num) _ _ _ _ q

end Cert.KernelIdeal.KV

end
-- ==== Proof.KBody.lean ====
/-
  The value the body stores, as ten stages; and a row of it, over the extended reals, as the specification's ten stages
  of the same row of the input block.
-/
import proofs.«100991_j68994354643574_2_alg».proof.Proof.KDefs
import proofs.«100991_j68994354643574_2_alg».proof.Proof.KStage
import proofs.«100991_j68994354643574_2_alg».proof.Proof.KTab

noncomputable section

namespace Cert.KernelIdeal.KV

open Idealize.ShloMosaic Idealize.ShloMosaic.ValueIdx Cert.KernelIdeal Cert.KernelIdeal.Gen Cert.KernelIdeal.Frm

section Generic
variable {F : FTy → Type} [FloatOps F]

set_option maxRecDepth 65536 in
/-- The stored value is the ten stages in order: stage `k` reads row `k` of each table and rotates by `2^k` either way. -/
theorem body_eq (x0 : Vec F S512x1024 .f32) (x1 x2 x3 : Vec F S10x1024 .f32) :
    body x0 x1 x2 x3 = (kstage 512#32 512#32 (View.ld x1 rRow9) (View.ld x2 rRow9) (View.ld x3 rRow9)
      (kstage 768#32 256#32 (View.ld x1 rRow8) (View.ld x2 rRow8) (View.ld x3 rRow8)
      (kstage 896#32 128#32 (View.ld x1 rRow7) (View.ld x2 rRow7) (View.ld x3 rRow7)
      (kstage 960#32 64#32 (View.ld x1 rRow6) (View.ld x2 rRow6) (View.ld x3 rRow6)
      (kstage 992#32 32#32 (View.ld x1 rRow5) (View.ld x2 rRow5) (View.ld x3 rRow5)
      (kstage 1008#32 16#32 (View.ld x1 rRow4) (View.ld x2 rRow4) (View.ld x3 rRow4)
      (kstage 1016#32 8#32 (View.ld x1 rRow3) (View.ld x2 rRow3) (View.ld x3 rRow3)
      (kstage 1020#32 4#32 (View.ld x1 rRow2) (View.ld x2 rRow2) (View.ld x3 rRow2)
      (kstage 1022#32 2#32 (View.ld x1 rRow1) (View.ld x2 rRow1) (View.ld x3 rRow1)
      (kstage 1023#32 1#32 (View.ld x1 rRow0) (View.ld x2 rRow0) (View.ld x3 rRow0)
      (View.ld x0 rX))))))))))) := rfl

end Generic

/-- Row `k` of a ten-row table, loaded as a one-row vector, at position `q`. -/
theorem ld_row {Val : EltTy → Type} {e : EltTy} (x : S10x1024.Idx → Val e) (k : ℕ) (hk : k < 10)
    (inb : ∀ a, (![k, 0] : Fin 2 → Nat) a + S1x1024.size a ≤ S10x1024.size a) (q : Fin 1024) :
    View.ld x (Rect.unit (s := S10x1024) ![k, 0] S1x1024.size inb) (ix2 (0 : Fin 1) q) = x (ix2 (⟨k, hk⟩ : Fin 10) q) := by
  show x ((Rect.unit (s := S10x1024) ![k, 0] S1x1024.size inb).emb (ix2 (0 : Fin 1) q)) = _
  refine congrArg x (funext fun a => Fin.ext ?_)
  match a with
  | ⟨0, _⟩ => show k + 1 * 0 = k; omega
  | ⟨1, _⟩ => show 0 + 1 * q.val = q.val; omega

/-- Row `p` of a block. -/
def rowOf (v : FVec Ideal S512x1024 .f32) (p : Fin 512) : Fin 1024 → EReal := fun f => v (ix2 p f)

/-- One stage of the body on the tables of the angle array `A`, row by row, is the specification's stage. -/
theorem stage_row (k : ℕ) (hk : k < 10) (d : ℕ) (hdk : 2 ^ k = d) (hd1 : 1 ≤ d) (hd : d ≤ 512) (a b : BitVec 32)
    (ha : a.toNat = 1024 - d) (hb : b.toNat = d)
    (inb : ∀ a, (![k, 0] : Fin 2 → Nat) a + S1x1024.size a ≤ S10x1024.size a)
    (A : FVec Ideal S10x512 .f32) (val : FVec Ideal S512x1024 .f32) (p : Fin 512) :
    rowOf (kstage a b (View.ld (ctab A) (Rect.unit (s := S10x1024) ![k, 0] S1x1024.size inb))
        (View.ld (stab A) (Rect.unit (s := S10x1024) ![k, 0] S1x1024.size inb))
        (View.ld (mtab (F := Ideal)) (Rect.unit (s := S10x1024) ![k, 0] S1x1024.size inb)) val) p
      = Butterfly.stage (⟨k, hk⟩ : Fin 10) (fun k j => A (ix2 k j)) (rowOf val p) := by
  funext q
  subst hdk
  unfold Butterfly.stage rowOf
  exact kstage_step (2 ^ k) hd1 hd a b ha hb _ _ _ val _ _
    (fun q => by rw [ld_row _ k hk inb q, ctab_apply])
    (fun q => by rw [ld_row _ k hk inb q, stab_apply])
    (fun q => by rw [ld_row _ k hk inb q, mtab_apply]) p q

theorem hz0 : (![0, 0] : Fin 2 → Nat) = fun _ => 0 := funext fun a => by fin_cases a <;> rfl

set_option maxRecDepth 65536 in
set_option maxHeartbeats 4000000 in
/-- Row `p` of the stored value, on the tables of `A`: the ten stages of row `p` of the input block. -/
theorem body_row (x0 : Vec Ideal S512x1024 .f32) (A : FVec Ideal S10x512 .f32) (p : Fin 512) :
    rowOf (body x0 (ctab A) (stab A) (mtab (F := Ideal))) p
      = Butterfly.stage 9 (fun k j => A (ix2 k j)) (Butterfly.stage 8 (fun k j => A (ix2 k j)) (Butterfly.stage 7 (fun k j => A (ix2 k j))
        (Butterfly.stage 6 (fun k j => A (ix2 k j)) (Butterfly.stage 5 (fun k j => A (ix2 k j)) (Butterfly.stage 4 (fun k j => A (ix2 k j))
        (Butterfly.stage 3 (fun k j => A (ix2 k j)) (Butterfly.stage 2 (fun k j => A (ix2 k j)) (Butterfly.stage 1 (fun k j => A (ix2 k j))
        (Butterfly.stage 0 (fun k j => A (ix2 k j)) (rowOf x0 p)))))))))) := by
  rw [body_eq]
  refine (stage_row 9 (by norm_num) 512 (by norm_num) (by norm_num) (by norm_num) 512#32 512#32 (by decide) (by decide) inb_S10x1024_S1x1024_9_0 A _ p).trans ?_
  refine congrArg (Butterfly.stage 9 (fun k j => A (ix2 k j))) ?_
  refine (stage_row 8 (by norm_num) 256 (by norm_num) (by norm_num) (by norm_num) 768#32 256#32 (by decide) (by decide) inb_S10x1024_S1x1024_8_0 A _ p).trans ?_
  refine congrArg (Butterfly.stage 8 (fun k j => A (ix2 k j))) ?_
  refine (stage_row 7 (by norm_num) 128 (by norm_num) (by norm_num) (by norm_num) 896#32 128#32 (by decide) (by decide) inb_S10x1024_S1x1024_7_0 A _ p).trans ?_
  refine congrArg (Butterfly.stage 7 (fun k j => A (ix2 k j))) ?_
  refine (stage_row 6 (by norm_num) 64 (by norm_num) (by norm_num) (by norm_num) 960#32 64#32 (by decide) (by decide) inb_S10x1024_S1x1024_6_0 A _ p).trans ?_
  refine congrArg (Butterfly.stage 6 (fun k j => A (ix2 k j))) ?_
  refine (stage_row 5 (by norm_num) 32 (by norm_num) (by norm_num) (by norm_num) 992#32 32#32 (by decide) (by decide) inb_S10x1024_S1x1024_5_0 A _ p).trans ?_
  refine congrArg (Butterfly.stage 5 (fun k j => A (ix2 k j))) ?_
  refine (stage_row 4 (by norm_num) 16 (by norm_num) (by norm_num) (by norm_num) 1008#32 16#32 (by decide) (by decide) inb_S10x1024_S1x1024_4_0 A _ p).trans ?_
  refine congrArg (Butterfly.stage 4 (fun k j => A (ix2 k j))) ?_
  refine (stage_row 3 (by norm_num) 8 (by norm_num) (by norm_num) (by norm_num) 1016#32 8#32 (by decide) (by decide) inb_S10x1024_S1x1024_3_0 A _ p).trans ?_
  refine congrArg (Butterfly.stage 3 (fun k j => A (ix2 k j))) ?_
  refine (stage_row 2 (by norm_num) 4 (by norm_num) (by norm_num) (by norm_num) 1020#32 4#32 (by decide) (by decide) inb_S10x1024_S1x1024_2_0 A _ p).trans ?_
  refine congrArg (Butterfly.stage 2 (fun k j => A (ix2 k j))) ?_
  refine (stage_row 1 (by norm_num) 2 (by norm_num) (by norm_num) (by norm_num) 1022#32 2#32 (by decide) (by decide) inb_S10x1024_S1x1024_1_0 A _ p).trans ?_
  refine congrArg (Butterfly.stage 1 (fun k j => A (ix2 k j))) ?_
  refine (stage_row 0 (by norm_num) 1 (by norm_num) (by norm_num) (by norm_num) 1023#32 1#32 (by decide) (by decide) inb_S10x1024_S1x1024_0_0 A _ p).trans ?_
  refine congrArg (Butterfly.stage 0 (fun k j => A (ix2 k j))) ?_
  exact congrArg (fun v : FVec Ideal S512x1024 .f32 => rowOf v p) (View.ld_unit_zero hz0 inb_S512x1024_S512x1024_0_0 x0)

end Cert.KernelIdeal.KV

end
-- ==== Proof.LibNary10.lean ====
/-
  A host operation with TEN operands (a concatenation of ten pieces): its result, with each operand's contents read at
  that operand's own buffer.

  The library states the result of an `n`-operand operation over the family `fun k => F (xs k)`; under that binder the
  buffer `xs k` is not a literal, so nothing that rewrites "the contents of a literal buffer" can go on.  For a literal
  family of ten buffers the family is, position by position, the ten contents consed together, and in that form the
  operands' own contents can be rewritten in turn.
-/
import Idealize.ShloMosaic.Lib.StableHlo.Run

noncomputable section

namespace LibNary

open Idealize.ShloMosaic Idealize.ShloMosaic.StableHlo

variable {τ : Topo} {sig : RefSig} {Val : EltTy → Type}
variable {x0 x1 x2 x3 x4 x5 x6 x7 x8 x9 y : Ref sig .tc}

/-- The result of a ten-operand operation at its own result buffer: its function of the ten operands' contents, each at
    its own buffer. -/
theorem nary10_result
    (f : ((k : Fin 10) → ((![x0, x1, x2, x3, x4, x5, x6, x7, x8, x9] : Fin 10 → Ref sig .tc) k).ty.Contents Val) → y.ty.Contents Val) (hxs hy)
    (F : Valuation τ sig Val) :
    (nary (τ := τ) ![x0, x1, x2, x3, x4, x5, x6, x7, x8, x9] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (fun i => i.elim0))))))))))) := by
  rw [nary_result]; congr 1; funext k; fin_cases k <;> rfl

/-- The same, with the result buffer un-indexed for `simp`. -/
theorem nary10_result'
    (f : ((k : Fin 10) → ((![x0, x1, x2, x3, x4, x5, x6, x7, x8, x9] : Fin 10 → Ref sig .tc) k).ty.Contents Val) → y.ty.Contents Val) (hxs hy)
    (F : Valuation τ sig Val) :
    (nary (τ := τ) ![x0, x1, x2, x3, x4, x5, x6, x7, x8, x9] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (fun i => i.elim0))))))))))) :=
  nary10_result f hxs hy F

end LibNary

end
-- ==== Proof.KHostC.lean ====
/-
  The cosine table as the host operations before the kernel leave it: the stacked rows of KTab, of the angle argument.
-/
import proofs.«100991_j68994354643574_2_alg».proof.Proof.KTab
import proofs.«100991_j68994354643574_2_alg».proof.Proof.LibNary10
import proofs.«100991_j68994354643574_2_alg».proof.Proof.Gen.KernelIdeal.Launch
import Idealize.ShloMosaic.Lib.StableHlo.Run

noncomputable section

namespace Cert.KernelIdeal.KV

open Idealize.ShloMosaic Idealize.ShloMosaic.StableHlo Cert.KernelIdeal Cert.KernelIdeal.Gen

variable {F : FTy → Type} [FloatOps F]

set_option maxRecDepth 65536 in
set_option maxHeartbeats 40000000 in
/-- After the host operations, the buffer of the cosine table holds the table of the angle argument. -/
theorem after_ctab (V0 : Valuation τ sig (Elt F)) :
    after (hostOps0 (F := F)) V0 (Proc.devRef .tc main_v200) = ctab (V0 (Proc.devRef .tc main_arg1)) := by
  simp (disch := decide) only [after_cons, after_nil, LibNary.nary10_result', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.KernelIdeal.KV

end
-- ==== Proof.KHostS.lean ====
/-
  The sine table as the host operations before the kernel leave it: the stacked rows of KTab, of the angle argument.
-/
import proofs.«100991_j68994354643574_2_alg».proof.Proof.KTab
import proofs.«100991_j68994354643574_2_alg».proof.Proof.LibNary10
import proofs.«100991_j68994354643574_2_alg».proof.Proof.Gen.KernelIdeal.Launch
import Idealize.ShloMosaic.Lib.StableHlo.Run

noncomputable section

namespace Cert.KernelIdeal.KV

open Idealize.ShloMosaic Idealize.ShloMosaic.StableHlo Cert.KernelIdeal Cert.KernelIdeal.Gen

variable {F : FTy → Type} [FloatOps F]

set_option maxRecDepth 65536 in
set_option maxHeartbeats 40000000 in
/-- After the host operations, the buffer of the sine table holds the table of the angle argument. -/
theorem after_stab (V0 : Valuation τ sig (Elt F)) :
    after (hostOps0 (F := F)) V0 (Proc.devRef .tc main_v211) = stab (V0 (Proc.devRef .tc main_arg1)) := by
  simp (disch := decide) only [after_cons, after_nil, LibNary.nary10_result', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.KernelIdeal.KV

end
-- ==== Proof.KHostM.lean ====
/-
  The mask table as the host operations before the kernel leave it: the stacked rows of KTab, of the angle argument.
-/
import proofs.«100991_j68994354643574_2_alg».proof.Proof.KTab
import proofs.«100991_j68994354643574_2_alg».proof.Proof.LibNary10
import proofs.«100991_j68994354643574_2_alg».proof.Proof.Gen.KernelIdeal.Launch
import Idealize.ShloMosaic.Lib.StableHlo.Run

noncomputable section

namespace Cert.KernelIdeal.KV

open Idealize.ShloMosaic Idealize.ShloMosaic.StableHlo Cert.KernelIdeal Cert.KernelIdeal.Gen

variable {F : FTy → Type} [FloatOps F]

set_option maxRecDepth 65536 in
set_option maxHeartbeats 40000000 in
/-- After the host operations, the buffer of the mask table holds the table. -/
theorem after_mtab (V0 : Valuation τ sig (Elt F)) :
    after (hostOps0 (F := F)) V0 (Proc.devRef .tc main_v222) = mtab (F := F) := by
  simp (disch := decide) only [after_cons, after_nil, LibNary.nary10_result', nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl

end Cert.KernelIdeal.KV

end
-- ==== Proof.KValue.lean ====
/-
  From blocks to the array: what grid point `t` writes back is block `t` of ONE function of the argument arrays — the
  butterfly network of the specification, row by row — and the 64 blocks of 512 rows cover the result array.
-/
import proofs.«100991_j68994354643574_2_alg».proof.Proof.KDefs
import proofs.«100991_j68994354643574_2_alg».proof.Proof.KBody
import proofs.«100991_j68994354643574_2_alg».proof.Proof.KHostC
import proofs.«100991_j68994354643574_2_alg».proof.Proof.KHostS
import proofs.«100991_j68994354643574_2_alg».proof.Proof.KHostM
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Frm
open Idealize.ShloMosaic.Pipeline (Dat)

variable (m : (ℓ : Loc nD τ sig) → Buf (Elt Ideal) ℓ)

/-- The network applied to every row of `X` with the angles `A`, as an array. -/
def Gfun (X : FVec Ideal S32768x1024 .f32) (A : FVec Ideal S10x512 .f32) : FVec Ideal S32768x1024 .f32 :=
  fun i => Butterfly.G (fun r f => X (ix2 r f)) (fun k j => A (ix2 k j)) (i 0) (i 1)

/-- The three tables as the region finds them: the tables of the launched angle argument. -/
theorem V_ctab (c : Dev nD) : (V m c main_v200 : FVec Ideal S10x1024 .f32) = ctab (F := Ideal) (m ((c : Thread nD τ).loc main_arg1)) :=
  after_ctab (fun b => m (c, b))
theorem V_stab (c : Dev nD) : (V m c main_v211 : FVec Ideal S10x1024 .f32) = stab (F := Ideal) (m ((c : Thread nD τ).loc main_arg1)) :=
  after_stab (fun b => m (c, b))
theorem V_mtab (c : Dev nD) : (V m c main_v222 : FVec Ideal S10x1024 .f32) = mtab (F := Ideal) :=
  after_mtab (fun b => m (c, b))

/-- The printed index maps over the grid: the block of rows moves with the point, the tables stay. -/
theorem idx_facts : ∀ t : Fin cfg0.N, win0_0.index t (0 : Fin 2) = t.val ∧ win0_0.index t (1 : Fin 2) = 0
    ∧ win0_4.index t (0 : Fin 2) = t.val ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem t_lt (t : Fin cfg0.N) : t.val < 64 := by
  have h1 := t.isLt
  have hN : cfg0.N = 64 := N_0
  omega

/-- The table windows' blocks are the whole tables, at every point. -/
theorem iblk1 (c : Dev nD) (t : Fin cfg0.N) :
    (iblk m c 1 t : Vec Ideal S10x1024 .f32) = ctab (F := Ideal) (m ((c : Thread nD τ).loc main_arg1)) := by
  obtain ⟨-, -, -, -, e0, e1, -⟩ := idx_facts t
  funext y
  unfold iblk
  rw [View.read_apply]
  show V m c main_v200 _ = _
  rw [V_ctab]
  refine congrArg _ (funext fun a => Fin.ext ?_)
  match a with
  | ⟨0, _⟩ => show win0_1.index t (0 : Fin 2) * 10 + 1 * (y 0).val = (y 0).val; rw [e0]; omega
  | ⟨1, _⟩ => show win0_1.index t (1 : Fin 2) * 1024 + 1 * (y 1).val = (y 1).val; rw [e1]; omega

theorem iblk2 (c : Dev nD) (t : Fin cfg0.N) :
    (iblk m c 2 t : Vec Ideal S10x1024 .f32) = stab (F := Ideal) (m ((c : Thread nD τ).loc main_arg1)) := by
  obtain ⟨-, -, -, -, -, -, e0, e1, -⟩ := idx_facts t
  funext y
  unfold iblk
  rw [View.read_apply]
  show V m c main_v211 _ = _
  rw [V_stab]
  refine congrArg _ (funext fun a => Fin.ext ?_)
  match a with
  | ⟨0, _⟩ => show win0_2.index t (0 : Fin 2) * 10 + 1 * (y 0).val = (y 0).val; rw [e0]; omega
  | ⟨1, _⟩ => show win0_2.index t (1 : Fin 2) * 1024 + 1 * (y 1).val = (y 1).val; rw [e1]; omega

theorem iblk3 (c : Dev nD) (t : Fin cfg0.N) :
    (iblk m c 3 t : Vec Ideal S10x1024 .f32) = mtab (F := Ideal) := by
  obtain ⟨-, -, -, -, -, -, -, -, e0, e1⟩ := idx_facts t
  funext y
  unfold iblk
  rw [View.read_apply]
  show V m c main_v222 _ = _
  rw [V_mtab]
  refine congrArg _ (funext fun a => Fin.ext ?_)
  match a with
  | ⟨0, _⟩ => show win0_3.index t (0 : Fin 2) * 10 + 1 * (y 0).val = (y 0).val; rw [e0]; omega
  | ⟨1, _⟩ => show win0_3.index t (1 : Fin 2) * 1024 + 1 * (y 1).val = (y 1).val; rw [e1]; omega

/-- The block of rows at point `t` is rows `512 t … 512 t + 511` of the first argument as the region finds it. -/
theorem iblk0_apply (c : Dev nD) (t : Fin cfg0.N) (p : Fin 512) (q : Fin 1024) :
    (iblk m c 0 t : Vec Ideal S512x1024 .f32) (ix2 p q)
      = (V m c main_arg0 : S32768x1024.Idx → EReal) (ix2 (⟨t.val * 512 + p.val, by have := t_lt t; have := p.isLt; omega⟩ : Fin 32768) q) := by
  obtain ⟨e0, e1, -⟩ := idx_facts t
  unfold iblk
  rw [View.read_apply]
  show V m c main_arg0 _ = _
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 1024 + 1 * q.val = q.val; rw [e1]; omega

/-- WHAT POINT `t` WRITES BACK is block `t` of the network of the argument arrays. -/
theorem flushed_eq (c : Dev nD) (t : Fin cfg0.N) :
    (dats m 0 c).flushed 4 t
      = ((cfg0.win 4).blk t).view.read (Elt Ideal) (Gfun (V m c main_arg0) (m ((c : Thread nD τ).loc main_arg1))) := by
  show (cfg0.win 4).cut (grid0.coords t) ((dats m 0 c).after 4 t) = _
  rw [after0_4]
  unfold out0_4
  rw [View.canon_unit_zero hz0]
  rw [iblk1, iblk2, iblk3]
  obtain ⟨-, -, e0, e1, -⟩ := idx_facts t
  funext j
  obtain ⟨p, q, rfl⟩ : ∃ (p : Fin 512) (q : Fin 1024), j = ix2 p q := ⟨j 0, j 1, eq_ix2 j⟩
  rw [View.read_apply]
  have hemb : ((cfg0.win 4).blk t).view.emb (ix2 p q)
      = ix2 (⟨t.val * 512 + p.val, by have := t_lt t; have := p.isLt; omega⟩ : Fin 32768) q := by
    funext a; apply Fin.ext
    match a with
    | ⟨0, _⟩ => show win0_4.index t (0 : Fin 2) * 512 + 1 * p.val = t.val * 512 + p.val; rw [e0]; omega
    | ⟨1, _⟩ => show win0_4.index t (1 : Fin 2) * 1024 + 1 * q.val = q.val; rw [e1]; omega
  rw [hemb]
  have hb := congrFun (body_row (iblk m c 0 t) (m ((c : Thread nD τ).loc main_arg1)) p) q
  have hrow : rowOf (iblk m c 0 t) p
      = fun f => (V m c main_arg0 : S32768x1024.Idx → EReal) (ix2 (⟨t.val * 512 + p.val, by have := t_lt t; have := p.isLt; omega⟩ : Fin 32768) f) :=
    funext fun f => iblk0_apply m c t p f
  rw [hrow] at hb
  exact hb

/-- The 64 blocks cover the result array: row `r` is in block `r / 512`. -/
theorem cover (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  let t : Fin cfg0.N := ⟨(i 0).val / 512, by rw [show cfg0.N = 64 from N_0]; omega⟩
  obtain ⟨-, -, e0, e1, -⟩ := idx_facts t
  refine ⟨t, flush0_4 t, ?_⟩
  show i ∈ ((View.whole main_v223).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e0]; show (i 0).val / 512 * 512 ≤ (i 0).val ∧ (i 0).val < (i 0).val / 512 * 512 + 512; omega
  | ⟨1, _⟩ =>
    show win0_4.index t (1 : Fin 2) * 1024 ≤ (i 1).val ∧ (i 1).val < win0_4.index t (1 : Fin 2) * 1024 + 1024
    rw [e1]; omega

/-- THE RESULT ARRAY after the run: the network of the argument arrays. -/
theorem final4 (c : Dev nD) :
    (dats m 0 c).arrAt 4 cfg0.N = Gfun (V m c main_arg0) (m ((c : Thread nD τ).loc main_arg1)) :=
  (dats m 0 c).arrAt_eq_of_cover 4 (Gfun (V m c main_arg0) (m ((c : Thread nD τ).loc main_arg1)))
    (fun t _ => flushed_eq m c t) (cover)

end Cert.KernelIdeal.KV

end
-- ==== Proof.KFrame.lean ====
import proofs.«100991_j68994354643574_2_alg».proof.Proof.KDefs

/-!
# The butterfly kernel's frame certificate

`@main` is 243 host operations (they compute the three ten-row tables from the second argument) followed by one
pipelined region over 64 grid points. This file runs `@main` to the library's frame post: the host stretch up to the
region, the body's triple (what one grid point leaves in the output buffer is `out0_4` of the four input blocks), the
body obligation at a generic point, the run, and from it that both argument arrays end unchanged.
-/

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- No host operation allocates. -/
theorem hostOps0_fresh : (hostOps0 : List (HloOp τ sig (Elt F))).Forall fun op => op.fresh = ∅ := by
  simp only [List.Forall]; repeat' constructor

/-- `@main` up to the region: the one stretch of host operations, then the region, which finds the buffers at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-- No host operation writes the second argument (they only read it). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

/-! ## What the body finds in each input window's buffer -/

/-- The first input's current staging buffer holds its block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- Each table's staging buffer holds the whole table at every point: it is fetched at the first point only, its
    block index never moves, and the body leaves it in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

/-! ## The body's triple -/

set_option maxHeartbeats 4000000 in
/-- The kernel body on whole staging memrefs — the four inputs' at read contents `x0 … x3`, the output's at anything
    (the body loads it once, and uses nothing of what it read, before overwriting it) — runs to the continuation
    holding the inputs' as they were and the output's at `out0_4 x0 x1 x2 x3`. -/
theorem sound_kernel (c : Dev nD) (E : Set ℕ) (i : grid0.Coords)
    (arg1 : Memref sig .tc .vmem S512x1024 .f32) (harg1 : arg1.IsWhole)
    (arg2 : Memref sig .tc .vmem S10x1024 .f32) (harg2 : arg2.IsWhole)
    (arg3 : Memref sig .tc .vmem S10x1024 .f32) (harg3 : arg3.IsWhole)
    (arg4 : Memref sig .tc .vmem S10x1024 .f32) (harg4 : arg4.IsWhole)
    (arg5 : Memref sig .tc .vmem S512x1024 .f32) (harg5 : arg5.IsWhole)
    (x0 : Vec F S512x1024 .f32) (x1 x2 x3 : Vec F S10x1024 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__butterfly_kernel i arg1 harg1 arg2 harg2 arg3 harg3 arg4 harg4 arg5 harg5) K := by
  simp only [cc0__butterfly_kernel_eq_skeleton]; unfold cc0__butterfly_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The body obligation, at a generic point -/

/-- What the body is called with at point `t`: the invariant, what the core owes, and each window's current staging
    buffer at what the pipeline left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the four inputs' buffers hold their blocks, so `sound_kernel` applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of `@main` on the TensorCores terminates, and in
    every final state each array of the pipeline holds what the library computes from the proof data and every other
    unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## What the frame post says of the arguments and of the result -/

/-- The first argument is the first window's array, an input: it ends as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The second argument is no window's array (the host operations read it, the region does not): it ends as the
    region found it, which is as launched. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The result array ends at what the library computes from the proof data after the last point. -/
theorem post4 (r : PUnit × MemSt nD τ sig (Elt F)) (h : Pipeline.FramePost cfgs (dats m) 0 (V m) r) (c : Dev nD) :
    r.2.mem ((c : Thread nD τ).loc main_v223) = (dats m 0 c).arrAt 4 cfg0.N :=
  (h c).1 4

/-! ## The frame -/

/-- A run to the frame post is a run to the frame claim's post: both arguments unchanged. -/
theorem frame_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨kept_main_arg0 m r h c, kept_main_arg1 m r h c⟩) h

/-- The frame: `@main` runs, and both argument arrays end unchanged — at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (run_main m ρ)

end Cert.KernelIdeal.Frm

end
-- ==== Proof.KRun.lean ====
/-
  The idealized kernel's run, read: every weakly fair execution ends with the result array at the butterfly network of
  the two launched argument arrays, and the arguments unchanged.
-/
import proofs.«100991_j68994354643574_2_alg».proof.Proof.KValue
import proofs.«100991_j68994354643574_2_alg».proof.Proof.KFrame

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Frm

variable (m : (ℓ : Loc nD τ sig) → Buf (Elt Ideal) ℓ) (ρ : Dev nD → PrngReg)

/-- The frame run with the result array named: the network of the launched arguments. -/
theorem run : θ_run defs (onTc (τ := τ) (main (F := Ideal))) ⟨m, fun _ => 0, ρ⟩ fun r => ∀ c : Dev nD,
      r.2.mem ((c : Thread nD τ).loc main_v223)
          = Gfun (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post4 m r h c).trans ((final4 m c).trans (by rw [V_main_arg0])),
      kept_main_arg0 m r h c, kept_main_arg1 m r h c⟩)
    (run_main m ρ)

end Cert.KernelIdeal.KV

end
-- ==== Proof.RefStage.lean ====
/-
  One stage of the butterfly network, read at an index.

  A stage at stride d works on a row of 1024 entries seen as nb blocks of two halves of d entries (nb · 2d = 1024):
  position f of the row is (b, h, j) with f = b · 2d + h · d + j, where b = f / (2d), h = f / d % 2 and j = f % d.
  The angle of the pair is entry b · d + j of the stage's row of 512 angles, the first half of a block is rotated
  against the second half d positions further, and the two rotated halves are put back side by side.  Every operation
  of the stage is an index map or acts entry by entry, so the stage's result at (r, f) is the rotation formula at the
  entries the index maps name.  Everything here is stated for any nb and d, the side conditions of the shape
  operations taken as hypotheses.
-/
import Idealize.ShloMosaic.Lib.Pipeline.Value
import Idealize.ShloMosaic.Lib.ValueIdx
import proofs.«100991_j68994354643574_2_alg».proof.Proof.Spec

noncomputable section

namespace Cert.ReferenceIdeal.RefG

open Idealize.ShloMosaic Idealize.ShloMosaic.ValueIdx

/-! ## Arithmetic of the position in a row -/

/-- A position is its block, its half and its offset inside the half. -/
theorem pos_split (d f : ℕ) : f / (2 * d) * (2 * d) + f / d % 2 * d + f % d = f := by
  have h1 := Nat.div_add_mod f d
  have h2 := Nat.div_add_mod (f / d) 2
  have h3 : f / d / 2 = f / (2 * d) := by rw [Nat.div_div_eq_div_mul, Nat.mul_comm]
  rw [h3] at h2
  have h4 : d * (2 * (f / (2 * d)) + f / d % 2) = f / (2 * d) * (2 * d) + f / d % 2 * d := by ring
  rw [h2] at h4
  omega

/-- The block, half and offset of a position of a row of 1024, as bounded numbers. -/
theorem exists_split {nb d : ℕ} (hd : 0 < d) (hnb : nb * (2 * d) = 1024) (f : Fin 1024) :
    ∃ (b : Fin nb) (h : Fin 2) (j : Fin d), f.val = b.val * (2 * d) + h.val * d + j.val
      ∧ f.val / (2 * d) = b.val ∧ f.val / d % 2 = h.val ∧ f.val % d = j.val := by
  have hb : f.val / (2 * d) < nb := by
    rw [Nat.div_lt_iff_lt_mul (by omega)]
    have := f.isLt
    omega
  exact ⟨⟨f.val / (2 * d), hb⟩, ⟨f.val / d % 2, Nat.mod_lt _ (by norm_num)⟩, ⟨f.val % d, Nat.mod_lt _ hd⟩,
    (pos_split d f.val).symm, rfl, rfl, rfl⟩

/-- The number of the pair's angle stays below the number of pairs. -/
theorem pair_lt {nb d : ℕ} (b : Fin nb) (j : Fin d) : b.val * d + j.val < nb * d := by
  have h1 : (b.val + 1) * d ≤ nb * d := Nat.mul_le_mul_right d b.isLt
  have h2 : (b.val + 1) * d = b.val * d + d := by ring
  have := j.isLt
  omega

/-- A position made of a block, a half and an offset stays inside the row. -/
theorem pos_lt {nb d : ℕ} (b : Fin nb) (h : Fin 2) (j : Fin d) : b.val * (2 * d) + h.val * d + j.val < nb * (2 * d) := by
  have h1 : (b.val + 1) * (2 * d) ≤ nb * (2 * d) := Nat.mul_le_mul_right (2 * d) b.isLt
  have h2 : (b.val + 1) * (2 * d) = b.val * (2 * d) + 2 * d := by ring
  have h3 : h.val * d ≤ 1 * d := Nat.mul_le_mul_right d (by have := h.isLt; omega)
  have := j.isLt
  omega

/-! ## The shape operations of a stage, read at an index -/

section Layout
variable {α : Type} {nb d : ℕ}

/-- The two halves put side by side and flattened to a row: position (b, h, j) reads half h at (b, j). -/
theorem cat_cast_apply (hnb : nb * (2 * d) = 1024) (P Q : (⟨4, ![32768, nb, 1, d]⟩ : Shape).Idx → α)
    (hc : Shape.Concatenates [(⟨4, ![32768, nb, 1, d]⟩ : Shape), ⟨4, ![32768, nb, 1, d]⟩] ⟨4, ![32768, nb, 2, d]⟩ 2)
    (hs : (⟨4, ![32768, nb, 2, d]⟩ : Shape).ShapeCasts ⟨2, ![32768, 1024]⟩)
    (r : Fin 32768) (b : Fin nb) (h : Fin 2) (j : Fin d) (f : Fin 1024)
    (hf : f.val = b.val * (2 * d) + h.val * d + j.val) :
    shapeCast ⟨2, ![32768, 1024]⟩ (concatenate ⟨4, ![32768, nb, 2, d]⟩ 2
        [⟨⟨4, ![32768, nb, 1, d]⟩, P⟩, ⟨⟨4, ![32768, nb, 1, d]⟩, Q⟩] hc) hs (ix2 r f)
      = if h.val = 0 then P (ix4 r b 0 j) else Q (ix4 r b 0 j) := by
  refine (shapeCast_apply _ hs (ix2 r f) (ix4 r b h j) ?_).trans ?_
  · rw [Shape.rowMajor_val_four, Shape.rowMajor_val_two]
    show ((r.val * nb + b.val) * 2 + h.val) * d + j.val = r.val * 1024 + f.val
    have e : ((r.val * nb + b.val) * 2 + h.val) * d + j.val
        = r.val * (nb * (2 * d)) + (b.val * (2 * d) + h.val * d + j.val) := by ring
    rw [e, hnb, hf]
  · have hh := h.isLt
    by_cases h0 : h.val = 0
    · rw [if_pos h0]
      exact concatenate_pair_apply_left (2 : Fin 4) P Q hc (ix4 r b h j) rfl (ix4 r b 0 j)
        (fun a => match a with
          | ⟨0, _⟩ => rfl
          | ⟨1, _⟩ => rfl
          | ⟨2, _⟩ => by show (0 : ℕ) = h.val; omega
          | ⟨3, _⟩ => rfl)
    · rw [if_neg h0]
      exact concatenate_pair_apply_right (2 : Fin 4) P Q hc (ix4 r b h j) rfl rfl (ix4 r b 0 j)
        (fun a => match a with
          | ⟨0, _⟩ => fun _ => rfl
          | ⟨1, _⟩ => fun _ => rfl
          | ⟨2, _⟩ => fun hne => absurd (Fin.ext rfl) hne
          | ⟨3, _⟩ => fun _ => rfl)
        (by show 0 + 1 = h.val; omega)

/-- A table over (b, j) spread over the rows: every row reads the table. -/
theorem spread_apply (C : (⟨2, ![nb, d]⟩ : Shape).Idx → α)
    (hb1 : (⟨2, ![nb, d]⟩ : Shape).BroadcastsInDim ⟨3, ![1, nb, d]⟩ (![1, 2] : Fin 2 → Fin 3))
    (hb2 : (⟨3, ![1, nb, d]⟩ : Shape).BroadcastsInDim ⟨3, ![32768, nb, d]⟩ (![0, 1, 2] : Fin 3 → Fin 3))
    (r : Fin 32768) (b : Fin nb) (j : Fin d) :
    broadcastInDim ⟨3, ![32768, nb, d]⟩ (![0, 1, 2] : Fin 3 → Fin 3) hb2
        (broadcastInDim ⟨3, ![1, nb, d]⟩ (![1, 2] : Fin 2 → Fin 3) hb1 C) (ix3 r b j) = C (ix2 b j) := by
  have hbl := b.isLt
  have hjl := j.isLt
  refine (broadcastInDim_apply _ hb2 _ (ix3 r b j) (ix3 (0 : Fin 1) b j) (fun a => match a with
    | ⟨0, _⟩ => by show (0 : ℕ) = if (1 : ℕ) = 1 then 0 else r.val; rw [if_pos rfl]
    | ⟨1, _⟩ => by
      show b.val = if nb = 1 then 0 else b.val
      split_ifs with h1
      · omega
      · rfl
    | ⟨2, _⟩ => by
      show j.val = if d = 1 then 0 else j.val
      split_ifs with h1
      · omega
      · rfl)).trans ?_
  exact broadcastInDim_apply _ hb1 C (ix3 (0 : Fin 1) b j) (ix2 b j) (fun a => match a with
    | ⟨0, _⟩ => by
      show b.val = if nb = 1 then 0 else b.val
      split_ifs with h1
      · omega
      · rfl
    | ⟨1, _⟩ => by
      show j.val = if d = 1 then 0 else j.val
      split_ifs with h1
      · omega
      · rfl)

/-- A half given a unit axis between block and offset reads the half at the same (r, b, j). -/
theorem lift_apply (W : (⟨3, ![32768, nb, d]⟩ : Shape).Idx → α)
    (hb3 : (⟨3, ![32768, nb, d]⟩ : Shape).BroadcastsInDim ⟨4, ![32768, nb, 1, d]⟩ (![0, 1, 3] : Fin 3 → Fin 4))
    (r : Fin 32768) (b : Fin nb) (j : Fin d) :
    broadcastInDim ⟨4, ![32768, nb, 1, d]⟩ (![0, 1, 3] : Fin 3 → Fin 4) hb3 W (ix4 r b (0 : Fin 1) j) = W (ix3 r b j) := by
  have hbl := b.isLt
  have hjl := j.isLt
  exact broadcastInDim_apply _ hb3 W (ix4 r b (0 : Fin 1) j) (ix3 r b j) (fun a => match a with
    | ⟨0, _⟩ => by show r.val = if (32768 : ℕ) = 1 then 0 else r.val; rw [if_neg (by norm_num)]
    | ⟨1, _⟩ => by
      show b.val = if nb = 1 then 0 else b.val
      split_ifs with h1
      · omega
      · rfl
    | ⟨2, _⟩ => by
      show j.val = if d = 1 then 0 else j.val
      split_ifs with h1
      · omega
      · rfl)

/-- Half h of the row seen in blocks, with its unit axis dropped: (r, b, j) reads the row at b · 2d + h · d + j. -/
theorem slice_apply (hnb : nb * (2 * d) = 1024) (Y : (⟨2, ![32768, 1024]⟩ : Shape).Idx → α) (h : ℕ) (hh : h < 2)
    (hs1 : (⟨2, ![32768, 1024]⟩ : Shape).ShapeCasts ⟨4, ![32768, nb, 2, d]⟩)
    (hsl : (⟨4, ![32768, nb, 2, d]⟩ : Shape).Slices ![0, 0, h, 0] ⟨4, ![32768, nb, 1, d]⟩)
    (hs2 : (⟨4, ![32768, nb, 1, d]⟩ : Shape).ShapeCasts ⟨3, ![32768, nb, d]⟩)
    (r : Fin 32768) (b : Fin nb) (j : Fin d) (f : Fin 1024) (hf : f.val = b.val * (2 * d) + h * d + j.val) :
    shapeCast ⟨3, ![32768, nb, d]⟩ (extractStridedSlice ⟨4, ![32768, nb, 1, d]⟩ ![0, 0, h, 0]
        (shapeCast ⟨4, ![32768, nb, 2, d]⟩ Y hs1) hsl) hs2 (ix3 r b j) = Y (ix2 r f) := by
  refine (shapeCast_apply _ hs2 (ix3 r b j) (ix4 r b (0 : Fin 1) j) ?_).trans ?_
  · rw [Shape.rowMajor_val_four, Shape.rowMajor_val_three]
    show ((r.val * nb + b.val) * 1 + 0) * d + j.val = (r.val * nb + b.val) * d + j.val
    rw [Nat.mul_one, Nat.add_zero]
  refine (extractStridedSlice_apply _ _ hsl (ix4 r b (0 : Fin 1) j) (ix4 r b (⟨h, hh⟩ : Fin 2) j) (fun a => match a with
    | ⟨0, _⟩ => by show r.val = 0 + r.val; omega
    | ⟨1, _⟩ => by show b.val = 0 + b.val; omega
    | ⟨2, _⟩ => by show h = h + 0; omega
    | ⟨3, _⟩ => by show j.val = 0 + j.val; omega)).trans ?_
  refine shapeCast_apply Y hs1 (ix4 r b (⟨h, hh⟩ : Fin 2) j) (ix2 r f) ?_
  rw [Shape.rowMajor_val_four, Shape.rowMajor_val_two]
  show r.val * 1024 + f.val = ((r.val * nb + b.val) * 2 + h) * d + j.val
  have e : ((r.val * nb + b.val) * 2 + h) * d + j.val
      = r.val * (nb * (2 * d)) + (b.val * (2 * d) + h * d + j.val) := by ring
  rw [e, hnb, hf]

/-- Row s of the angle table seen as nb blocks of d: (b, j) reads angle number b · d + j of the row. -/
theorem ang_apply (A : (⟨2, ![10, 512]⟩ : Shape).Idx → α) (s : ℕ) (hs : s < 10)
    (hsl : (⟨2, ![10, 512]⟩ : Shape).Slices ![s, 0] ⟨2, ![1, 512]⟩)
    (h1 : (⟨2, ![1, 512]⟩ : Shape).ShapeCasts ⟨1, ![512]⟩)
    (h2 : (⟨1, ![512]⟩ : Shape).ShapeCasts ⟨2, ![nb, d]⟩)
    (b : Fin nb) (j : Fin d) (p : Fin 512) (hp : p.val = b.val * d + j.val) :
    shapeCast ⟨2, ![nb, d]⟩ (shapeCast ⟨1, ![512]⟩ (extractStridedSlice ⟨2, ![1, 512]⟩ ![s, 0] A hsl) h1) h2 (ix2 b j)
      = A (ix2 (⟨s, hs⟩ : Fin 10) p) := by
  refine (shapeCast_apply _ h2 (ix2 b j) (ix1 p) ?_).trans ?_
  · rw [Shape.rowMajor_val_one, Shape.rowMajor_val_two]
    show p.val = b.val * d + j.val
    exact hp
  refine (shapeCast_apply _ h1 (ix1 p) (ix2 (0 : Fin 1) p) ?_).trans ?_
  · rw [Shape.rowMajor_val_one, Shape.rowMajor_val_two]
    show 0 * 512 + p.val = p.val
    omega
  exact extractStridedSlice_apply _ A hsl (ix2 (0 : Fin 1) p) (ix2 (⟨s, hs⟩ : Fin 10) p) (fun a => match a with
    | ⟨0, _⟩ => by show s = s + 0; omega
    | ⟨1, _⟩ => by show p.val = 0 + p.val; omega)

end Layout

/-! ## The stage at an index -/

section Stage
variable {nb d : ℕ}

/-- The first rotated half at (r, b, j). -/
theorem half_sub_apply (C Sn : FVec Ideal ⟨2, ![nb, d]⟩ .f32) (VI VJ : FVec Ideal ⟨3, ![32768, nb, d]⟩ .f32)
    (hb1 : (⟨2, ![nb, d]⟩ : Shape).BroadcastsInDim ⟨3, ![1, nb, d]⟩ (![1, 2] : Fin 2 → Fin 3))
    (hb2 : (⟨3, ![1, nb, d]⟩ : Shape).BroadcastsInDim ⟨3, ![32768, nb, d]⟩ (![0, 1, 2] : Fin 3 → Fin 3))
    (hb3 : (⟨3, ![32768, nb, d]⟩ : Shape).BroadcastsInDim ⟨4, ![32768, nb, 1, d]⟩ (![0, 1, 3] : Fin 3 → Fin 4))
    (r : Fin 32768) (b : Fin nb) (j : Fin d) :
    (broadcastInDim ⟨4, ![32768, nb, 1, d]⟩ (![0, 1, 3] : Fin 3 → Fin 4) hb3
      (subf (mulf (broadcastInDim ⟨3, ![32768, nb, d]⟩ (![0, 1, 2] : Fin 3 → Fin 3) hb2
                    (broadcastInDim ⟨3, ![1, nb, d]⟩ (![1, 2] : Fin 2 → Fin 3) hb1 C)) VI)
            (mulf (broadcastInDim ⟨3, ![32768, nb, d]⟩ (![0, 1, 2] : Fin 3 → Fin 3) hb2
                    (broadcastInDim ⟨3, ![1, nb, d]⟩ (![1, 2] : Fin 2 → Fin 3) hb1 Sn)) VJ))
        : FVec Ideal ⟨4, ![32768, nb, 1, d]⟩ .f32) (ix4 r b (0 : Fin 1) j)
      = C (ix2 b j) * VI (ix3 r b j) - Sn (ix2 b j) * VJ (ix3 r b j) := by
  refine (lift_apply _ hb3 r b j).trans ?_
  rw [subf_apply, mulf_apply, mulf_apply, spread_apply C hb1 hb2 r b j, spread_apply Sn hb1 hb2 r b j]

/-- The second rotated half at (r, b, j). -/
theorem half_add_apply (C Sn : FVec Ideal ⟨2, ![nb, d]⟩ .f32) (VI VJ : FVec Ideal ⟨3, ![32768, nb, d]⟩ .f32)
    (hb1 : (⟨2, ![nb, d]⟩ : Shape).BroadcastsInDim ⟨3, ![1, nb, d]⟩ (![1, 2] : Fin 2 → Fin 3))
    (hb2 : (⟨3, ![1, nb, d]⟩ : Shape).BroadcastsInDim ⟨3, ![32768, nb, d]⟩ (![0, 1, 2] : Fin 3 → Fin 3))
    (hb3 : (⟨3, ![32768, nb, d]⟩ : Shape).BroadcastsInDim ⟨4, ![32768, nb, 1, d]⟩ (![0, 1, 3] : Fin 3 → Fin 4))
    (r : Fin 32768) (b : Fin nb) (j : Fin d) :
    (broadcastInDim ⟨4, ![32768, nb, 1, d]⟩ (![0, 1, 3] : Fin 3 → Fin 4) hb3
      (addf (mulf (broadcastInDim ⟨3, ![32768, nb, d]⟩ (![0, 1, 2] : Fin 3 → Fin 3) hb2
                    (broadcastInDim ⟨3, ![1, nb, d]⟩ (![1, 2] : Fin 2 → Fin 3) hb1 Sn)) VI)
            (mulf (broadcastInDim ⟨3, ![32768, nb, d]⟩ (![0, 1, 2] : Fin 3 → Fin 3) hb2
                    (broadcastInDim ⟨3, ![1, nb, d]⟩ (![1, 2] : Fin 2 → Fin 3) hb1 C)) VJ))
        : FVec Ideal ⟨4, ![32768, nb, 1, d]⟩ .f32) (ix4 r b (0 : Fin 1) j)
      = Sn (ix2 b j) * VI (ix3 r b j) + C (ix2 b j) * VJ (ix3 r b j) := by
  refine (lift_apply _ hb3 r b j).trans ?_
  rw [addf_apply, mulf_apply, mulf_apply, spread_apply C hb1 hb2 r b j, spread_apply Sn hb1 hb2 r b j]

/-- ONE STAGE over its four operands: if the cosine and sine tables read cs and sn at the pair's number and the two
    halves read the row v r at the pair's two positions, the stage's flattened result at (r, f) is the step at f. -/
theorem stage_core (hd : 0 < d) (hnb : nb * (2 * d) = 1024)
    (C Sn : FVec Ideal ⟨2, ![nb, d]⟩ .f32) (VI VJ : FVec Ideal ⟨3, ![32768, nb, d]⟩ .f32)
    (cs sn : Fin 512 → EReal) (v : Fin 32768 → Fin 1024 → EReal)
    (hC : ∀ (b : Fin nb) (j : Fin d) (p : Fin 512), p.val = b.val * d + j.val → C (ix2 b j) = cs p)
    (hS : ∀ (b : Fin nb) (j : Fin d) (p : Fin 512), p.val = b.val * d + j.val → Sn (ix2 b j) = sn p)
    (hVI : ∀ (r : Fin 32768) (b : Fin nb) (j : Fin d) (f : Fin 1024), f.val = b.val * (2 * d) + 0 * d + j.val →
      VI (ix3 r b j) = v r f)
    (hVJ : ∀ (r : Fin 32768) (b : Fin nb) (j : Fin d) (f : Fin 1024), f.val = b.val * (2 * d) + 1 * d + j.val →
      VJ (ix3 r b j) = v r f)
    (hb1 : (⟨2, ![nb, d]⟩ : Shape).BroadcastsInDim ⟨3, ![1, nb, d]⟩ (![1, 2] : Fin 2 → Fin 3))
    (hb2 : (⟨3, ![1, nb, d]⟩ : Shape).BroadcastsInDim ⟨3, ![32768, nb, d]⟩ (![0, 1, 2] : Fin 3 → Fin 3))
    (hb3 : (⟨3, ![32768, nb, d]⟩ : Shape).BroadcastsInDim ⟨4, ![32768, nb, 1, d]⟩ (![0, 1, 3] : Fin 3 → Fin 4))
    (hc : Shape.Concatenates [(⟨4, ![32768, nb, 1, d]⟩ : Shape), ⟨4, ![32768, nb, 1, d]⟩] ⟨4, ![32768, nb, 2, d]⟩ 2)
    (hsc : (⟨4, ![32768, nb, 2, d]⟩ : Shape).ShapeCasts ⟨2, ![32768, 1024]⟩)
    (r : Fin 32768) (f : Fin 1024) :
    (shapeCast ⟨2, ![32768, 1024]⟩ (concatenate ⟨4, ![32768, nb, 2, d]⟩ 2
      [⟨⟨4, ![32768, nb, 1, d]⟩, (broadcastInDim ⟨4, ![32768, nb, 1, d]⟩ (![0, 1, 3] : Fin 3 → Fin 4) hb3
          (subf (mulf (broadcastInDim ⟨3, ![32768, nb, d]⟩ (![0, 1, 2] : Fin 3 → Fin 3) hb2
                        (broadcastInDim ⟨3, ![1, nb, d]⟩ (![1, 2] : Fin 2 → Fin 3) hb1 C)) VI)
                (mulf (broadcastInDim ⟨3, ![32768, nb, d]⟩ (![0, 1, 2] : Fin 3 → Fin 3) hb2
                        (broadcastInDim ⟨3, ![1, nb, d]⟩ (![1, 2] : Fin 2 → Fin 3) hb1 Sn)) VJ))
          : FVec Ideal ⟨4, ![32768, nb, 1, d]⟩ .f32)⟩,
       ⟨⟨4, ![32768, nb, 1, d]⟩, (broadcastInDim ⟨4, ![32768, nb, 1, d]⟩ (![0, 1, 3] : Fin 3 → Fin 4) hb3
          (addf (mulf (broadcastInDim ⟨3, ![32768, nb, d]⟩ (![0, 1, 2] : Fin 3 → Fin 3) hb2
                        (broadcastInDim ⟨3, ![1, nb, d]⟩ (![1, 2] : Fin 2 → Fin 3) hb1 Sn)) VI)
                (mulf (broadcastInDim ⟨3, ![32768, nb, d]⟩ (![0, 1, 2] : Fin 3 → Fin 3) hb2
                        (broadcastInDim ⟨3, ![1, nb, d]⟩ (![1, 2] : Fin 2 → Fin 3) hb1 C)) VJ))
          : FVec Ideal ⟨4, ![32768, nb, 1, d]⟩ .f32)⟩] hc) hsc : FVec Ideal ⟨2, ![32768, 1024]⟩ .f32) (ix2 r f)
      = Butterfly.step d cs sn (v r) f := by
  obtain ⟨b, h, j, hf, hb, hh, hj⟩ := exists_split hd hnb f
  have hnb' : nb * d = 512 := by
    have e : nb * (2 * d) = 2 * (nb * d) := by ring
    omega
  have hp : b.val * d + j.val < 512 := hnb' ▸ pair_lt b j
  have hang : Butterfly.angleIx d f = ⟨b.val * d + j.val, hp⟩ := by
    apply Fin.ext
    show Butterfly.pairIdx d f.val % 512 = b.val * d + j.val
    unfold Butterfly.pairIdx
    rw [hb, hj]
    exact Nat.mod_eq_of_lt hp
  refine (cat_cast_apply hnb _ _ hc hsc r b h j f hf).trans ?_
  unfold Butterfly.step
  rw [hh, hang]
  have hlt := pos_lt b h j
  rw [hnb] at hlt
  have hjl := j.isLt
  by_cases h0 : h.val = 0
  · rw [if_pos h0, if_pos h0]
    rw [h0] at hf hlt
    refine (half_sub_apply C Sn VI VJ hb1 hb2 hb3 r b j).trans ?_
    have hlt1 := pos_lt b (1 : Fin 2) j
    rw [hnb] at hlt1
    have e1 : ((1 : Fin 2) : ℕ) = 1 := rfl
    rw [e1] at hlt1
    rw [hC b j ⟨_, hp⟩ rfl, hS b j ⟨_, hp⟩ rfl, hVI r b j f hf,
      hVJ r b j (Butterfly.fwd d f) (by
        show (f.val + d) % 1024 = b.val * (2 * d) + 1 * d + j.val
        rw [Nat.mod_eq_of_lt (by omega)]
        omega)]
  · have h1 : h.val = 1 := by have := h.isLt; omega
    rw [if_neg h0, if_neg h0]
    rw [h1] at hf hlt
    refine (half_add_apply C Sn VI VJ hb1 hb2 hb3 r b j).trans ?_
    rw [hC b j ⟨_, hp⟩ rfl, hS b j ⟨_, hp⟩ rfl, hVJ r b j f hf,
      hVI r b j (Butterfly.bwd d f) (by
        show (f.val + (1024 - d)) % 1024 = b.val * (2 * d) + 0 * d + j.val
        have e2 : f.val + (1024 - d) = b.val * (2 * d) + 0 * d + j.val + 1024 := by omega
        rw [e2, Nat.add_mod_right, Nat.mod_eq_of_lt (by omega)])]

end Stage

end Cert.ReferenceIdeal.RefG

end
-- ==== Proof.RefStages.lean ====
/-
  The reference's ten stages are the specification's, entry by entry: each stage's flattened result T k at (r, f) is
  the specification's stage k applied to the row r of the stage before it (of the argument, for stage 0).
-/
import proofs.«100991_j68994354643574_2_alg».proof.Proof.Gen.ReferenceIdeal.Run
import proofs.«100991_j68994354643574_2_alg».proof.Proof.RefStage

noncomputable section

namespace Cert.ReferenceIdeal.RefG

open Cert.ReferenceIdeal Cert.ReferenceIdeal.Gen Cert.ReferenceIdeal.Value Idealize.ShloMosaic Idealize.ShloMosaic.ValueIdx
  Idealize.ShloMosaic.StableHlo

/-- Stage 0 (stride 1, 512 blocks) of the reference, flattened to rows. -/
def T0 (V0 : Valuation τ sig (Elt Ideal)) : FVec Ideal S32768x1024 .f32 :=
  shapeCast _ (concatenate S32768x512x2x1 2 [⟨S32768x512x1x1, (broadcastInDim S32768x512x1x1 ![0, 1, 3] bcast_S32768x512x1_S32768x512x1x1_0_1_3 (subf (mulf (broadcastInDim S32768x512x1 ![0, 1, 2] bcast_S1x512x1_S32768x512x1_0_1_2 (broadcastInDim S1x512x1 ![1, 2] bcast_S512x1_S1x512x1_1_2 (res_main_v4 V0))) (res_main_v7 V0)) (mulf (broadcastInDim S32768x512x1 ![0, 1, 2] bcast_S1x512x1_S32768x512x1_0_1_2 (broadcastInDim S1x512x1 ![1, 2] bcast_S512x1_S1x512x1_1_2 (res_main_v5 V0))) (res_main_v9 V0))))⟩, ⟨S32768x512x1x1, (broadcastInDim S32768x512x1x1 ![0, 1, 3] bcast_S32768x512x1_S32768x512x1x1_0_1_3 (addf (mulf (broadcastInDim S32768x512x1 ![0, 1, 2] bcast_S1x512x1_S32768x512x1_0_1_2 (broadcastInDim S1x512x1 ![1, 2] bcast_S512x1_S1x512x1_1_2 (res_main_v5 V0))) (res_main_v7 V0)) (mulf (broadcastInDim S32768x512x1 ![0, 1, 2] bcast_S1x512x1_S32768x512x1_0_1_2 (broadcastInDim S1x512x1 ![1, 2] bcast_S512x1_S1x512x1_1_2 (res_main_v4 V0))) (res_main_v9 V0))))⟩] concatenates_S32768x512x1x1_S32768x512x1x1_S32768x512x2x1_d2) shapeCasts_S32768x512x2x1_S32768x1024

/-- The next stage's input is this stage's rows seen in blocks. -/
theorem res_main_v28_eq (V0 : Valuation τ sig (Elt Ideal)) :
    res_main_v28 V0 = shapeCast _ (T0 V0) shapeCasts_S32768x1024_S32768x256x2x2 := rfl

/-- Stage 0 at (r, f) is the specification's stage 0 of the row before it. -/
theorem T0_apply (V0 : Valuation τ sig (Elt Ideal)) (r : Fin 32768) (f : Fin 1024) :
    T0 V0 (ix2 r f) = Butterfly.stage 0 (fun k j => V0 (Proc.devRef .tc main_arg1) (ix2 k j)) (fun f' => V0 (Proc.devRef .tc main_arg0) (ix2 r f')) f := by
  show _ = Butterfly.step 1 (fun p => Ideal.cos (V0 (Proc.devRef .tc main_arg1) (ix2 (0 : Fin 10) p)))
    (fun p => Ideal.sin (V0 (Proc.devRef .tc main_arg1) (ix2 (0 : Fin 10) p))) (fun f' => V0 (Proc.devRef .tc main_arg0) (ix2 r f')) f
  exact stage_core (nb := 512) (d := 1) (by norm_num) (by norm_num)
    (res_main_v4 V0) (res_main_v5 V0) (res_main_v7 V0) (res_main_v9 V0)
    (fun p => Ideal.cos (V0 (Proc.devRef .tc main_arg1) (ix2 (0 : Fin 10) p)))
    (fun p => Ideal.sin (V0 (Proc.devRef .tc main_arg1) (ix2 (0 : Fin 10) p)))
    (fun r f => V0 (Proc.devRef .tc main_arg0) (ix2 r f))
    (fun b j p hp => by
      show Ideal.cos (res_main_v3 V0 (ix2 b j)) = Ideal.cos _
      exact congrArg Ideal.cos (ang_apply (V0 (Proc.devRef .tc main_arg1) : FVec Ideal S10x512 .f32) 0 (by norm_num) slices_S10x512_S1x512_0_0
        shapeCasts_S1x512_S512 shapeCasts_S512_S512x1 b j p hp))
    (fun b j p hp => by
      show Ideal.sin (res_main_v3 V0 (ix2 b j)) = Ideal.sin _
      exact congrArg Ideal.sin (ang_apply (V0 (Proc.devRef .tc main_arg1) : FVec Ideal S10x512 .f32) 0 (by norm_num) slices_S10x512_S1x512_0_0
        shapeCasts_S1x512_S512 shapeCasts_S512_S512x1 b j p hp))
    (fun r b j f hf => slice_apply (by norm_num) (V0 (Proc.devRef .tc main_arg0) : FVec Ideal S32768x1024 .f32) 0 (by norm_num) shapeCasts_S32768x1024_S32768x512x2x1
      slices_S32768x512x2x1_S32768x512x1x1_0_0_0_0 shapeCasts_S32768x512x1x1_S32768x512x1 r b j f hf)
    (fun r b j f hf => slice_apply (by norm_num) (V0 (Proc.devRef .tc main_arg0) : FVec Ideal S32768x1024 .f32) 1 (by norm_num) shapeCasts_S32768x1024_S32768x512x2x1
      slices_S32768x512x2x1_S32768x512x1x1_0_0_1_0 shapeCasts_S32768x512x1x1_S32768x512x1 r b j f hf)
    bcast_S512x1_S1x512x1_1_2 bcast_S1x512x1_S32768x512x1_0_1_2 bcast_S32768x512x1_S32768x512x1x1_0_1_3
    concatenates_S32768x512x1x1_S32768x512x1x1_S32768x512x2x1_d2 shapeCasts_S32768x512x2x1_S32768x1024 r f

/-- Stage 1 (stride 2, 256 blocks) of the reference, flattened to rows. -/
def T1 (V0 : Valuation τ sig (Elt Ideal)) : FVec Ideal S32768x1024 .f32 :=
  shapeCast _ (concatenate S32768x256x2x2 2 [⟨S32768x256x1x2, (broadcastInDim S32768x256x1x2 ![0, 1, 3] bcast_S32768x256x2_S32768x256x1x2_0_1_3 (subf (mulf (broadcastInDim S32768x256x2 ![0, 1, 2] bcast_S1x256x2_S32768x256x2_0_1_2 (broadcastInDim S1x256x2 ![1, 2] bcast_S256x2_S1x256x2_1_2 (res_main_v32 V0))) (res_main_v35 V0)) (mulf (broadcastInDim S32768x256x2 ![0, 1, 2] bcast_S1x256x2_S32768x256x2_0_1_2 (broadcastInDim S1x256x2 ![1, 2] bcast_S256x2_S1x256x2_1_2 (res_main_v33 V0))) (res_main_v37 V0))))⟩, ⟨S32768x256x1x2, (broadcastInDim S32768x256x1x2 ![0, 1, 3] bcast_S32768x256x2_S32768x256x1x2_0_1_3 (addf (mulf (broadcastInDim S32768x256x2 ![0, 1, 2] bcast_S1x256x2_S32768x256x2_0_1_2 (broadcastInDim S1x256x2 ![1, 2] bcast_S256x2_S1x256x2_1_2 (res_main_v33 V0))) (res_main_v35 V0)) (mulf (broadcastInDim S32768x256x2 ![0, 1, 2] bcast_S1x256x2_S32768x256x2_0_1_2 (broadcastInDim S1x256x2 ![1, 2] bcast_S256x2_S1x256x2_1_2 (res_main_v32 V0))) (res_main_v37 V0))))⟩] concatenates_S32768x256x1x2_S32768x256x1x2_S32768x256x2x2_d2) shapeCasts_S32768x256x2x2_S32768x1024

/-- The next stage's input is this stage's rows seen in blocks. -/
theorem res_main_v56_eq (V0 : Valuation τ sig (Elt Ideal)) :
    res_main_v56 V0 = shapeCast _ (T1 V0) shapeCasts_S32768x1024_S32768x128x2x4 := rfl

/-- Stage 1 at (r, f) is the specification's stage 1 of the row before it. -/
theorem T1_apply (V0 : Valuation τ sig (Elt Ideal)) (r : Fin 32768) (f : Fin 1024) :
    T1 V0 (ix2 r f) = Butterfly.stage 1 (fun k j => V0 (Proc.devRef .tc main_arg1) (ix2 k j)) (fun f' => T0 V0 (ix2 r f')) f := by
  show _ = Butterfly.step 2 (fun p => Ideal.cos (V0 (Proc.devRef .tc main_arg1) (ix2 (1 : Fin 10) p)))
    (fun p => Ideal.sin (V0 (Proc.devRef .tc main_arg1) (ix2 (1 : Fin 10) p))) (fun f' => T0 V0 (ix2 r f')) f
  exact stage_core (nb := 256) (d := 2) (by norm_num) (by norm_num)
    (res_main_v32 V0) (res_main_v33 V0) (res_main_v35 V0) (res_main_v37 V0)
    (fun p => Ideal.cos (V0 (Proc.devRef .tc main_arg1) (ix2 (1 : Fin 10) p)))
    (fun p => Ideal.sin (V0 (Proc.devRef .tc main_arg1) (ix2 (1 : Fin 10) p)))
    (fun r f => T0 V0 (ix2 r f))
    (fun b j p hp => by
      show Ideal.cos (res_main_v31 V0 (ix2 b j)) = Ideal.cos _
      exact congrArg Ideal.cos (ang_apply (V0 (Proc.devRef .tc main_arg1) : FVec Ideal S10x512 .f32) 1 (by norm_num) slices_S10x512_S1x512_1_0
        shapeCasts_S1x512_S512 shapeCasts_S512_S256x2 b j p hp))
    (fun b j p hp => by
      show Ideal.sin (res_main_v31 V0 (ix2 b j)) = Ideal.sin _
      exact congrArg Ideal.sin (ang_apply (V0 (Proc.devRef .tc main_arg1) : FVec Ideal S10x512 .f32) 1 (by norm_num) slices_S10x512_S1x512_1_0
        shapeCasts_S1x512_S512 shapeCasts_S512_S256x2 b j p hp))
    (fun r b j f hf => slice_apply (by norm_num) (T0 V0) 0 (by norm_num) shapeCasts_S32768x1024_S32768x256x2x2
      slices_S32768x256x2x2_S32768x256x1x2_0_0_0_0 shapeCasts_S32768x256x1x2_S32768x256x2 r b j f hf)
    (fun r b j f hf => slice_apply (by norm_num) (T0 V0) 1 (by norm_num) shapeCasts_S32768x1024_S32768x256x2x2
      slices_S32768x256x2x2_S32768x256x1x2_0_0_1_0 shapeCasts_S32768x256x1x2_S32768x256x2 r b j f hf)
    bcast_S256x2_S1x256x2_1_2 bcast_S1x256x2_S32768x256x2_0_1_2 bcast_S32768x256x2_S32768x256x1x2_0_1_3
    concatenates_S32768x256x1x2_S32768x256x1x2_S32768x256x2x2_d2 shapeCasts_S32768x256x2x2_S32768x1024 r f

/-- Stage 2 (stride 4, 128 blocks) of the reference, flattened to rows. -/
def T2 (V0 : Valuation τ sig (Elt Ideal)) : FVec Ideal S32768x1024 .f32 :=
  shapeCast _ (concatenate S32768x128x2x4 2 [⟨S32768x128x1x4, (broadcastInDim S32768x128x1x4 ![0, 1, 3] bcast_S32768x128x4_S32768x128x1x4_0_1_3 (subf (mulf (broadcastInDim S32768x128x4 ![0, 1, 2] bcast_S1x128x4_S32768x128x4_0_1_2 (broadcastInDim S1x128x4 ![1, 2] bcast_S128x4_S1x128x4_1_2 (res_main_v60 V0))) (res_main_v63 V0)) (mulf (broadcastInDim S32768x128x4 ![0, 1, 2] bcast_S1x128x4_S32768x128x4_0_1_2 (broadcastInDim S1x128x4 ![1, 2] bcast_S128x4_S1x128x4_1_2 (res_main_v61 V0))) (res_main_v65 V0))))⟩, ⟨S32768x128x1x4, (broadcastInDim S32768x128x1x4 ![0, 1, 3] bcast_S32768x128x4_S32768x128x1x4_0_1_3 (addf (mulf (broadcastInDim S32768x128x4 ![0, 1, 2] bcast_S1x128x4_S32768x128x4_0_1_2 (broadcastInDim S1x128x4 ![1, 2] bcast_S128x4_S1x128x4_1_2 (res_main_v61 V0))) (res_main_v63 V0)) (mulf (broadcastInDim S32768x128x4 ![0, 1, 2] bcast_S1x128x4_S32768x128x4_0_1_2 (broadcastInDim S1x128x4 ![1, 2] bcast_S128x4_S1x128x4_1_2 (res_main_v60 V0))) (res_main_v65 V0))))⟩] concatenates_S32768x128x1x4_S32768x128x1x4_S32768x128x2x4_d2) shapeCasts_S32768x128x2x4_S32768x1024

/-- The next stage's input is this stage's rows seen in blocks. -/
theorem res_main_v84_eq (V0 : Valuation τ sig (Elt Ideal)) :
    res_main_v84 V0 = shapeCast _ (T2 V0) shapeCasts_S32768x1024_S32768x64x2x8 := rfl

/-- Stage 2 at (r, f) is the specification's stage 2 of the row before it. -/
theorem T2_apply (V0 : Valuation τ sig (Elt Ideal)) (r : Fin 32768) (f : Fin 1024) :
    T2 V0 (ix2 r f) = Butterfly.stage 2 (fun k j => V0 (Proc.devRef .tc main_arg1) (ix2 k j)) (fun f' => T1 V0 (ix2 r f')) f := by
  show _ = Butterfly.step 4 (fun p => Ideal.cos (V0 (Proc.devRef .tc main_arg1) (ix2 (2 : Fin 10) p)))
    (fun p => Ideal.sin (V0 (Proc.devRef .tc main_arg1) (ix2 (2 : Fin 10) p))) (fun f' => T1 V0 (ix2 r f')) f
  exact stage_core (nb := 128) (d := 4) (by norm_num) (by norm_num)
    (res_main_v60 V0) (res_main_v61 V0) (res_main_v63 V0) (res_main_v65 V0)
    (fun p => Ideal.cos (V0 (Proc.devRef .tc main_arg1) (ix2 (2 : Fin 10) p)))
    (fun p => Ideal.sin (V0 (Proc.devRef .tc main_arg1) (ix2 (2 : Fin 10) p)))
    (fun r f => T1 V0 (ix2 r f))
    (fun b j p hp => by
      show Ideal.cos (res_main_v59 V0 (ix2 b j)) = Ideal.cos _
      exact congrArg Ideal.cos (ang_apply (V0 (Proc.devRef .tc main_arg1) : FVec Ideal S10x512 .f32) 2 (by norm_num) slices_S10x512_S1x512_2_0
        shapeCasts_S1x512_S512 shapeCasts_S512_S128x4 b j p hp))
    (fun b j p hp => by
      show Ideal.sin (res_main_v59 V0 (ix2 b j)) = Ideal.sin _
      exact congrArg Ideal.sin (ang_apply (V0 (Proc.devRef .tc main_arg1) : FVec Ideal S10x512 .f32) 2 (by norm_num) slices_S10x512_S1x512_2_0
        shapeCasts_S1x512_S512 shapeCasts_S512_S128x4 b j p hp))
    (fun r b j f hf => slice_apply (by norm_num) (T1 V0) 0 (by norm_num) shapeCasts_S32768x1024_S32768x128x2x4
      slices_S32768x128x2x4_S32768x128x1x4_0_0_0_0 shapeCasts_S32768x128x1x4_S32768x128x4 r b j f hf)
    (fun r b j f hf => slice_apply (by norm_num) (T1 V0) 1 (by norm_num) shapeCasts_S32768x1024_S32768x128x2x4
      slices_S32768x128x2x4_S32768x128x1x4_0_0_1_0 shapeCasts_S32768x128x1x4_S32768x128x4 r b j f hf)
    bcast_S128x4_S1x128x4_1_2 bcast_S1x128x4_S32768x128x4_0_1_2 bcast_S32768x128x4_S32768x128x1x4_0_1_3
    concatenates_S32768x128x1x4_S32768x128x1x4_S32768x128x2x4_d2 shapeCasts_S32768x128x2x4_S32768x1024 r f

/-- Stage 3 (stride 8, 64 blocks) of the reference, flattened to rows. -/
def T3 (V0 : Valuation τ sig (Elt Ideal)) : FVec Ideal S32768x1024 .f32 :=
  shapeCast _ (concatenate S32768x64x2x8 2 [⟨S32768x64x1x8, (broadcastInDim S32768x64x1x8 ![0, 1, 3] bcast_S32768x64x8_S32768x64x1x8_0_1_3 (subf (mulf (broadcastInDim S32768x64x8 ![0, 1, 2] bcast_S1x64x8_S32768x64x8_0_1_2 (broadcastInDim S1x64x8 ![1, 2] bcast_S64x8_S1x64x8_1_2 (res_main_v88 V0))) (res_main_v91 V0)) (mulf (broadcastInDim S32768x64x8 ![0, 1, 2] bcast_S1x64x8_S32768x64x8_0_1_2 (broadcastInDim S1x64x8 ![1, 2] bcast_S64x8_S1x64x8_1_2 (res_main_v89 V0))) (res_main_v93 V0))))⟩, ⟨S32768x64x1x8, (broadcastInDim S32768x64x1x8 ![0, 1, 3] bcast_S32768x64x8_S32768x64x1x8_0_1_3 (addf (mulf (broadcastInDim S32768x64x8 ![0, 1, 2] bcast_S1x64x8_S32768x64x8_0_1_2 (broadcastInDim S1x64x8 ![1, 2] bcast_S64x8_S1x64x8_1_2 (res_main_v89 V0))) (res_main_v91 V0)) (mulf (broadcastInDim S32768x64x8 ![0, 1, 2] bcast_S1x64x8_S32768x64x8_0_1_2 (broadcastInDim S1x64x8 ![1, 2] bcast_S64x8_S1x64x8_1_2 (res_main_v88 V0))) (res_main_v93 V0))))⟩] concatenates_S32768x64x1x8_S32768x64x1x8_S32768x64x2x8_d2) shapeCasts_S32768x64x2x8_S32768x1024

/-- The next stage's input is this stage's rows seen in blocks. -/
theorem res_main_v112_eq (V0 : Valuation τ sig (Elt Ideal)) :
    res_main_v112 V0 = shapeCast _ (T3 V0) shapeCasts_S32768x1024_S32768x32x2x16 := rfl

/-- Stage 3 at (r, f) is the specification's stage 3 of the row before it. -/
theorem T3_apply (V0 : Valuation τ sig (Elt Ideal)) (r : Fin 32768) (f : Fin 1024) :
    T3 V0 (ix2 r f) = Butterfly.stage 3 (fun k j => V0 (Proc.devRef .tc main_arg1) (ix2 k j)) (fun f' => T2 V0 (ix2 r f')) f := by
  show _ = Butterfly.step 8 (fun p => Ideal.cos (V0 (Proc.devRef .tc main_arg1) (ix2 (3 : Fin 10) p)))
    (fun p => Ideal.sin (V0 (Proc.devRef .tc main_arg1) (ix2 (3 : Fin 10) p))) (fun f' => T2 V0 (ix2 r f')) f
  exact stage_core (nb := 64) (d := 8) (by norm_num) (by norm_num)
    (res_main_v88 V0) (res_main_v89 V0) (res_main_v91 V0) (res_main_v93 V0)
    (fun p => Ideal.cos (V0 (Proc.devRef .tc main_arg1) (ix2 (3 : Fin 10) p)))
    (fun p => Ideal.sin (V0 (Proc.devRef .tc main_arg1) (ix2 (3 : Fin 10) p)))
    (fun r f => T2 V0 (ix2 r f))
    (fun b j p hp => by
      show Ideal.cos (res_main_v87 V0 (ix2 b j)) = Ideal.cos _
      exact congrArg Ideal.cos (ang_apply (V0 (Proc.devRef .tc main_arg1) : FVec Ideal S10x512 .f32) 3 (by norm_num) slices_S10x512_S1x512_3_0
        shapeCasts_S1x512_S512 shapeCasts_S512_S64x8 b j p hp))
    (fun b j p hp => by
      show Ideal.sin (res_main_v87 V0 (ix2 b j)) = Ideal.sin _
      exact congrArg Ideal.sin (ang_apply (V0 (Proc.devRef .tc main_arg1) : FVec Ideal S10x512 .f32) 3 (by norm_num) slices_S10x512_S1x512_3_0
        shapeCasts_S1x512_S512 shapeCasts_S512_S64x8 b j p hp))
    (fun r b j f hf => slice_apply (by norm_num) (T2 V0) 0 (by norm_num) shapeCasts_S32768x1024_S32768x64x2x8
      slices_S32768x64x2x8_S32768x64x1x8_0_0_0_0 shapeCasts_S32768x64x1x8_S32768x64x8 r b j f hf)
    (fun r b j f hf => slice_apply (by norm_num) (T2 V0) 1 (by norm_num) shapeCasts_S32768x1024_S32768x64x2x8
      slices_S32768x64x2x8_S32768x64x1x8_0_0_1_0 shapeCasts_S32768x64x1x8_S32768x64x8 r b j f hf)
    bcast_S64x8_S1x64x8_1_2 bcast_S1x64x8_S32768x64x8_0_1_2 bcast_S32768x64x8_S32768x64x1x8_0_1_3
    concatenates_S32768x64x1x8_S32768x64x1x8_S32768x64x2x8_d2 shapeCasts_S32768x64x2x8_S32768x1024 r f

/-- Stage 4 (stride 16, 32 blocks) of the reference, flattened to rows. -/
def T4 (V0 : Valuation τ sig (Elt Ideal)) : FVec Ideal S32768x1024 .f32 :=
  shapeCast _ (concatenate S32768x32x2x16 2 [⟨S32768x32x1x16, (broadcastInDim S32768x32x1x16 ![0, 1, 3] bcast_S32768x32x16_S32768x32x1x16_0_1_3 (subf (mulf (broadcastInDim S32768x32x16 ![0, 1, 2] bcast_S1x32x16_S32768x32x16_0_1_2 (broadcastInDim S1x32x16 ![1, 2] bcast_S32x16_S1x32x16_1_2 (res_main_v116 V0))) (res_main_v119 V0)) (mulf (broadcastInDim S32768x32x16 ![0, 1, 2] bcast_S1x32x16_S32768x32x16_0_1_2 (broadcastInDim S1x32x16 ![1, 2] bcast_S32x16_S1x32x16_1_2 (res_main_v117 V0))) (res_main_v121 V0))))⟩, ⟨S32768x32x1x16, (broadcastInDim S32768x32x1x16 ![0, 1, 3] bcast_S32768x32x16_S32768x32x1x16_0_1_3 (addf (mulf (broadcastInDim S32768x32x16 ![0, 1, 2] bcast_S1x32x16_S32768x32x16_0_1_2 (broadcastInDim S1x32x16 ![1, 2] bcast_S32x16_S1x32x16_1_2 (res_main_v117 V0))) (res_main_v119 V0)) (mulf (broadcastInDim S32768x32x16 ![0, 1, 2] bcast_S1x32x16_S32768x32x16_0_1_2 (broadcastInDim S1x32x16 ![1, 2] bcast_S32x16_S1x32x16_1_2 (res_main_v116 V0))) (res_main_v121 V0))))⟩] concatenates_S32768x32x1x16_S32768x32x1x16_S32768x32x2x16_d2) shapeCasts_S32768x32x2x16_S32768x1024

/-- The next stage's input is this stage's rows seen in blocks. -/
theorem res_main_v140_eq (V0 : Valuation τ sig (Elt Ideal)) :
    res_main_v140 V0 = shapeCast _ (T4 V0) shapeCasts_S32768x1024_S32768x16x2x32 := rfl

/-- Stage 4 at (r, f) is the specification's stage 4 of the row before it. -/
theorem T4_apply (V0 : Valuation τ sig (Elt Ideal)) (r : Fin 32768) (f : Fin 1024) :
    T4 V0 (ix2 r f) = Butterfly.stage 4 (fun k j => V0 (Proc.devRef .tc main_arg1) (ix2 k j)) (fun f' => T3 V0 (ix2 r f')) f := by
  show _ = Butterfly.step 16 (fun p => Ideal.cos (V0 (Proc.devRef .tc main_arg1) (ix2 (4 : Fin 10) p)))
    (fun p => Ideal.sin (V0 (Proc.devRef .tc main_arg1) (ix2 (4 : Fin 10) p))) (fun f' => T3 V0 (ix2 r f')) f
  exact stage_core (nb := 32) (d := 16) (by norm_num) (by norm_num)
    (res_main_v116 V0) (res_main_v117 V0) (res_main_v119 V0) (res_main_v121 V0)
    (fun p => Ideal.cos (V0 (Proc.devRef .tc main_arg1) (ix2 (4 : Fin 10) p)))
    (fun p => Ideal.sin (V0 (Proc.devRef .tc main_arg1) (ix2 (4 : Fin 10) p)))
    (fun r f => T3 V0 (ix2 r f))
    (fun b j p hp => by
      show Ideal.cos (res_main_v115 V0 (ix2 b j)) = Ideal.cos _
      exact congrArg Ideal.cos (ang_apply (V0 (Proc.devRef .tc main_arg1) : FVec Ideal S10x512 .f32) 4 (by norm_num) slices_S10x512_S1x512_4_0
        shapeCasts_S1x512_S512 shapeCasts_S512_S32x16 b j p hp))
    (fun b j p hp => by
      show Ideal.sin (res_main_v115 V0 (ix2 b j)) = Ideal.sin _
      exact congrArg Ideal.sin (ang_apply (V0 (Proc.devRef .tc main_arg1) : FVec Ideal S10x512 .f32) 4 (by norm_num) slices_S10x512_S1x512_4_0
        shapeCasts_S1x512_S512 shapeCasts_S512_S32x16 b j p hp))
    (fun r b j f hf => slice_apply (by norm_num) (T3 V0) 0 (by norm_num) shapeCasts_S32768x1024_S32768x32x2x16
      slices_S32768x32x2x16_S32768x32x1x16_0_0_0_0 shapeCasts_S32768x32x1x16_S32768x32x16 r b j f hf)
    (fun r b j f hf => slice_apply (by norm_num) (T3 V0) 1 (by norm_num) shapeCasts_S32768x1024_S32768x32x2x16
      slices_S32768x32x2x16_S32768x32x1x16_0_0_1_0 shapeCasts_S32768x32x1x16_S32768x32x16 r b j f hf)
    bcast_S32x16_S1x32x16_1_2 bcast_S1x32x16_S32768x32x16_0_1_2 bcast_S32768x32x16_S32768x32x1x16_0_1_3
    concatenates_S32768x32x1x16_S32768x32x1x16_S32768x32x2x16_d2 shapeCasts_S32768x32x2x16_S32768x1024 r f

/-- Stage 5 (stride 32, 16 blocks) of the reference, flattened to rows. -/
def T5 (V0 : Valuation τ sig (Elt Ideal)) : FVec Ideal S32768x1024 .f32 :=
  shapeCast _ (concatenate S32768x16x2x32 2 [⟨S32768x16x1x32, (broadcastInDim S32768x16x1x32 ![0, 1, 3] bcast_S32768x16x32_S32768x16x1x32_0_1_3 (subf (mulf (broadcastInDim S32768x16x32 ![0, 1, 2] bcast_S1x16x32_S32768x16x32_0_1_2 (broadcastInDim S1x16x32 ![1, 2] bcast_S16x32_S1x16x32_1_2 (res_main_v144 V0))) (res_main_v147 V0)) (mulf (broadcastInDim S32768x16x32 ![0, 1, 2] bcast_S1x16x32_S32768x16x32_0_1_2 (broadcastInDim S1x16x32 ![1, 2] bcast_S16x32_S1x16x32_1_2 (res_main_v145 V0))) (res_main_v149 V0))))⟩, ⟨S32768x16x1x32, (broadcastInDim S32768x16x1x32 ![0, 1, 3] bcast_S32768x16x32_S32768x16x1x32_0_1_3 (addf (mulf (broadcastInDim S32768x16x32 ![0, 1, 2] bcast_S1x16x32_S32768x16x32_0_1_2 (broadcastInDim S1x16x32 ![1, 2] bcast_S16x32_S1x16x32_1_2 (res_main_v145 V0))) (res_main_v147 V0)) (mulf (broadcastInDim S32768x16x32 ![0, 1, 2] bcast_S1x16x32_S32768x16x32_0_1_2 (broadcastInDim S1x16x32 ![1, 2] bcast_S16x32_S1x16x32_1_2 (res_main_v144 V0))) (res_main_v149 V0))))⟩] concatenates_S32768x16x1x32_S32768x16x1x32_S32768x16x2x32_d2) shapeCasts_S32768x16x2x32_S32768x1024

/-- The next stage's input is this stage's rows seen in blocks. -/
theorem res_main_v168_eq (V0 : Valuation τ sig (Elt Ideal)) :
    res_main_v168 V0 = shapeCast _ (T5 V0) shapeCasts_S32768x1024_S32768x8x2x64 := rfl

/-- Stage 5 at (r, f) is the specification's stage 5 of the row before it. -/
theorem T5_apply (V0 : Valuation τ sig (Elt Ideal)) (r : Fin 32768) (f : Fin 1024) :
    T5 V0 (ix2 r f) = Butterfly.stage 5 (fun k j => V0 (Proc.devRef .tc main_arg1) (ix2 k j)) (fun f' => T4 V0 (ix2 r f')) f := by
  show _ = Butterfly.step 32 (fun p => Ideal.cos (V0 (Proc.devRef .tc main_arg1) (ix2 (5 : Fin 10) p)))
    (fun p => Ideal.sin (V0 (Proc.devRef .tc main_arg1) (ix2 (5 : Fin 10) p))) (fun f' => T4 V0 (ix2 r f')) f
  exact stage_core (nb := 16) (d := 32) (by norm_num) (by norm_num)
    (res_main_v144 V0) (res_main_v145 V0) (res_main_v147 V0) (res_main_v149 V0)
    (fun p => Ideal.cos (V0 (Proc.devRef .tc main_arg1) (ix2 (5 : Fin 10) p)))
    (fun p => Ideal.sin (V0 (Proc.devRef .tc main_arg1) (ix2 (5 : Fin 10) p)))
    (fun r f => T4 V0 (ix2 r f))
    (fun b j p hp => by
      show Ideal.cos (res_main_v143 V0 (ix2 b j)) = Ideal.cos _
      exact congrArg Ideal.cos (ang_apply (V0 (Proc.devRef .tc main_arg1) : FVec Ideal S10x512 .f32) 5 (by norm_num) slices_S10x512_S1x512_5_0
        shapeCasts_S1x512_S512 shapeCasts_S512_S16x32 b j p hp))
    (fun b j p hp => by
      show Ideal.sin (res_main_v143 V0 (ix2 b j)) = Ideal.sin _
      exact congrArg Ideal.sin (ang_apply (V0 (Proc.devRef .tc main_arg1) : FVec Ideal S10x512 .f32) 5 (by norm_num) slices_S10x512_S1x512_5_0
        shapeCasts_S1x512_S512 shapeCasts_S512_S16x32 b j p hp))
    (fun r b j f hf => slice_apply (by norm_num) (T4 V0) 0 (by norm_num) shapeCasts_S32768x1024_S32768x16x2x32
      slices_S32768x16x2x32_S32768x16x1x32_0_0_0_0 shapeCasts_S32768x16x1x32_S32768x16x32 r b j f hf)
    (fun r b j f hf => slice_apply (by norm_num) (T4 V0) 1 (by norm_num) shapeCasts_S32768x1024_S32768x16x2x32
      slices_S32768x16x2x32_S32768x16x1x32_0_0_1_0 shapeCasts_S32768x16x1x32_S32768x16x32 r b j f hf)
    bcast_S16x32_S1x16x32_1_2 bcast_S1x16x32_S32768x16x32_0_1_2 bcast_S32768x16x32_S32768x16x1x32_0_1_3
    concatenates_S32768x16x1x32_S32768x16x1x32_S32768x16x2x32_d2 shapeCasts_S32768x16x2x32_S32768x1024 r f

/-- Stage 6 (stride 64, 8 blocks) of the reference, flattened to rows. -/
def T6 (V0 : Valuation τ sig (Elt Ideal)) : FVec Ideal S32768x1024 .f32 :=
  shapeCast _ (concatenate S32768x8x2x64 2 [⟨S32768x8x1x64, (broadcastInDim S32768x8x1x64 ![0, 1, 3] bcast_S32768x8x64_S32768x8x1x64_0_1_3 (subf (mulf (broadcastInDim S32768x8x64 ![0, 1, 2] bcast_S1x8x64_S32768x8x64_0_1_2 (broadcastInDim S1x8x64 ![1, 2] bcast_S8x64_S1x8x64_1_2 (res_main_v172 V0))) (res_main_v175 V0)) (mulf (broadcastInDim S32768x8x64 ![0, 1, 2] bcast_S1x8x64_S32768x8x64_0_1_2 (broadcastInDim S1x8x64 ![1, 2] bcast_S8x64_S1x8x64_1_2 (res_main_v173 V0))) (res_main_v177 V0))))⟩, ⟨S32768x8x1x64, (broadcastInDim S32768x8x1x64 ![0, 1, 3] bcast_S32768x8x64_S32768x8x1x64_0_1_3 (addf (mulf (broadcastInDim S32768x8x64 ![0, 1, 2] bcast_S1x8x64_S32768x8x64_0_1_2 (broadcastInDim S1x8x64 ![1, 2] bcast_S8x64_S1x8x64_1_2 (res_main_v173 V0))) (res_main_v175 V0)) (mulf (broadcastInDim S32768x8x64 ![0, 1, 2] bcast_S1x8x64_S32768x8x64_0_1_2 (broadcastInDim S1x8x64 ![1, 2] bcast_S8x64_S1x8x64_1_2 (res_main_v172 V0))) (res_main_v177 V0))))⟩] concatenates_S32768x8x1x64_S32768x8x1x64_S32768x8x2x64_d2) shapeCasts_S32768x8x2x64_S32768x1024

/-- The next stage's input is this stage's rows seen in blocks. -/
theorem res_main_v196_eq (V0 : Valuation τ sig (Elt Ideal)) :
    res_main_v196 V0 = shapeCast _ (T6 V0) shapeCasts_S32768x1024_S32768x4x2x128 := rfl

/-- Stage 6 at (r, f) is the specification's stage 6 of the row before it. -/
theorem T6_apply (V0 : Valuation τ sig (Elt Ideal)) (r : Fin 32768) (f : Fin 1024) :
    T6 V0 (ix2 r f) = Butterfly.stage 6 (fun k j => V0 (Proc.devRef .tc main_arg1) (ix2 k j)) (fun f' => T5 V0 (ix2 r f')) f := by
  show _ = Butterfly.step 64 (fun p => Ideal.cos (V0 (Proc.devRef .tc main_arg1) (ix2 (6 : Fin 10) p)))
    (fun p => Ideal.sin (V0 (Proc.devRef .tc main_arg1) (ix2 (6 : Fin 10) p))) (fun f' => T5 V0 (ix2 r f')) f
  exact stage_core (nb := 8) (d := 64) (by norm_num) (by norm_num)
    (res_main_v172 V0) (res_main_v173 V0) (res_main_v175 V0) (res_main_v177 V0)
    (fun p => Ideal.cos (V0 (Proc.devRef .tc main_arg1) (ix2 (6 : Fin 10) p)))
    (fun p => Ideal.sin (V0 (Proc.devRef .tc main_arg1) (ix2 (6 : Fin 10) p)))
    (fun r f => T5 V0 (ix2 r f))
    (fun b j p hp => by
      show Ideal.cos (res_main_v171 V0 (ix2 b j)) = Ideal.cos _
      exact congrArg Ideal.cos (ang_apply (V0 (Proc.devRef .tc main_arg1) : FVec Ideal S10x512 .f32) 6 (by norm_num) slices_S10x512_S1x512_6_0
        shapeCasts_S1x512_S512 shapeCasts_S512_S8x64 b j p hp))
    (fun b j p hp => by
      show Ideal.sin (res_main_v171 V0 (ix2 b j)) = Ideal.sin _
      exact congrArg Ideal.sin (ang_apply (V0 (Proc.devRef .tc main_arg1) : FVec Ideal S10x512 .f32) 6 (by norm_num) slices_S10x512_S1x512_6_0
        shapeCasts_S1x512_S512 shapeCasts_S512_S8x64 b j p hp))
    (fun r b j f hf => slice_apply (by norm_num) (T5 V0) 0 (by norm_num) shapeCasts_S32768x1024_S32768x8x2x64
      slices_S32768x8x2x64_S32768x8x1x64_0_0_0_0 shapeCasts_S32768x8x1x64_S32768x8x64 r b j f hf)
    (fun r b j f hf => slice_apply (by norm_num) (T5 V0) 1 (by norm_num) shapeCasts_S32768x1024_S32768x8x2x64
      slices_S32768x8x2x64_S32768x8x1x64_0_0_1_0 shapeCasts_S32768x8x1x64_S32768x8x64 r b j f hf)
    bcast_S8x64_S1x8x64_1_2 bcast_S1x8x64_S32768x8x64_0_1_2 bcast_S32768x8x64_S32768x8x1x64_0_1_3
    concatenates_S32768x8x1x64_S32768x8x1x64_S32768x8x2x64_d2 shapeCasts_S32768x8x2x64_S32768x1024 r f

/-- Stage 7 (stride 128, 4 blocks) of the reference, flattened to rows. -/
def T7 (V0 : Valuation τ sig (Elt Ideal)) : FVec Ideal S32768x1024 .f32 :=
  shapeCast _ (concatenate S32768x4x2x128 2 [⟨S32768x4x1x128, (broadcastInDim S32768x4x1x128 ![0, 1, 3] bcast_S32768x4x128_S32768x4x1x128_0_1_3 (subf (mulf (broadcastInDim S32768x4x128 ![0, 1, 2] bcast_S1x4x128_S32768x4x128_0_1_2 (broadcastInDim S1x4x128 ![1, 2] bcast_S4x128_S1x4x128_1_2 (res_main_v200 V0))) (res_main_v203 V0)) (mulf (broadcastInDim S32768x4x128 ![0, 1, 2] bcast_S1x4x128_S32768x4x128_0_1_2 (broadcastInDim S1x4x128 ![1, 2] bcast_S4x128_S1x4x128_1_2 (res_main_v201 V0))) (res_main_v205 V0))))⟩, ⟨S32768x4x1x128, (broadcastInDim S32768x4x1x128 ![0, 1, 3] bcast_S32768x4x128_S32768x4x1x128_0_1_3 (addf (mulf (broadcastInDim S32768x4x128 ![0, 1, 2] bcast_S1x4x128_S32768x4x128_0_1_2 (broadcastInDim S1x4x128 ![1, 2] bcast_S4x128_S1x4x128_1_2 (res_main_v201 V0))) (res_main_v203 V0)) (mulf (broadcastInDim S32768x4x128 ![0, 1, 2] bcast_S1x4x128_S32768x4x128_0_1_2 (broadcastInDim S1x4x128 ![1, 2] bcast_S4x128_S1x4x128_1_2 (res_main_v200 V0))) (res_main_v205 V0))))⟩] concatenates_S32768x4x1x128_S32768x4x1x128_S32768x4x2x128_d2) shapeCasts_S32768x4x2x128_S32768x1024

/-- The next stage's input is this stage's rows seen in blocks. -/
theorem res_main_v224_eq (V0 : Valuation τ sig (Elt Ideal)) :
    res_main_v224 V0 = shapeCast _ (T7 V0) shapeCasts_S32768x1024_S32768x2x2x256 := rfl

/-- Stage 7 at (r, f) is the specification's stage 7 of the row before it. -/
theorem T7_apply (V0 : Valuation τ sig (Elt Ideal)) (r : Fin 32768) (f : Fin 1024) :
    T7 V0 (ix2 r f) = Butterfly.stage 7 (fun k j => V0 (Proc.devRef .tc main_arg1) (ix2 k j)) (fun f' => T6 V0 (ix2 r f')) f := by
  show _ = Butterfly.step 128 (fun p => Ideal.cos (V0 (Proc.devRef .tc main_arg1) (ix2 (7 : Fin 10) p)))
    (fun p => Ideal.sin (V0 (Proc.devRef .tc main_arg1) (ix2 (7 : Fin 10) p))) (fun f' => T6 V0 (ix2 r f')) f
  exact stage_core (nb := 4) (d := 128) (by norm_num) (by norm_num)
    (res_main_v200 V0) (res_main_v201 V0) (res_main_v203 V0) (res_main_v205 V0)
    (fun p => Ideal.cos (V0 (Proc.devRef .tc main_arg1) (ix2 (7 : Fin 10) p)))
    (fun p => Ideal.sin (V0 (Proc.devRef .tc main_arg1) (ix2 (7 : Fin 10) p)))
    (fun r f => T6 V0 (ix2 r f))
    (fun b j p hp => by
      show Ideal.cos (res_main_v199 V0 (ix2 b j)) = Ideal.cos _
      exact congrArg Ideal.cos (ang_apply (V0 (Proc.devRef .tc main_arg1) : FVec Ideal S10x512 .f32) 7 (by norm_num) slices_S10x512_S1x512_7_0
        shapeCasts_S1x512_S512 shapeCasts_S512_S4x128 b j p hp))
    (fun b j p hp => by
      show Ideal.sin (res_main_v199 V0 (ix2 b j)) = Ideal.sin _
      exact congrArg Ideal.sin (ang_apply (V0 (Proc.devRef .tc main_arg1) : FVec Ideal S10x512 .f32) 7 (by norm_num) slices_S10x512_S1x512_7_0
        shapeCasts_S1x512_S512 shapeCasts_S512_S4x128 b j p hp))
    (fun r b j f hf => slice_apply (by norm_num) (T6 V0) 0 (by norm_num) shapeCasts_S32768x1024_S32768x4x2x128
      slices_S32768x4x2x128_S32768x4x1x128_0_0_0_0 shapeCasts_S32768x4x1x128_S32768x4x128 r b j f hf)
    (fun r b j f hf => slice_apply (by norm_num) (T6 V0) 1 (by norm_num) shapeCasts_S32768x1024_S32768x4x2x128
      slices_S32768x4x2x128_S32768x4x1x128_0_0_1_0 shapeCasts_S32768x4x1x128_S32768x4x128 r b j f hf)
    bcast_S4x128_S1x4x128_1_2 bcast_S1x4x128_S32768x4x128_0_1_2 bcast_S32768x4x128_S32768x4x1x128_0_1_3
    concatenates_S32768x4x1x128_S32768x4x1x128_S32768x4x2x128_d2 shapeCasts_S32768x4x2x128_S32768x1024 r f

/-- Stage 8 (stride 256, 2 blocks) of the reference, flattened to rows. -/
def T8 (V0 : Valuation τ sig (Elt Ideal)) : FVec Ideal S32768x1024 .f32 :=
  shapeCast _ (concatenate S32768x2x2x256 2 [⟨S32768x2x1x256, (broadcastInDim S32768x2x1x256 ![0, 1, 3] bcast_S32768x2x256_S32768x2x1x256_0_1_3 (subf (mulf (broadcastInDim S32768x2x256 ![0, 1, 2] bcast_S1x2x256_S32768x2x256_0_1_2 (broadcastInDim S1x2x256 ![1, 2] bcast_S2x256_S1x2x256_1_2 (res_main_v228 V0))) (res_main_v231 V0)) (mulf (broadcastInDim S32768x2x256 ![0, 1, 2] bcast_S1x2x256_S32768x2x256_0_1_2 (broadcastInDim S1x2x256 ![1, 2] bcast_S2x256_S1x2x256_1_2 (res_main_v229 V0))) (res_main_v233 V0))))⟩, ⟨S32768x2x1x256, (broadcastInDim S32768x2x1x256 ![0, 1, 3] bcast_S32768x2x256_S32768x2x1x256_0_1_3 (addf (mulf (broadcastInDim S32768x2x256 ![0, 1, 2] bcast_S1x2x256_S32768x2x256_0_1_2 (broadcastInDim S1x2x256 ![1, 2] bcast_S2x256_S1x2x256_1_2 (res_main_v229 V0))) (res_main_v231 V0)) (mulf (broadcastInDim S32768x2x256 ![0, 1, 2] bcast_S1x2x256_S32768x2x256_0_1_2 (broadcastInDim S1x2x256 ![1, 2] bcast_S2x256_S1x2x256_1_2 (res_main_v228 V0))) (res_main_v233 V0))))⟩] concatenates_S32768x2x1x256_S32768x2x1x256_S32768x2x2x256_d2) shapeCasts_S32768x2x2x256_S32768x1024

/-- The next stage's input is this stage's rows seen in blocks. -/
theorem res_main_v252_eq (V0 : Valuation τ sig (Elt Ideal)) :
    res_main_v252 V0 = shapeCast _ (T8 V0) shapeCasts_S32768x1024_S32768x1x2x512 := rfl

/-- Stage 8 at (r, f) is the specification's stage 8 of the row before it. -/
theorem T8_apply (V0 : Valuation τ sig (Elt Ideal)) (r : Fin 32768) (f : Fin 1024) :
    T8 V0 (ix2 r f) = Butterfly.stage 8 (fun k j => V0 (Proc.devRef .tc main_arg1) (ix2 k j)) (fun f' => T7 V0 (ix2 r f')) f := by
  show _ = Butterfly.step 256 (fun p => Ideal.cos (V0 (Proc.devRef .tc main_arg1) (ix2 (8 : Fin 10) p)))
    (fun p => Ideal.sin (V0 (Proc.devRef .tc main_arg1) (ix2 (8 : Fin 10) p))) (fun f' => T7 V0 (ix2 r f')) f
  exact stage_core (nb := 2) (d := 256) (by norm_num) (by norm_num)
    (res_main_v228 V0) (res_main_v229 V0) (res_main_v231 V0) (res_main_v233 V0)
    (fun p => Ideal.cos (V0 (Proc.devRef .tc main_arg1) (ix2 (8 : Fin 10) p)))
    (fun p => Ideal.sin (V0 (Proc.devRef .tc main_arg1) (ix2 (8 : Fin 10) p)))
    (fun r f => T7 V0 (ix2 r f))
    (fun b j p hp => by
      show Ideal.cos (res_main_v227 V0 (ix2 b j)) = Ideal.cos _
      exact congrArg Ideal.cos (ang_apply (V0 (Proc.devRef .tc main_arg1) : FVec Ideal S10x512 .f32) 8 (by norm_num) slices_S10x512_S1x512_8_0
        shapeCasts_S1x512_S512 shapeCasts_S512_S2x256 b j p hp))
    (fun b j p hp => by
      show Ideal.sin (res_main_v227 V0 (ix2 b j)) = Ideal.sin _
      exact congrArg Ideal.sin (ang_apply (V0 (Proc.devRef .tc main_arg1) : FVec Ideal S10x512 .f32) 8 (by norm_num) slices_S10x512_S1x512_8_0
        shapeCasts_S1x512_S512 shapeCasts_S512_S2x256 b j p hp))
    (fun r b j f hf => slice_apply (by norm_num) (T7 V0) 0 (by norm_num) shapeCasts_S32768x1024_S32768x2x2x256
      slices_S32768x2x2x256_S32768x2x1x256_0_0_0_0 shapeCasts_S32768x2x1x256_S32768x2x256 r b j f hf)
    (fun r b j f hf => slice_apply (by norm_num) (T7 V0) 1 (by norm_num) shapeCasts_S32768x1024_S32768x2x2x256
      slices_S32768x2x2x256_S32768x2x1x256_0_0_1_0 shapeCasts_S32768x2x1x256_S32768x2x256 r b j f hf)
    bcast_S2x256_S1x2x256_1_2 bcast_S1x2x256_S32768x2x256_0_1_2 bcast_S32768x2x256_S32768x2x1x256_0_1_3
    concatenates_S32768x2x1x256_S32768x2x1x256_S32768x2x2x256_d2 shapeCasts_S32768x2x2x256_S32768x1024 r f

/-- Stage 9 (stride 512, 1 blocks) of the reference, flattened to rows. -/
def T9 (V0 : Valuation τ sig (Elt Ideal)) : FVec Ideal S32768x1024 .f32 :=
  shapeCast _ (concatenate S32768x1x2x512 2 [⟨S32768x1x1x512, (broadcastInDim S32768x1x1x512 ![0, 1, 3] bcast_S32768x1x512_S32768x1x1x512_0_1_3 (subf (mulf (broadcastInDim S32768x1x512 ![0, 1, 2] bcast_S1x1x512_S32768x1x512_0_1_2 (broadcastInDim S1x1x512 ![1, 2] bcast_S1x512_S1x1x512_1_2 (res_main_v256 V0))) (res_main_v259 V0)) (mulf (broadcastInDim S32768x1x512 ![0, 1, 2] bcast_S1x1x512_S32768x1x512_0_1_2 (broadcastInDim S1x1x512 ![1, 2] bcast_S1x512_S1x1x512_1_2 (res_main_v257 V0))) (res_main_v261 V0))))⟩, ⟨S32768x1x1x512, (broadcastInDim S32768x1x1x512 ![0, 1, 3] bcast_S32768x1x512_S32768x1x1x512_0_1_3 (addf (mulf (broadcastInDim S32768x1x512 ![0, 1, 2] bcast_S1x1x512_S32768x1x512_0_1_2 (broadcastInDim S1x1x512 ![1, 2] bcast_S1x512_S1x1x512_1_2 (res_main_v257 V0))) (res_main_v259 V0)) (mulf (broadcastInDim S32768x1x512 ![0, 1, 2] bcast_S1x1x512_S32768x1x512_0_1_2 (broadcastInDim S1x1x512 ![1, 2] bcast_S1x512_S1x1x512_1_2 (res_main_v256 V0))) (res_main_v261 V0))))⟩] concatenates_S32768x1x1x512_S32768x1x1x512_S32768x1x2x512_d2) shapeCasts_S32768x1x2x512_S32768x1024

/-- Stage 9 at (r, f) is the specification's stage 9 of the row before it. -/
theorem T9_apply (V0 : Valuation τ sig (Elt Ideal)) (r : Fin 32768) (f : Fin 1024) :
    T9 V0 (ix2 r f) = Butterfly.stage 9 (fun k j => V0 (Proc.devRef .tc main_arg1) (ix2 k j)) (fun f' => T8 V0 (ix2 r f')) f := by
  show _ = Butterfly.step 512 (fun p => Ideal.cos (V0 (Proc.devRef .tc main_arg1) (ix2 (9 : Fin 10) p)))
    (fun p => Ideal.sin (V0 (Proc.devRef .tc main_arg1) (ix2 (9 : Fin 10) p))) (fun f' => T8 V0 (ix2 r f')) f
  exact stage_core (nb := 1) (d := 512) (by norm_num) (by norm_num)
    (res_main_v256 V0) (res_main_v257 V0) (res_main_v259 V0) (res_main_v261 V0)
    (fun p => Ideal.cos (V0 (Proc.devRef .tc main_arg1) (ix2 (9 : Fin 10) p)))
    (fun p => Ideal.sin (V0 (Proc.devRef .tc main_arg1) (ix2 (9 : Fin 10) p)))
    (fun r f => T8 V0 (ix2 r f))
    (fun b j p hp => by
      show Ideal.cos (res_main_v255 V0 (ix2 b j)) = Ideal.cos _
      exact congrArg Ideal.cos (ang_apply (V0 (Proc.devRef .tc main_arg1) : FVec Ideal S10x512 .f32) 9 (by norm_num) slices_S10x512_S1x512_9_0
        shapeCasts_S1x512_S512 shapeCasts_S512_S1x512 b j p hp))
    (fun b j p hp => by
      show Ideal.sin (res_main_v255 V0 (ix2 b j)) = Ideal.sin _
      exact congrArg Ideal.sin (ang_apply (V0 (Proc.devRef .tc main_arg1) : FVec Ideal S10x512 .f32) 9 (by norm_num) slices_S10x512_S1x512_9_0
        shapeCasts_S1x512_S512 shapeCasts_S512_S1x512 b j p hp))
    (fun r b j f hf => slice_apply (by norm_num) (T8 V0) 0 (by norm_num) shapeCasts_S32768x1024_S32768x1x2x512
      slices_S32768x1x2x512_S32768x1x1x512_0_0_0_0 shapeCasts_S32768x1x1x512_S32768x1x512 r b j f hf)
    (fun r b j f hf => slice_apply (by norm_num) (T8 V0) 1 (by norm_num) shapeCasts_S32768x1024_S32768x1x2x512
      slices_S32768x1x2x512_S32768x1x1x512_0_0_1_0 shapeCasts_S32768x1x1x512_S32768x1x512 r b j f hf)
    bcast_S1x512_S1x1x512_1_2 bcast_S1x1x512_S32768x1x512_0_1_2 bcast_S32768x1x512_S32768x1x1x512_0_1_3
    concatenates_S32768x1x1x512_S32768x1x1x512_S32768x1x2x512_d2 shapeCasts_S32768x1x2x512_S32768x1024 r f

end Cert.ReferenceIdeal.RefG

end
-- ==== Proof.RefG.lean ====
/-
  The reference's result is the butterfly network G of its two arguments, entry by entry: the ten stage lemmas
  chained along a row.
-/
import proofs.«100991_j68994354643574_2_alg».proof.Proof.RefStages

noncomputable section

namespace Cert.ReferenceIdeal.RefG

open Cert.ReferenceIdeal Cert.ReferenceIdeal.Gen Cert.ReferenceIdeal.Value Idealize.ShloMosaic Idealize.ShloMosaic.ValueIdx
  Idealize.ShloMosaic.StableHlo Idealize.ShloMosaic.TcCoe Idealize.SL.Sem

/-- Row r of the last stage's result is row r of the network. -/
theorem T9_row (V0 : Valuation τ sig (Elt Ideal)) (r : Fin 32768) :
    (fun f => T9 V0 (ix2 r f)) = Butterfly.G (fun r f => V0 (Proc.devRef .tc main_arg0) (ix2 r f)) (fun k j => V0 (Proc.devRef .tc main_arg1) (ix2 k j)) r := by
  set x : Fin 32768 → Fin 1024 → EReal := (fun r f => V0 (Proc.devRef .tc main_arg0) (ix2 r f)) with hx
  set ang : Fin 10 → Fin 512 → EReal := (fun k j => V0 (Proc.devRef .tc main_arg1) (ix2 k j)) with hang
  have e0 : (fun f => T0 V0 (ix2 r f)) = (Butterfly.stage 0 ang (x r)) := funext (T0_apply V0 r)
  have e1 : (fun f => T1 V0 (ix2 r f)) = (Butterfly.stage 1 ang (Butterfly.stage 0 ang (x r))) :=
    (funext (T1_apply V0 r)).trans (congrArg (Butterfly.stage 1 ang) e0)
  have e2 : (fun f => T2 V0 (ix2 r f)) = (Butterfly.stage 2 ang (Butterfly.stage 1 ang (Butterfly.stage 0 ang (x r)))) :=
    (funext (T2_apply V0 r)).trans (congrArg (Butterfly.stage 2 ang) e1)
  have e3 : (fun f => T3 V0 (ix2 r f)) = (Butterfly.stage 3 ang (Butterfly.stage 2 ang (Butterfly.stage 1 ang (Butterfly.stage 0 ang (x r))))) :=
    (funext (T3_apply V0 r)).trans (congrArg (Butterfly.stage 3 ang) e2)
  have e4 : (fun f => T4 V0 (ix2 r f)) = (Butterfly.stage 4 ang (Butterfly.stage 3 ang (Butterfly.stage 2 ang (Butterfly.stage 1 ang (Butterfly.stage 0 ang (x r)))))) :=
    (funext (T4_apply V0 r)).trans (congrArg (Butterfly.stage 4 ang) e3)
  have e5 : (fun f => T5 V0 (ix2 r f)) = (Butterfly.stage 5 ang (Butterfly.stage 4 ang (Butterfly.stage 3 ang (Butterfly.stage 2 ang (Butterfly.stage 1 ang (Butterfly.stage 0 ang (x r))))))) :=
    (funext (T5_apply V0 r)).trans (congrArg (Butterfly.stage 5 ang) e4)
  have e6 : (fun f => T6 V0 (ix2 r f)) = (Butterfly.stage 6 ang (Butterfly.stage 5 ang (Butterfly.stage 4 ang (Butterfly.stage 3 ang (Butterfly.stage 2 ang (Butterfly.stage 1 ang (Butterfly.stage 0 ang (x r)))))))) :=
    (funext (T6_apply V0 r)).trans (congrArg (Butterfly.stage 6 ang) e5)
  have e7 : (fun f => T7 V0 (ix2 r f)) = (Butterfly.stage 7 ang (Butterfly.stage 6 ang (Butterfly.stage 5 ang (Butterfly.stage 4 ang (Butterfly.stage 3 ang (Butterfly.stage 2 ang (Butterfly.stage 1 ang (Butterfly.stage 0 ang (x r))))))))) :=
    (funext (T7_apply V0 r)).trans (congrArg (Butterfly.stage 7 ang) e6)
  have e8 : (fun f => T8 V0 (ix2 r f)) = (Butterfly.stage 8 ang (Butterfly.stage 7 ang (Butterfly.stage 6 ang (Butterfly.stage 5 ang (Butterfly.stage 4 ang (Butterfly.stage 3 ang (Butterfly.stage 2 ang (Butterfly.stage 1 ang (Butterfly.stage 0 ang (x r)))))))))) :=
    (funext (T8_apply V0 r)).trans (congrArg (Butterfly.stage 8 ang) e7)
  have e9 : (fun f => T9 V0 (ix2 r f)) = (Butterfly.stage 9 ang (Butterfly.stage 8 ang (Butterfly.stage 7 ang (Butterfly.stage 6 ang (Butterfly.stage 5 ang (Butterfly.stage 4 ang (Butterfly.stage 3 ang (Butterfly.stage 2 ang (Butterfly.stage 1 ang (Butterfly.stage 0 ang (x r))))))))))) :=
    (funext (T9_apply V0 r)).trans (congrArg (Butterfly.stage 9 ang) e8)
  exact e9

/-- The last stage's result is what the reference's run leaves in its result buffer (the run's composed term). -/
theorem val5_eq_T9 (V0 : Valuation τ sig (Elt Ideal)) : val5 V0 (Proc.devRef .tc main_v279) = T9 V0 :=
  val5_main_v279 V0

/-- THE REFERENCE IS THE NETWORK: the term the reference's run ends at, read at (r, f), is G of the two arguments. -/
theorem ref_eq (V0 : Valuation τ sig (Elt Ideal)) (r : Fin 32768) (f : Fin 1024) :
    T9 V0 (ix2 r f) = Butterfly.G (fun r f => V0 (Proc.devRef .tc main_arg0) (ix2 r f)) (fun k j => V0 (Proc.devRef .tc main_arg1) (ix2 k j)) r f :=
  congrFun (T9_row V0 r) f

/-- The same, of the result buffer's contents after the run's operations. -/
theorem ref_eq_val5 (V0 : Valuation τ sig (Elt Ideal)) (r : Fin 32768) (f : Fin 1024) :
    (val5 V0 (Proc.devRef .tc main_v279) : FVec Ideal S32768x1024 .f32) (ix2 r f) = Butterfly.G (fun r f => V0 (Proc.devRef .tc main_arg0) (ix2 r f)) (fun k j => V0 (Proc.devRef .tc main_arg1) (ix2 k j)) r f := by
  rw [val5_eq_T9]
  exact ref_eq V0 r f

/-- THE REFERENCE'S RUN ENDS AT THE NETWORK: on every device, every weakly fair execution of the reference terminates with
    its result buffer holding, entry by entry, G of the two arguments' launch contents, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (i : Fin 32768) (j : Fin 1024),
        (r.2.mem ((c.tc : Thread nD τ).loc main_v279) : FVec Ideal S32768x1024 .f32) (ix2 i j)
          = Butterfly.G (fun i j => launchContents m c (Proc.devRef .tc main_arg0) (ix2 i j))
              (fun k j => launchContents m c (Proc.devRef .tc main_arg1) (ix2 k j)) i j)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨fun i j => (congrFun (h c).1 (ix2 i j)).trans (ref_eq (launchContents m c) i j),
    (h c).2.1, (h c).2.2⟩) (Value.run m ρ)

end Cert.ReferenceIdeal.RefG

end
-- ==== Proof.lean ====
/-
  The kernel and the reference compute one function of the two argument arrays: the butterfly network
  (Butterfly.G of Proof/Spec.lean).

  A row of 1024 entries goes through ten stages, stage k with stride d = 2^k.  At stride d the row falls into blocks
  of 2d entries; the entry at position f of the first half of a block and its partner at f + d are rotated by the angle
  number (f / 2d) · d + f % d of row k of the angle table:
      new f       = cos θ · v f − sin θ · v (f + d),
      new (f + d) = sin θ · v f + cos θ · v (f + d).

  The reference sees the row as nb = 512 / d blocks of two halves of d entries, takes the two halves apart, rotates them
  against each other with the cosines and sines of the angle row seen as nb × d, and puts the halves back side by
  side.  Every one of its operations is an index map or acts entry by entry, so its result at (r, f) is the rotation
  formula at the entries the index maps name (Proof/RefStage.lean, for any nb and d; Proof/RefStages.lean, the ten stages;
  Proof/RefG.lean, the chain).

  The kernel keeps the row flat.  It spreads the cosines and sines of a stage over the 1024 positions (each pair's
  angle at both of its positions) and a mask that is 1 on first halves and 0 on second halves, reads the partner of
  every position by rolling the row by d either way, forms both rotation formulas at every position and keeps
  mask · first + (1 − mask) · second.  On the extended reals 1 · a + 0 · b = a and 0 · a + 1 · b = b for every a and b,
  since 0 · x = 0 also at the infinities, so the selection is exact and the kernel's stage is the same step
  (Proof/KTab.lean … Proof/KValue.lean, Proof/KRun.lean); the 64 blocks of 512 rows cover the result array.

  Both programs leave their arguments unchanged (the frames: Proof/KFrame.lean, Proof/KFrameBits.lean, and the
  reference's generated run), and the ideal pass rewrote nothing, so there is nothing to preserve.
-/
import proofs.«100991_j68994354643574_2_alg».proof.Defs
import proofs.«100991_j68994354643574_2_alg».proof.Proof.Gen.Kernel
import proofs.«100991_j68994354643574_2_alg».proof.Proof.Gen.KernelIdeal
import proofs.«100991_j68994354643574_2_alg».proof.Proof.Gen.ReferenceIdeal
import proofs.«100991_j68994354643574_2_alg».proof.Proof.Gen.ReferenceIdeal.Run
import proofs.«100991_j68994354643574_2_alg».proof.Proof.Gen.Pre_finite_inputs
import proofs.«100991_j68994354643574_2_alg».proof.Proof.KFrameBits
import proofs.«100991_j68994354643574_2_alg».proof.Proof.KRun
import proofs.«100991_j68994354643574_2_alg».proof.Proof.RefG

noncomputable section

namespace Cert.Proof

open Idealize.ShloMosaic Idealize.ShloMosaic.TcCoe Idealize.ShloMosaic.ValueIdx Idealize.SL.Sem

/-- The kernel as printed runs and leaves its arguments unchanged. -/
theorem frame_k : Cert.frame_Kernel := fun m ρ _ => Cert.Kernel.Frm.frame (F := Bits) m ρ

/-- So does the kernel read on the extended reals. -/
theorem frame_ki : Cert.frame_KernelIdeal := fun m ρ _ => Cert.KernelIdeal.Frm.frame (F := Ideal) m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- On the extended reals both result arrays end at the network of the argument arrays: the kernel's by its run read
    block by block, the reference's by its run read stage by stage; the arguments agree, so the results do. -/
theorem algebraic : Cert.algebraic_KernelIdeal_ReferenceIdeal := by
  intro m ρ m' ρ' _ hagree
  refine ⟨fun c => Cert.KernelIdeal.KV.Gfun
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.KV.run m ρ, ?_⟩
  refine (θ_run Cert.ReferenceIdeal.defs _ _).mono (fun _ h c => ⟨?_, (h c).2⟩)
    (Cert.ReferenceIdeal.RefG.run_G m' ρ')
  funext i
  obtain ⟨a, b, rfl⟩ : ∃ (a : Fin 32768) (b : Fin 1024), i = ix2 a b := ⟨i 0, i 1, eq_ix2 i⟩
  refine ((h c).1 a b).trans ?_
  show Butterfly.G
      (fun i j => m' ((c : Thread Cert.ReferenceIdeal.nD Cert.ReferenceIdeal.τ).loc Cert.ReferenceIdeal.main_arg0) (ix2 i j))
      (fun k j => m' ((c : Thread Cert.ReferenceIdeal.nD Cert.ReferenceIdeal.τ).loc Cert.ReferenceIdeal.main_arg1) (ix2 k j)) a b
    = Butterfly.G
      (fun r f => m ((c : Thread Cert.KernelIdeal.nD Cert.KernelIdeal.τ).loc Cert.KernelIdeal.main_arg0) (ix2 r f))
      (fun k j => m ((c : Thread Cert.KernelIdeal.nD Cert.KernelIdeal.τ).loc Cert.KernelIdeal.main_arg1) (ix2 k j)) a b
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
